-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x49x384 : Shape := ⟨3, ![4096, 49, 384]⟩
abbrev S64x49x49 : Shape := ⟨3, ![64, 49, 49]⟩
abbrev S1152x384 : Shape := ⟨2, ![1152, 384]⟩
abbrev S1152 : Shape := ⟨1, ![1152]⟩
abbrev S13x13x12 : Shape := ⟨3, ![13, 13, 12]⟩
abbrev S384x384 : Shape := ⟨2, ![384, 384]⟩
abbrev S384 : Shape := ⟨1, ![384]⟩
abbrev S_ : Shape := ⟨0, ![]⟩

class Facts : Prop where
  bcast_S_S4096x49x384 : S_.BroadcastsInDim S4096x49x384 (![] : Fin 0 → Fin S4096x49x384.rank)
  reducesTo_S4096x49x384_S_d0_1_2 : S4096x49x384.ReducesTo [0, 1, 2] S_
  h_S_ : 0 < S_.numel
  bcast_S_S64x49x49 : S_.BroadcastsInDim S64x49x49 (![] : Fin 0 → Fin S64x49x49.rank)
  reducesTo_S64x49x49_S_d0_1_2 : S64x49x49.ReducesTo [0, 1, 2] S_
  bcast_S_S1152x384 : S_.BroadcastsInDim S1152x384 (![] : Fin 0 → Fin S1152x384.rank)
  reducesTo_S1152x384_S_d0_1 : S1152x384.ReducesTo [0, 1] S_
  bcast_S_S1152 : S_.BroadcastsInDim S1152 (![] : Fin 0 → Fin S1152.rank)
  reducesTo_S1152_S_d0 : S1152.ReducesTo [0] S_
  bcast_S_S13x13x12 : S_.BroadcastsInDim S13x13x12 (![] : Fin 0 → Fin S13x13x12.rank)
  reducesTo_S13x13x12_S_d0_1_2 : S13x13x12.ReducesTo [0, 1, 2] S_
  bcast_S_S384x384 : S_.BroadcastsInDim S384x384 (![] : Fin 0 → Fin S384x384.rank)
  reducesTo_S384x384_S_d0_1 : S384x384.ReducesTo [0, 1] S_
  bcast_S_S384 : S_.BroadcastsInDim S384 (![] : Fin 0 → Fin S384.rank)
  reducesTo_S384_S_d0 : S384.ReducesTo [0] S_

variable [Facts]

def fn_part1 {F : FTy → Type} [FloatOps F] (main_arg4 : FVec F S13x13x12 .f32) (main_arg5 : FVec F S384x384 .f32) (main_arg6 : FVec F S384 .f32) (main_v13 : IVec S_ 1) (main_v16 : IVec S1152 1) : IVec S_ 1 :=
  let main_c_5 : IVec S_ 1 := constantI S_ 1 1#1
  let main_v17 : IVec S_ 1 := (fun x v => Host.reduce IntOp.andi x v reducesTo_S1152_S_d0 h_S_) main_v16 main_c_5
  let main_v18 : IVec S_ 1 := andi main_v13 main_v17
  let main_v19 : FVec F S13x13x12 .f32 := Host.absf main_arg4
  let main_cst_6 : FVec F S_ .f32 := constant S_ .f32 0x7F800000#32
  let main_v20 : FVec F S13x13x12 .f32 := broadcastInDim S13x13x12 ![] bcast_S_S13x13x12 main_cst_6
  let main_v21 : IVec S13x13x12 1 := cmpf .olt main_v19 main_v20
  let main_c_7 : IVec S_ 1 := constantI S_ 1 1#1
  let main_v22 : IVec S_ 1 := (fun x v => Host.reduce IntOp.andi x v reducesTo_S13x13x12_S_d0_1_2 h_S_) main_v21 main_c_7
  let main_v23 : IVec S_ 1 := andi main_v18 main_v22
  let main_v24 : FVec F S384x384 .f32 := Host.absf main_arg5
  let main_cst_8 : FVec F S_ .f32 := constant S_ .f32 0x7F800000#32
  let main_v25 : FVec F S384x384 .f32 := broadcastInDim S384x384 ![] bcast_S_S384x384 main_cst_8
  let main_v26 : IVec S384x384 1 := cmpf .olt main_v24 main_v25
  let main_c_9 : IVec S_ 1 := constantI S_ 1 1#1
  let main_v27 : IVec S_ 1 := (fun x v => Host.reduce IntOp.andi x v reducesTo_S384x384_S_d0_1 h_S_) main_v26 main_c_9
  let main_v28 : IVec S_ 1 := andi main_v23 main_v27
  let main_v29 : FVec F S384 .f32 := Host.absf main_arg6
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  main_v33

def fn {F : FTy → Type} [FloatOps F] (main_arg0 : FVec F S4096x49x384 .f32) (main_arg1 : FVec F S64x49x49 .f32) (main_arg2 : FVec F S1152x384 .f32) (main_arg3 : FVec F S1152 .f32) (main_arg4 : FVec F S13x13x12 .f32) (main_arg5 : FVec F S384x384 .f32) (main_arg6 : FVec F S384 .f32) : IVec S_ 1 :=
  let main_v0 : FVec F S4096x49x384 .f32 := Host.absf main_arg0
  let main_cst : FVec F S_ .f32 := constant S_ .f32 0x7F800000#32
  let main_v1 : FVec F S4096x49x384 .f32 := broadcastInDim S4096x49x384 ![] bcast_S_S4096x49x384 main_cst
  let main_v2 : IVec S4096x49x384 1 := cmpf .olt main_v0 main_v1
  let main_c : IVec S_ 1 := constantI S_ 1 1#1
  let main_v3 : IVec S_ 1 := (fun x v => Host.reduce IntOp.andi x v reducesTo_S4096x49x384_S_d0_1_2 h_S_) main_v2 main_c
  let main_v4 : FVec F S64x49x49 .f32 := Host.absf main_arg1
  let main_cst_0 : FVec F S_ .f32 := constant S_ .f32 0x7F800000#32
  let main_v5 : FVec F S64x49x49 .f32 := broadcastInDim S64x49x49 ![] bcast_S_S64x49x49 main_cst_0
  let main_v6 : IVec S64x49x49 1 := cmpf .olt main_v4 main_v5
  let main_c_1 : IVec S_ 1 := constantI S_ 1 1#1
  let main_v7 : IVec S_ 1 := (fun x v => Host.reduce IntOp.andi x v reducesTo_S64x49x49_S_d0_1_2 h_S_) main_v6 main_c_1
  let main_v8 : IVec S_ 1 := andi main_v3 main_v7
  let main_v9 : FVec F S1152x384 .f32 := Host.absf main_arg2
  let main_cst_2 : FVec F S_ .f32 := constant S_ .f32 0x7F800000#32
  let main_v10 : FVec F S1152x384 .f32 := broadcastInDim S1152x384 ![] bcast_S_S1152x384 main_cst_2
  let main_v11 : IVec S1152x384 1 := cmpf .olt main_v9 main_v10
  let main_c_3 : IVec S_ 1 := constantI S_ 1 1#1
  let main_v12 : IVec S_ 1 := (fun x v => Host.reduce IntOp.andi x v reducesTo_S1152x384_S_d0_1 h_S_) main_v11 main_c_3
  let main_v13 : IVec S_ 1 := andi main_v8 main_v12
  let main_v14 : FVec F S1152 .f32 := Host.absf main_arg3
  let main_cst_4 : FVec F S_ .f32 := constant S_ .f32 0x7F800000#32
  let main_v15 : FVec F S1152 .f32 := broadcastInDim S1152 ![] bcast_S_S1152 main_cst_4
  let main_v16 : IVec S1152 1 := cmpf .olt main_v14 main_v15
  fn_part1 (F := F) main_arg4 main_arg5 main_arg6 main_v13 main_v16
-- ==== Kernel.lean ====
abbrev S4096x49x384 : Shape := ⟨3, ![4096, 49, 384]⟩
abbrev S64x49x49 : Shape := ⟨3, ![64, 49, 49]⟩
abbrev S1152x384 : Shape := ⟨2, ![1152, 384]⟩
abbrev S1152 : Shape := ⟨1, ![1152]⟩
abbrev S13x13x12 : Shape := ⟨3, ![13, 13, 12]⟩
abbrev S384x384 : Shape := ⟨2, ![384, 384]⟩
abbrev S384 : Shape := ⟨1, ![384]⟩
abbrev S49x49 : Shape := ⟨2, ![49, 49]⟩
abbrev S169x12 : Shape := ⟨2, ![169, 12]⟩
abbrev S_ : Shape := ⟨0, ![]⟩
abbrev S49x49x1 : Shape := ⟨3, ![49, 49, 1]⟩
abbrev S49x49x12 : Shape := ⟨3, ![49, 49, 12]⟩
abbrev S12x49x49 : Shape := ⟨3, ![12, 49, 49]⟩
abbrev S384x1152 : Shape := ⟨2, ![384, 1152]⟩
abbrev S1x1152 : Shape := ⟨2, ![1, 1152]⟩
abbrev S1x384 : Shape := ⟨2, ![1, 384]⟩
abbrev S32x49x384 : Shape := ⟨3, ![32, 49, 384]⟩
abbrev S1568x1152 : Shape := ⟨2, ![1568, 1152]⟩
abbrev S1568x384 : Shape := ⟨2, ![1568, 384]⟩
abbrev S32x49x49 : Shape := ⟨3, ![32, 49, 49]⟩
abbrev S1568x32 : Shape := ⟨2, ![1568, 32]⟩
abbrev S32x49x32 : Shape := ⟨3, ![32, 49, 32]⟩
abbrev S1x49x49 : Shape := ⟨3, ![1, 49, 49]⟩
abbrev S32x49 : Shape := ⟨2, ![32, 49]⟩
abbrev S32x49x1 : Shape := ⟨3, ![32, 49, 1]⟩

abbrev nBuf : Space → Nat
  | .hbm => 24
  | .vmem => 12
  | .smem => 0
  | _ => 0

abbrev bufTy : (tb : Table) → Fin (tcTables nBuf tb) → BufTy
  | .hbm, ⟨0, _⟩ => ⟨S4096x49x384, .f32⟩
  | .hbm, ⟨1, _⟩ => ⟨S64x49x49, .f32⟩
  | .hbm, ⟨2, _⟩ => ⟨S1152x384, .f32⟩
  | .hbm, ⟨3, _⟩ => ⟨S1152, .f32⟩
  | .hbm, ⟨4, _⟩ => ⟨S13x13x12, .f32⟩
  | .hbm, ⟨5, _⟩ => ⟨S384x384, .f32⟩
  | .hbm, ⟨6, _⟩ => ⟨S384, .f32⟩
  | .hbm, ⟨7, _⟩ => ⟨S49x49, .i32⟩
  | .hbm, ⟨8, _⟩ => ⟨S49x49, .i1⟩
  | .hbm, ⟨9, _⟩ => ⟨S169x12, .f32⟩
  | .hbm, ⟨10, _⟩ => ⟨S_, .i32⟩
  | .hbm, ⟨11, _⟩ => ⟨S49x49, .i32⟩
  | .hbm, ⟨12, _⟩ => ⟨S49x49, .i32⟩
  | .hbm, ⟨13, _⟩ => ⟨S49x49, .i32⟩
  | .hbm, ⟨14, _⟩ => ⟨S49x49x1, .i32⟩
  | .hbm, ⟨15, _⟩ => ⟨S49x49x12, .f32⟩
  | .hbm, ⟨16, _⟩ => ⟨S12x49x49, .f32⟩
  | .hbm, ⟨17, _⟩ => ⟨S384x1152, .f32⟩
  | .hbm, ⟨18, _⟩ => ⟨S384x1152, .bf16⟩
  | .hbm, ⟨19, _⟩ => ⟨S384x384, .f32⟩
  | .hbm, ⟨20, _⟩ => ⟨S384x384, .bf16⟩
  | .hbm, ⟨21, _⟩ => ⟨S1x1152, .f32⟩
  | .hbm, ⟨22, _⟩ => ⟨S1x384, .f32⟩
  | .hbm, ⟨23, _⟩ => ⟨S4096x49x384, .f32⟩
  | .local _ .vmem, ⟨0, _⟩ => ⟨S32x49x384, .f32⟩
  | .local _ .vmem, ⟨1, _⟩ => ⟨S32x49x384, .f32⟩
  | .local _ .vmem, ⟨2, _⟩ => ⟨S64x49x49, .f32⟩
  | .local _ .vmem, ⟨3, _⟩ => ⟨S384x1152, .bf16⟩
  | .local _ .vmem, ⟨4, _⟩ => ⟨S1x1152, .f32⟩
  | .local _ .vmem, ⟨5, _⟩ => ⟨S12x49x49, .f32⟩
  | .local _ .vmem, ⟨6, _⟩ => ⟨S384x384, .bf16⟩
  | .local _ .vmem, ⟨7, _⟩ => ⟨S1x384, .f32⟩
  | .local _ .vmem, ⟨8, _⟩ => ⟨S32x49x384, .f32⟩
  | .local _ .vmem, ⟨9, _⟩ => ⟨S32x49x384, .f32⟩
  | .local _ .vmem, ⟨10, _⟩ => ⟨S1568x1152, .f32⟩
  | .local _ .vmem, ⟨11, _⟩ => ⟨S1568x384, .bf16⟩
  | _, _ => ⟨S4096x49x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_v0 : Ref sig .tc := ⟨.hbm, 9, rfl⟩
abbrev main_c_1 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![128], ![false]⟩

def k0_mult1 (i : grid0.Coords) : BitVec 32 :=
  let arg0 : BitVec 32 := BitVec.ofNat 32 (i 0).val
  let c2_i32 : BitVec 32 := 2#32
  let c0_i32 : BitVec 32 := 0#32
  let v13 : BitVec 1 := Scalar.cmpi .eq c2_i32 c0_i32
  let c1_i32 : BitVec 32 := 1#32
  let v14 : BitVec 32 := Scalar.select v13 c1_i32 c2_i32
  let v15 : BitVec 32 := Scalar.remsi arg0 v14
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let c0_i32_8 : BitVec 32 := 0#32
  let v16 : BitVec 1 := Scalar.cmpi .ne v15 c0_i32_8
  let v20 : BitVec 1 := Scalar.andi v19 v16
  let v21 : BitVec 32 := Scalar.addi v15 v14
  let v22 : BitVec 32 := Scalar.select v20 v21 v15
  let c32_i32 : BitVec 32 := 32#32
  let v23 : BitVec 32 := Scalar.muli v22 c32_i32
  v23
def k0_off1 (i : grid0.Coords) : Fin 3 → Nat :=
  let arg0 : BitVec 32 := BitVec.ofNat 32 (i 0).val
  let c2_i32 : BitVec 32 := 2#32
  let c0_i32 : BitVec 32 := 0#32
  let v13 : BitVec 1 := Scalar.cmpi .eq c2_i32 c0_i32
  let c1_i32 : BitVec 32 := 1#32
  let v14 : BitVec 32 := Scalar.select v13 c1_i32 c2_i32
  let v15 : BitVec 32 := Scalar.remsi arg0 v14
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let c0_i32_8 : BitVec 32 := 0#32
  let v16 : BitVec 1 := Scalar.cmpi .ne v15 c0_i32_8
  let v20 : BitVec 1 := Scalar.andi v19 v16
  let v21 : BitVec 32 := Scalar.addi v15 v14
  let v22 : BitVec 32 := Scalar.select v20 v21 v15
  let c32_i32 : BitVec 32 := 32#32
  let v23 : BitVec 32 := Scalar.muli v22 c32_i32
  let v24 : BitVec 32 := v23
  let v25 : Index := Scalar.indexCast v24
  let c0_11 : Index := 0#32
  let c0_12 : Index := 0#32
  ![v25.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x49x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x49x49 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S384x1152 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1152 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S12x49x49 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S32x49x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S13x13x12_S169x12 : S13x13x12.ShapeCasts S169x12
  bcast_S_S49x49 : S_.BroadcastsInDim S49x49 (![] : Fin 0 → Fin S49x49.rank)
  bcast_S49x49_S49x49x1_0_1 : S49x49.BroadcastsInDim S49x49x1 (![0, 1] : Fin 2 → Fin S49x49x1.rank)
  transposes_S49x49x12_S12x49x49_2_0_1 : S49x49x12.Transposes [2, 0, 1] S12x49x49
  transposes_S1152x384_S384x1152_1_0 : S1152x384.Transposes [1, 0] S384x1152
  bitsLt_bf16_f32 : FTy.bits .bf16 < FTy.bits .f32
  transposes_S384x384_S384x384_1_0 : S384x384.Transposes [1, 0] S384x384
  shapeCasts_S1152_S1x1152 : S1152.ShapeCasts S1x1152
  shapeCasts_S384_S1x384 : S384.ShapeCasts S1x384
  inb_S32x49x384_S32x49x384_0_0_0 : ∀ a, (![0, 0, 0] : Fin 3 → Nat) a + S32x49x384.size a ≤ S32x49x384.size a
  h_S32x49x384 : 0 < S32x49x384.numel
  shapeCasts_S32x49x384_S1568x384 : S32x49x384.ShapeCasts S1568x384
  inb_S384x1152_S384x1152_0_0 : ∀ a, (![0, 0] : Fin 2 → Nat) a + S384x1152.size a ≤ S384x1152.size a
  h_S384x1152 : 0 < S384x1152.numel
  shapeCasts_S384x1152_S384x1152 : S384x1152.ShapeCasts S384x1152
  inb_S1x1152_S1x1152_0_0 : ∀ a, (![0, 0] : Fin 2 → Nat) a + S1x1152.size a ≤ S1x1152.size a
  h_S1x1152 : 0 < S1x1152.numel
  shapeCasts_S1x1152_S1x1152 : S1x1152.ShapeCasts S1x1152
  broadcasts_S1x1152_S1568x1152 : S1x1152.Broadcasts S1568x1152
  inb_S1568x1152_S1568x1152_0_0 : ∀ a, (![0, 0] : Fin 2 → Nat) a + S1568x1152.size a ≤ S1568x1152.size a
  h_S1568x1152 : 0 < S1568x1152.numel
  shapeCasts_S1568x1152_S1568x1152 : S1568x1152.ShapeCasts S1568x1152
  h_S32x49x49 : 0 < S32x49x49.numel
  inb_S1568x1152_S1568x32_0_0 : ∀ a, (![0, 0] : Fin 2 → Nat) a + S1568x32.size a ≤ S1568x1152.size a
  h_S1568x32 : 0 < S1568x32.numel
  inb_S1568x1152_S1568x32_0_384 : ∀ a, (![0, 384] : Fin 2 → Nat) a + S1568x32.size a ≤ S1568x1152.size a
  inb_S1568x1152_S1568x32_0_768 : ∀ a, (![0, 768] : Fin 2 → Nat) a + S1568x32.size a ≤ S1568x1152.size a
  shapeCasts_S1568x32_S32x49x32 : S1568x32.ShapeCasts S32x49x32
  inb_S12x49x49_S1x49x49_0_0_0 : ∀ a, (![0, 0, 0] : Fin 3 → Nat) a + S1x49x49.size a ≤ S12x49x49.size a
  h_S1x49x49 : 0 < S1x49x49.numel
  shapeCasts_S1x49x49_S49x49 : S1x49x49.ShapeCasts S49x49
  shapeCasts_S49x49_S1x49x49 : S49x49.ShapeCasts S1x49x49
  broadcasts_S1x49x49_S32x49x49 : S1x49x49.Broadcasts S32x49x49
  reduces_S32x49x49_S32x49 : S32x49x49.Reduces [2] S32x49
  shapeCasts_S32x49_S32x49x1 : S32x49.ShapeCasts S32x49x1
  broadcasts_S32x49x1_S32x49x49 : S32x49x1.Broadcasts S32x49x49
  shapeCasts_S32x49x32_S1568x32 : S32x49x32.ShapeCasts S1568x32
  inb_S1568x384_S1568x32_0_0 : ∀ a, (![0, 0] : Fin 2 → Nat) a + S1568x32.size a ≤ S1568x384.size a
  shapeCasts_S1568x32_S1568x32 : S1568x32.ShapeCasts S1568x32
  packedbf16_S1568x384_S1568x32_0_0 : (Rect.unit (s := S1568x384) ![0, 0] S1568x32.size inb_S1568x384_S1568x32_0_0).PackedRows (EltTy.packing .bf16)
  inb_S1568x1152_S1568x32_0_32 : ∀ a, (![0, 32] : Fin 2 → Nat) a + S1568x32.size a ≤ S1568x1152.size a
  inb_S1568x1152_S1568x32_0_416 : ∀ a, (![0, 416] : Fin 2 → Nat) a + S1568x32.size a ≤ S1568x1152.size a
  inb_S1568x1152_S1568x32_0_800 : ∀ a, (![0, 800] : Fin 2 → Nat) a + S1568x32.size a ≤ S1568x1152.size a
  inb_S12x49x49_S1x49x49_1_0_0 : ∀ a, (![1, 0, 0] : Fin 3 → Nat) a + S1x49x49.size a ≤ S12x49x49.size a
  inb_S1568x384_S1568x32_0_32 : ∀ a, (![0, 32] : Fin 2 → Nat) a + S1568x32.size a ≤ S1568x384.size a
  packedbf16_S1568x384_S1568x32_0_32 : (Rect.unit (s := S1568x384) ![0, 32] S1568x32.size inb_S1568x384_S1568x32_0_32).PackedRows (EltTy.packing .bf16)
  inb_S1568x1152_S1568x32_0_64 : ∀ a, (![0, 64] : Fin 2 → Nat) a + S1568x32.size a ≤ S1568x1152.size a
  inb_S1568x1152_S1568x32_0_448 : ∀ a, (![0, 448] : Fin 2 → Nat) a + S1568x32.size a ≤ S1568x1152.size a
  inb_S1568x1152_S1568x32_0_832 : ∀ a, (![0, 832] : Fin 2 → Nat) a + S1568x32.size a ≤ S1568x1152.size a
  inb_S12x49x49_S1x49x49_2_0_0 : ∀ a, (![2, 0, 0] : Fin 3 → Nat) a + S1x49x49.size a ≤ S12x49x49.size a
  inb_S1568x384_S1568x32_0_64 : ∀ a, (![0, 64] : Fin 2 → Nat) a + S1568x32.size a ≤ S1568x384.size a
  packedbf16_S1568x384_S1568x32_0_64 : (Rect.unit (s := S1568x384) ![0, 64] S1568x32.size inb_S1568x384_S1568x32_0_64).PackedRows (EltTy.packing .bf16)
  inb_S1568x1152_S1568x32_0_96 : ∀ a, (![0, 96] : Fin 2 → Nat) a + S1568x32.size a ≤ S1568x1152.size a
  inb_S1568x1152_S1568x32_0_480 : ∀ a, (![0, 480] : Fin 2 → Nat) a + S1568x32.size a ≤ S1568x1152.size a
  inb_S1568x1152_S1568x32_0_864 : ∀ a, (![0, 864] : Fin 2 → Nat) a + S1568x32.size a ≤ S1568x1152.size a
  inb_S12x49x49_S1x49x49_3_0_0 : ∀ a, (![3, 0, 0] : Fin 3 → Nat) a + S1x49x49.size a ≤ S12x49x49.size a
  inb_S1568x384_S1568x32_0_96 : ∀ a, (![0, 96] : Fin 2 → Nat) a + S1568x32.size a ≤ S1568x384.size a
  packedbf16_S1568x384_S1568x32_0_96 : (Rect.unit (s := S1568x384) ![0, 96] S1568x32.size inb_S1568x384_S1568x32_0_96).PackedRows (EltTy.packing .bf16)
  inb_S1568x1152_S1568x32_0_128 : ∀ a, (![0, 128] : Fin 2 → Nat) a + S1568x32.size a ≤ S1568x1152.size a
  inb_S1568x1152_S1568x32_0_512 : ∀ a, (![0, 512] : Fin 2 → Nat) a + S1568x32.size a ≤ S1568x1152.size a
  inb_S1568x1152_S1568x32_0_896 : ∀ a, (![0, 896] : Fin 2 → Nat) a + S1568x32.size a ≤ S1568x1152.size a
  inb_S12x49x49_S1x49x49_4_0_0 : ∀ a, (![4, 0, 0] : Fin 3 → Nat) a + S1x49x49.size a ≤ S12x49x49.size a
  inb_S1568x384_S1568x32_0_128 : ∀ a, (![0, 128] : Fin 2 → Nat) a + S1568x32.size a ≤ S1568x384.size a
  packedbf16_S1568x384_S1568x32_0_128 : (Rect.unit (s := S1568x384) ![0, 128] S1568x32.size inb_S1568x384_S1568x32_0_128).PackedRows (EltTy.packing .bf16)
  inb_S1568x1152_S1568x32_0_160 : ∀ a, (![0, 160] : Fin 2 → Nat) a + S1568x32.size a ≤ S1568x1152.size a
  inb_S1568x1152_S1568x32_0_544 : ∀ a, (![0, 544] : Fin 2 → Nat) a + S1568x32.size a ≤ S1568x1152.size a
  inb_S1568x1152_S1568x32_0_928 : ∀ a, (![0, 928] : Fin 2 → Nat) a + S1568x32.size a ≤ S1568x1152.size a
  inb_S12x49x49_S1x49x49_5_0_0 : ∀ a, (![5, 0, 0] : Fin 3 → Nat) a + S1x49x49.size a ≤ S12x49x49.size a
  inb_S1568x384_S1568x32_0_160 : ∀ a, (![0, 160] : Fin 2 → Nat) a + S1568x32.size a ≤ S1568x384.size a
  packedbf16_S1568x384_S1568x32_0_160 : (Rect.unit (s := S1568x384) ![0, 160] S1568x32.size inb_S1568x384_S1568x32_0_160).PackedRows (EltTy.packing .bf16)
  inb_S1568x1152_S1568x32_0_192 : ∀ a, (![0, 192] : Fin 2 → Nat) a + S1568x32.size a ≤ S1568x1152.size a
  inb_S1568x1152_S1568x32_0_576 : ∀ a, (![0, 576] : Fin 2 → Nat) a + S1568x32.size a ≤ S1568x1152.size a
  inb_S1568x1152_S1568x32_0_960 : ∀ a, (![0, 960] : Fin 2 → Nat) a + S1568x32.size a ≤ S1568x1152.size a
  inb_S12x49x49_S1x49x49_6_0_0 : ∀ a, (![6, 0, 0] : Fin 3 → Nat) a + S1x49x49.size a ≤ S12x49x49.size a
  inb_S1568x384_S1568x32_0_192 : ∀ a, (![0, 192] : Fin 2 → Nat) a + S1568x32.size a ≤ S1568x384.size a
  packedbf16_S1568x384_S1568x32_0_192 : (Rect.unit (s := S1568x384) ![0, 192] S1568x32.size inb_S1568x384_S1568x32_0_192).PackedRows (EltTy.packing .bf16)
  inb_S1568x1152_S1568x32_0_224 : ∀ a, (![0, 224] : Fin 2 → Nat) a + S1568x32.size a ≤ S1568x1152.size a
  inb_S1568x1152_S1568x32_0_608 : ∀ a, (![0, 608] : Fin 2 → Nat) a + S1568x32.size a ≤ S1568x1152.size a
  inb_S1568x1152_S1568x32_0_992 : ∀ a, (![0, 992] : Fin 2 → Nat) a + S1568x32.size a ≤ S1568x1152.size a
  inb_S12x49x49_S1x49x49_7_0_0 : ∀ a, (![7, 0, 0] : Fin 3 → Nat) a + S1x49x49.size a ≤ S12x49x49.size a
  inb_S1568x384_S1568x32_0_224 : ∀ a, (![0, 224] : Fin 2 → Nat) a + S1568x32.size a ≤ S1568x384.size a
  packedbf16_S1568x384_S1568x32_0_224 : (Rect.unit (s := S1568x384) ![0, 224] S1568x32.size inb_S1568x384_S1568x32_0_224).PackedRows (EltTy.packing .bf16)
  inb_S1568x1152_S1568x32_0_256 : ∀ a, (![0, 256] : Fin 2 → Nat) a + S1568x32.size a ≤ S1568x1152.size a
  inb_S1568x1152_S1568x32_0_640 : ∀ a, (![0, 640] : Fin 2 → Nat) a + S1568x32.size a ≤ S1568x1152.size a
  inb_S1568x1152_S1568x32_0_1024 : ∀ a, (![0, 1024] : Fin 2 → Nat) a + S1568x32.size a ≤ S1568x1152.size a
  inb_S12x49x49_S1x49x49_8_0_0 : ∀ a, (![8, 0, 0] : Fin 3 → Nat) a + S1x49x49.size a ≤ S12x49x49.size a
  inb_S1568x384_S1568x32_0_256 : ∀ a, (![0, 256] : Fin 2 → Nat) a + S1568x32.size a ≤ S1568x384.size a
  packedbf16_S1568x384_S1568x32_0_256 : (Rect.unit (s := S1568x384) ![0, 256] S1568x32.size inb_S1568x384_S1568x32_0_256).PackedRows (EltTy.packing .bf16)
  inb_S1568x1152_S1568x32_0_288 : ∀ a, (![0, 288] : Fin 2 → Nat) a + S1568x32.size a ≤ S1568x1152.size a
  inb_S1568x1152_S1568x32_0_672 : ∀ a, (![0, 672] : Fin 2 → Nat) a + S1568x32.size a ≤ S1568x1152.size a
  inb_S1568x1152_S1568x32_0_1056 : ∀ a, (![0, 1056] : Fin 2 → Nat) a + S1568x32.size a ≤ S1568x1152.size a
  inb_S12x49x49_S1x49x49_9_0_0 : ∀ a, (![9, 0, 0] : Fin 3 → Nat) a + S1x49x49.size a ≤ S12x49x49.size a
  inb_S1568x384_S1568x32_0_288 : ∀ a, (![0, 288] : Fin 2 → Nat) a + S1568x32.size a ≤ S1568x384.size a
  packedbf16_S1568x384_S1568x32_0_288 : (Rect.unit (s := S1568x384) ![0, 288] S1568x32.size inb_S1568x384_S1568x32_0_288).PackedRows (EltTy.packing .bf16)
  inb_S1568x1152_S1568x32_0_320 : ∀ a, (![0, 320] : Fin 2 → Nat) a + S1568x32.size a ≤ S1568x1152.size a
  inb_S1568x1152_S1568x32_0_704 : ∀ a, (![0, 704] : Fin 2 → Nat) a + S1568x32.size a ≤ S1568x1152.size a
  inb_S1568x1152_S1568x32_0_1088 : ∀ a, (![0, 1088] : Fin 2 → Nat) a + S1568x32.size a ≤ S1568x1152.size a
  inb_S12x49x49_S1x49x49_10_0_0 : ∀ a, (![10, 0, 0] : Fin 3 → Nat) a + S1x49x49.size a ≤ S12x49x49.size a
  inb_S1568x384_S1568x32_0_320 : ∀ a, (![0, 320] : Fin 2 → Nat) a + S1568x32.size a ≤ S1568x384.size a
  packedbf16_S1568x384_S1568x32_0_320 : (Rect.unit (s := S1568x384) ![0, 320] S1568x32.size inb_S1568x384_S1568x32_0_320).PackedRows (EltTy.packing .bf16)
  inb_S1568x1152_S1568x32_0_352 : ∀ a, (![0, 352] : Fin 2 → Nat) a + S1568x32.size a ≤ S1568x1152.size a
  inb_S1568x1152_S1568x32_0_736 : ∀ a, (![0, 736] : Fin 2 → Nat) a + S1568x32.size a ≤ S1568x1152.size a
  inb_S1568x1152_S1568x32_0_1120 : ∀ a, (![0, 1120] : Fin 2 → Nat) a + S1568x32.size a ≤ S1568x1152.size a
  inb_S12x49x49_S1x49x49_11_0_0 : ∀ a, (![11, 0, 0] : Fin 3 → Nat) a + S1x49x49.size a ≤ S12x49x49.size a
  inb_S1568x384_S1568x32_0_352 : ∀ a, (![0, 352] : Fin 2 → Nat) a + S1568x32.size a ≤ S1568x384.size a
  packedbf16_S1568x384_S1568x32_0_352 : (Rect.unit (s := S1568x384) ![0, 352] S1568x32.size inb_S1568x384_S1568x32_0_352).PackedRows (EltTy.packing .bf16)
  inb_S1568x384_S1568x384_0_0 : ∀ a, (![0, 0] : Fin 2 → Nat) a + S1568x384.size a ≤ S1568x384.size a
  h_S1568x384 : 0 < S1568x384.numel
  inb_S384x384_S384x384_0_0 : ∀ a, (![0, 0] : Fin 2 → Nat) a + S384x384.size a ≤ S384x384.size a
  h_S384x384 : 0 < S384x384.numel
  shapeCasts_S384x384_S384x384 : S384x384.ShapeCasts S384x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S1568x384 : S1x384.Broadcasts S1568x384
  shapeCasts_S1568x384_S32x49x384 : S1568x384.ShapeCasts S32x49x384
  gather_S169x12_S49x49x1_S49x49x12_2_0_n_n_0_2_112_wf : GatherDims.WF S169x12 S49x49x1 S49x49x12 [2] [0] [] [0] [] 2 ![1, 12]
  dot_S1568x384_S384x1152_S1568x1152_1_0_0_1_n_n_wf : DotDims.WF S1568x384 S384x1152 S1568x1152 [1] [0] [0] [1] [] []
  dot_S32x49x32_S32x49x32_S32x49x49_2_2_1_1_0_0_wf : DotDims.WF S32x49x32 S32x49x32 S32x49x49 [2] [2] [1] [1] [0] [0]
  dot_S32x49x49_S32x49x32_S32x49x32_2_1_1_2_0_0_wf : DotDims.WF S32x49x49 S32x49x32 S32x49x32 [2] [1] [1] [2] [0] [0]
  dot_S1568x384_S384x384_S1568x384_1_0_0_1_n_n_wf : DotDims.WF S1568x384 S384x384 S1568x384 [1] [0] [0] [1] [] []
  hrank0 : 0 < grid0.rank
  k0_mult1_dvd : ∀ i : grid0.Coords, 32 ∣ (k0_mult1 i).toNat
  k0_off1_inb : ∀ i : grid0.Coords, ∀ a, (k0_off1 i) a + S32x49x49.size a ≤ S64x49x49.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x49x384.size a ≤ S4096x49x384.size a
  hwx0_0 : ∀ i : grid0.Coords, EltTy.bits .f32 = 32 ∨ (Rect.block (s := S4096x49x384) S32x49x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x49x49.size a ≤ S64x49x49.size a
  hwx0_1 : ∀ i : grid0.Coords, EltTy.bits .f32 = 32 ∨ (Rect.block (s := S64x49x49) S64x49x49.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S384x1152.size a ≤ S384x1152.size a
  hwx0_2 : ∀ i : grid0.Coords, EltTy.bits .bf16 = 32 ∨ (Rect.block (s := S384x1152) S384x1152.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1152.size a ≤ S1x1152.size a
  hwx0_3 : ∀ i : grid0.Coords, EltTy.bits .f32 = 32 ∨ (Rect.block (s := S1x1152) S1x1152.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S12x49x49.size a ≤ S12x49x49.size a
  hwx0_4 : ∀ i : grid0.Coords, EltTy.bits .f32 = 32 ∨ (Rect.block (s := S12x49x49) S12x49x49.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S384x384.size a ≤ S384x384.size a
  hwx0_5 : ∀ i : grid0.Coords, EltTy.bits .bf16 = 32 ∨ (Rect.block (s := S384x384) S384x384.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x384.size a ≤ S1x384.size a
  hwx0_6 : ∀ i : grid0.Coords, EltTy.bits .f32 = 32 ∨ (Rect.block (s := S1x384) S1x384.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S32x49x384.size a ≤ S4096x49x384.size a
  hwx0_7 : ∀ i : grid0.Coords, EltTy.bits .f32 = 32 ∨ (Rect.block (s := S4096x49x384) S32x49x384.size (cc0_transform_7 i) (hinb0_7 i)).WholeWords (EltTy.packing .f32)

variable [Facts₀]

def gather_S169x12_S49x49x1_S49x49x12_2_0_n_n_0_2_112 : GatherDims S169x12 S49x49x1 S49x49x12 where
  offsetDims := [2]
  collapsedSliceDims := [0]
  operandBatchingDims := []
  startIndicesBatchingDims := []
  startIndexMap := [0]
  indexVectorDim := 2
  sliceSizes := ![1, 12]
  wf := gather_S169x12_S49x49x1_S49x49x12_2_0_n_n_0_2_112_wf
def dot_S1568x384_S384x1152_S1568x1152_1_0_0_1_n_n : DotDims S1568x384 S384x1152 S1568x1152 where
  lhsContracting := [1]
  rhsContracting := [0]
  lhsNonContracting := [0]
  rhsNonContracting := [1]
  lhsBatch := []
  rhsBatch := []
  wf := dot_S1568x384_S384x1152_S1568x1152_1_0_0_1_n_n_wf
def dot_S32x49x32_S32x49x32_S32x49x49_2_2_1_1_0_0 : DotDims S32x49x32 S32x49x32 S32x49x49 where
  lhsContracting := [2]
  rhsContracting := [2]
  lhsNonContracting := [1]
  rhsNonContracting := [1]
  lhsBatch := [0]
  rhsBatch := [0]
  wf := dot_S32x49x32_S32x49x32_S32x49x49_2_2_1_1_0_0_wf
def dot_S32x49x49_S32x49x32_S32x49x32_2_1_1_2_0_0 : DotDims S32x49x49 S32x49x32 S32x49x32 where
  lhsContracting := [2]
  rhsContracting := [1]
  lhsNonContracting := [1]
  rhsNonContracting := [2]
  lhsBatch := [0]
  rhsBatch := [0]
  wf := dot_S32x49x49_S32x49x32_S32x49x32_2_1_1_2_0_0_wf
def dot_S1568x384_S384x384_S1568x384_1_0_0_1_n_n : DotDims S1568x384 S384x384 S1568x384 where
  lhsContracting := [1]
  rhsContracting := [0]
  lhsNonContracting := [0]
  rhsNonContracting := [1]
  lhsBatch := []
  rhsBatch := []
  wf := dot_S1568x384_S384x384_S1568x384_1_0_0_1_n_n_wf

abbrev win0_0 : Pipeline.Window sig grid0 :=
  Pipeline.Window.ofSpec (Memref.whole main_arg0) S32x49x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x49x49.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S384x1152.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x1152.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S12x49x49.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S384x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x384.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S32x49x384.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x49x384 : Shape := ⟨3, ![4096, 49, 384]⟩
abbrev S64x49x49 : Shape := ⟨3, ![64, 49, 49]⟩
abbrev S1152x384 : Shape := ⟨2, ![1152, 384]⟩
abbrev S1152 : Shape := ⟨1, ![1152]⟩
abbrev S13x13x12 : Shape := ⟨3, ![13, 13, 12]⟩
abbrev S384x384 : Shape := ⟨2, ![384, 384]⟩
abbrev S384 : Shape := ⟨1, ![384]⟩
abbrev S49x49 : Shape := ⟨2, ![49, 49]⟩
abbrev S4096x49x1152 : Shape := ⟨3, ![4096, 49, 1152]⟩
abbrev S1x1x1152 : Shape := ⟨3, ![1, 1, 1152]⟩
abbrev S4096x49x3x12x32 : Shape := ⟨5, ![4096, 49, 3, 12, 32]⟩
abbrev S4096x49x1x12x32 : Shape := ⟨5, ![4096, 49, 1, 12, 32]⟩
abbrev S4096x49x12x32 : Shape := ⟨4, ![4096, 49, 12, 32]⟩
abbrev S4096x12x49x32 : Shape := ⟨4, ![4096, 12, 49, 32]⟩
abbrev S_ : Shape := ⟨0, ![]⟩
abbrev S4096x12x49x49 : Shape := ⟨4, ![4096, 12, 49, 49]⟩
abbrev S169x12 : Shape := ⟨2, ![169, 12]⟩
abbrev S49x49x1 : Shape := ⟨3, ![49, 49, 1]⟩
abbrev S49x49x12 : Shape := ⟨3, ![49, 49, 12]⟩
abbrev S12x49x49 : Shape := ⟨3, ![12, 49, 49]⟩
abbrev S1x12x49x49 : Shape := ⟨4, ![1, 12, 49, 49]⟩
abbrev S64x64x12x49x49 : Shape := ⟨5, ![64, 64, 12, 49, 49]⟩
abbrev S1x64x1x49x49 : Shape := ⟨5, ![1, 64, 1, 49, 49]⟩
abbrev S4096x12x49 : Shape := ⟨3, ![4096, 12, 49]⟩
abbrev S4096x12x49x1 : Shape := ⟨4, ![4096, 12, 49, 1]⟩
abbrev S4096x12x32x49 : Shape := ⟨4, ![4096, 12, 32, 49]⟩
abbrev S1x1x384 : Shape := ⟨3, ![1, 1, 384]⟩

abbrev nBuf : Space → Nat
  | .hbm => 66
  | .vmem => 0
  | .smem => 0
  | _ => 0

abbrev bufTy : (tb : Table) → Fin (tcTables nBuf tb) → BufTy
  | .hbm, ⟨0, _⟩ => ⟨S4096x49x384, .f32⟩
  | .hbm, ⟨1, _⟩ => ⟨S64x49x49, .f32⟩
  | .hbm, ⟨2, _⟩ => ⟨S1152x384, .f32⟩
  | .hbm, ⟨3, _⟩ => ⟨S1152, .f32⟩
  | .hbm, ⟨4, _⟩ => ⟨S13x13x12, .f32⟩
  | .hbm, ⟨5, _⟩ => ⟨S384x384, .f32⟩
  | .hbm, ⟨6, _⟩ => ⟨S384, .f32⟩
  | .hbm, ⟨7, _⟩ => ⟨S49x49, .i32⟩
  | .hbm, ⟨8, _⟩ => ⟨S4096x49x1152, .f32⟩
  | .hbm, ⟨9, _⟩ => ⟨S1x1x1152, .f32⟩
  | .hbm, ⟨10, _⟩ => ⟨S4096x49x1152, .f32⟩
  | .hbm, ⟨11, _⟩ => ⟨S4096x49x1152, .f32⟩
  | .hbm, ⟨12, _⟩ => ⟨S4096x49x3x12x32, .f32⟩
  | .hbm, ⟨13, _⟩ => ⟨S4096x49x1x12x32, .f32⟩
  | .hbm, ⟨14, _⟩ => ⟨S4096x49x12x32, .f32⟩
  | .hbm, ⟨15, _⟩ => ⟨S4096x12x49x32, .f32⟩
  | .hbm, ⟨16, _⟩ => ⟨S_, .f32⟩
  | .hbm, ⟨17, _⟩ => ⟨S4096x12x49x32, .f32⟩
  | .hbm, ⟨18, _⟩ => ⟨S4096x12x49x32, .f32⟩
  | .hbm, ⟨19, _⟩ => ⟨S4096x49x1x12x32, .f32⟩
  | .hbm, ⟨20, _⟩ => ⟨S4096x49x12x32, .f32⟩
  | .hbm, ⟨21, _⟩ => ⟨S4096x12x49x32, .f32⟩
  | .hbm, ⟨22, _⟩ => ⟨S4096x49x1x12x32, .f32⟩
  | .hbm, ⟨23, _⟩ => ⟨S4096x49x12x32, .f32⟩
  | .hbm, ⟨24, _⟩ => ⟨S4096x12x49x32, .f32⟩
  | .hbm, ⟨25, _⟩ => ⟨S4096x12x49x49, .f32⟩
  | .hbm, ⟨26, _⟩ => ⟨S169x12, .f32⟩
  | .hbm, ⟨27, _⟩ => ⟨S_, .i32⟩
  | .hbm, ⟨28, _⟩ => ⟨S49x49, .i32⟩
  | .hbm, ⟨29, _⟩ => ⟨S49x49, .i1⟩
  | .hbm, ⟨30, _⟩ => ⟨S_, .i32⟩
  | .hbm, ⟨31, _⟩ => ⟨S49x49, .i32⟩
  | .hbm, ⟨32, _⟩ => ⟨S49x49, .i32⟩
  | .hbm, ⟨33, _⟩ => ⟨S49x49, .i32⟩
  | .hbm, ⟨34, _⟩ => ⟨S49x49x1, .i32⟩
  | .hbm, ⟨35, _⟩ => ⟨S49x49x12, .f32⟩
  | .hbm, ⟨36, _⟩ => ⟨S12x49x49, .f32⟩
  | .hbm, ⟨37, _⟩ => ⟨S1x12x49x49, .f32⟩
  | .hbm, ⟨38, _⟩ => ⟨S4096x12x49x49, .f32⟩
  | .hbm, ⟨39, _⟩ => ⟨S4096x12x49x49, .f32⟩
  | .hbm, ⟨40, _⟩ => ⟨S64x64x12x49x49, .f32⟩
  | .hbm, ⟨41, _⟩ => ⟨S1x64x1x49x49, .f32⟩
  | .hbm, ⟨42, _⟩ => ⟨S64x64x12x49x49, .f32⟩
  | .hbm, ⟨43, _⟩ => ⟨S64x64x12x49x49, .f32⟩
  | .hbm, ⟨44, _⟩ => ⟨S4096x12x49x49, .f32⟩
  | .hbm, ⟨45, _⟩ => ⟨S_, .f32⟩
  | .hbm, ⟨46, _⟩ => ⟨S4096x12x49, .f32⟩
  | .hbm, ⟨47, _⟩ => ⟨S_, .f32⟩
  | .hbm, ⟨48, _⟩ => ⟨S4096x12x49, .f32⟩
  | .hbm, ⟨49, _⟩ => ⟨S4096x12x49, .f32⟩
  | .hbm, ⟨50, _⟩ => ⟨S4096x12x49x1, .f32⟩
  | .hbm, ⟨51, _⟩ => ⟨S4096x12x49x49, .f32⟩
  | .hbm, ⟨52, _⟩ => ⟨S4096x12x49x49, .f32⟩
  | .hbm, ⟨53, _⟩ => ⟨S4096x12x49x49, .f32⟩
  | .hbm, ⟨54, _⟩ => ⟨S_, .f32⟩
  | .hbm, ⟨55, _⟩ => ⟨S4096x12x49, .f32⟩
  | .hbm, ⟨56, _⟩ => ⟨S4096x12x49x1, .f32⟩
  | .hbm, ⟨57, _⟩ => ⟨S4096x12x49x49, .f32⟩
  | .hbm, ⟨58, _⟩ => ⟨S4096x12x49x49, .f32⟩
  | .hbm, ⟨59, _⟩ => ⟨S4096x12x32x49, .f32⟩
  | .hbm, ⟨60, _⟩ => ⟨S4096x49x12x32, .f32⟩
  | .hbm, ⟨61, _⟩ => ⟨S4096x49x384, .f32⟩
  | .hbm, ⟨62, _⟩ => ⟨S4096x49x384, .f32⟩
  | .hbm, ⟨63, _⟩ => ⟨S1x1x384, .f32⟩
  | .hbm, ⟨64, _⟩ => ⟨S4096x49x384, .f32⟩
  | .hbm, ⟨65, _⟩ => ⟨S4096x49x384, .f32⟩
  | _, _ => ⟨S4096x49x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_0 : Ref sig .tc := ⟨.hbm, 27, rfl⟩
abbrev main_v18 : Ref sig .tc := ⟨.hbm, 28, rfl⟩
abbrev main_v19 : Ref sig .tc := ⟨.hbm, 29, rfl⟩
abbrev main_c_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_2 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_4 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩

abbrev nD : Nat := 1
abbrev τ : Topo := Topo.v7x

variable {F : FTy → Type} [FloatOps F]

class Facts₀ : Prop where
  bcast_S1152_S1x1x1152_2 : S1152.BroadcastsInDim S1x1x1152 (![2] : Fin 1 → Fin S1x1x1152.rank)
  bcast_S1x1x1152_S4096x49x1152_0_1_2 : S1x1x1152.BroadcastsInDim S4096x49x1152 (![0, 1, 2] : Fin 3 → Fin S4096x49x1152.rank)
  shapeCasts_S4096x49x1152_S4096x49x3x12x32 : S4096x49x1152.ShapeCasts S4096x49x3x12x32
  slices_S4096x49x3x12x32_S4096x49x1x12x32_0_0_0_0_0 : S4096x49x3x12x32.Slices ![0, 0, 0, 0, 0] S4096x49x1x12x32
  shapeCasts_S4096x49x1x12x32_S4096x49x12x32 : S4096x49x1x12x32.ShapeCasts S4096x49x12x32
  transposes_S4096x49x12x32_S4096x12x49x32_0_2_1_3 : S4096x49x12x32.Transposes [0, 2, 1, 3] S4096x12x49x32
  bcast_S_S4096x12x49x32 : S_.BroadcastsInDim S4096x12x49x32 (![] : Fin 0 → Fin S4096x12x49x32.rank)
  slices_S4096x49x3x12x32_S4096x49x1x12x32_0_0_1_0_0 : S4096x49x3x12x32.Slices ![0, 0, 1, 0, 0] S4096x49x1x12x32
  slices_S4096x49x3x12x32_S4096x49x1x12x32_0_0_2_0_0 : S4096x49x3x12x32.Slices ![0, 0, 2, 0, 0] S4096x49x1x12x32
  shapeCasts_S13x13x12_S169x12 : S13x13x12.ShapeCasts S169x12
  bcast_S_S49x49 : S_.BroadcastsInDim S49x49 (![] : Fin 0 → Fin S49x49.rank)
  bcast_S49x49_S49x49x1_0_1 : S49x49.BroadcastsInDim S49x49x1 (![0, 1] : Fin 2 → Fin S49x49x1.rank)
  transposes_S49x49x12_S12x49x49_2_0_1 : S49x49x12.Transposes [2, 0, 1] S12x49x49
  bcast_S12x49x49_S1x12x49x49_1_2_3 : S12x49x49.BroadcastsInDim S1x12x49x49 (![1, 2, 3] : Fin 3 → Fin S1x12x49x49.rank)
  bcast_S1x12x49x49_S4096x12x49x49_0_1_2_3 : S1x12x49x49.BroadcastsInDim S4096x12x49x49 (![0, 1, 2, 3] : Fin 4 → Fin S4096x12x49x49.rank)
  shapeCasts_S4096x12x49x49_S64x64x12x49x49 : S4096x12x49x49.ShapeCasts S64x64x12x49x49
  bcast_S64x49x49_S1x64x1x49x49_1_3_4 : S64x49x49.BroadcastsInDim S1x64x1x49x49 (![1, 3, 4] : Fin 3 → Fin S1x64x1x49x49.rank)
  bcast_S1x64x1x49x49_S64x64x12x49x49_0_1_2_3_4 : S1x64x1x49x49.BroadcastsInDim S64x64x12x49x49 (![0, 1, 2, 3, 4] : Fin 5 → Fin S64x64x12x49x49.rank)
  shapeCasts_S64x64x12x49x49_S4096x12x49x49 : S64x64x12x49x49.ShapeCasts S4096x12x49x49
  reducesTo_S4096x12x49x49_S4096x12x49_d3 : S4096x12x49x49.ReducesTo [3] S4096x12x49
  h_S_ : 0 < S_.numel
  bcast_S_S4096x12x49 : S_.BroadcastsInDim S4096x12x49 (![] : Fin 0 → Fin S4096x12x49.rank)
  bcast_S4096x12x49_S4096x12x49x1_0_1_2 : S4096x12x49.BroadcastsInDim S4096x12x49x1 (![0, 1, 2] : Fin 3 → Fin S4096x12x49x1.rank)
  bcast_S4096x12x49x1_S4096x12x49x49_0_1_2_3 : S4096x12x49x1.BroadcastsInDim S4096x12x49x49 (![0, 1, 2, 3] : Fin 4 → Fin S4096x12x49x49.rank)
  transposes_S4096x12x32x49_S4096x49x12x32_0_3_1_2 : S4096x12x32x49.Transposes [0, 3, 1, 2] S4096x49x12x32
  shapeCasts_S4096x49x12x32_S4096x49x384 : S4096x49x12x32.ShapeCasts S4096x49x384
  bcast_S384_S1x1x384_2 : S384.BroadcastsInDim S1x1x384 (![2] : Fin 1 → Fin S1x1x384.rank)
  bcast_S1x1x384_S4096x49x384_0_1_2 : S1x1x384.BroadcastsInDim S4096x49x384 (![0, 1, 2] : Fin 3 → Fin S4096x49x384.rank)
  dot_S4096x49x384_S1152x384_S4096x49x1152_2_1_01_0_n_n_wf : DotDims.WF S4096x49x384 S1152x384 S4096x49x1152 [2] [1] [0, 1] [0] [] []
  dot_S4096x12x49x32_S4096x12x49x32_S4096x12x49x49_3_3_2_2_01_01_wf : DotDims.WF S4096x12x49x32 S4096x12x49x32 S4096x12x49x49 [3] [3] [2] [2] [0, 1] [0, 1]
  gather_S169x12_S49x49x1_S49x49x12_2_0_n_n_0_2_112_wf : GatherDims.WF S169x12 S49x49x1 S49x49x12 [2] [0] [] [0] [] 2 ![1, 12]
  dot_S4096x12x49x32_S4096x12x49x49_S4096x12x32x49_2_3_3_2_01_01_wf : DotDims.WF S4096x12x49x32 S4096x12x49x49 S4096x12x32x49 [2] [3] [3] [2] [0, 1] [0, 1]
  dot_S4096x49x384_S384x384_S4096x49x384_2_1_01_0_n_n_wf : DotDims.WF S4096x49x384 S384x384 S4096x49x384 [2] [1] [0, 1] [0] [] []

variable [Facts₀]

def dot_S4096x49x384_S1152x384_S4096x49x1152_2_1_01_0_n_n : DotDims S4096x49x384 S1152x384 S4096x49x1152 where
  lhsContracting := [2]
  rhsContracting := [1]
  lhsNonContracting := [0, 1]
  rhsNonContracting := [0]
  lhsBatch := []
  rhsBatch := []
  wf := dot_S4096x49x384_S1152x384_S4096x49x1152_2_1_01_0_n_n_wf
def dot_S4096x12x49x32_S4096x12x49x32_S4096x12x49x49_3_3_2_2_01_01 : DotDims S4096x12x49x32 S4096x12x49x32 S4096x12x49x49 where
  lhsContracting := [3]
  rhsContracting := [3]
  lhsNonContracting := [2]
  rhsNonContracting := [2]
  lhsBatch := [0, 1]
  rhsBatch := [0, 1]
  wf := dot_S4096x12x49x32_S4096x12x49x32_S4096x12x49x49_3_3_2_2_01_01_wf
def gather_S169x12_S49x49x1_S49x49x12_2_0_n_n_0_2_112 : GatherDims S169x12 S49x49x1 S49x49x12 where
  offsetDims := [2]
  collapsedSliceDims := [0]
  operandBatchingDims := []
  startIndicesBatchingDims := []
  startIndexMap := [0]
  indexVectorDim := 2
  sliceSizes := ![1, 12]
  wf := gather_S169x12_S49x49x1_S49x49x12_2_0_n_n_0_2_112_wf
def dot_S4096x12x49x32_S4096x12x49x49_S4096x12x32x49_2_3_3_2_01_01 : DotDims S4096x12x49x32 S4096x12x49x49 S4096x12x32x49 where
  lhsContracting := [2]
  rhsContracting := [3]
  lhsNonContracting := [3]
  rhsNonContracting := [2]
  lhsBatch := [0, 1]
  rhsBatch := [0, 1]
  wf := dot_S4096x12x49x32_S4096x12x49x49_S4096x12x32x49_2_3_3_2_01_01_wf
def dot_S4096x49x384_S384x384_S4096x49x384_2_1_01_0_n_n : DotDims S4096x49x384 S384x384 S4096x49x384 where
  lhsContracting := [2]
  rhsContracting := [1]
  lhsNonContracting := [0, 1]
  rhsNonContracting := [0]
  lhsBatch := []
  rhsBatch := []
  wf := dot_S4096x49x384_S384x384_S4096x49x384_2_1_01_0_n_n_wf

class Facts : Prop extends Facts₀ where

variable [Facts]
-- ==== Proof.KBody.lean ====
/-
  The kernel's body at one grid point as ONE function of its input blocks. The body writes the stacked
  q;k;v projection of its 32 windows' 1568 rows into a scratch array, reads it back 32 columns at a time
  (q, k and v of each of the twelve heads), computes each head's attention and writes its 32 columns into a
  second scratch array, reads that back whole and applies the output projection. Here: the twelve heads are
  one term at different columns (the printed body cuts them at different places, and they agree by
  unfolding), and the block the body stores is `bodyOut` of the input blocks — the scratch round trips
  opened once, as arrays covered by the stores that filled them.
-/
import proofs.«150585_j71975061947032_2_alg».proof.Proof.Gen.KernelIdeal.Frame
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The twelve heads are one term

Head 0 is `k0_pay4 M k v (k0_pay3 q) b`: the scale, the scores q·kᵀ, plus the bias row block `b`, plus the
mask block `M`, the softmax along each row, and the product with v. Each other head is printed through
other intermediate names, and is the same term. -/

theorem head1_eq (M : Vec F S32x49x49 .f32) (q k v : Vec F S1568x32 .f32) (b : Vec F S1x49x49 .f32) :
    k0_pay8 M (k0_pay5 q) (k0_pay6 k) (k0_pay7 v) b = k0_pay4 M k v (k0_pay3 q) b := rfl
theorem head2_eq (M : Vec F S32x49x49 .f32) (q k v : Vec F S1568x32 .f32) (b : Vec F S1x49x49 .f32) :
    k0_pay11 M (k0_pay9 v) (k0_pay10 q k) b = k0_pay4 M k v (k0_pay3 q) b := rfl
theorem head3_eq (M : Vec F S32x49x49 .f32) (q k v : Vec F S1568x32 .f32) (b : Vec F S1x49x49 .f32) :
    k0_pay14 (k0_pay12 v) (k0_pay13 M q k b) = k0_pay4 M k v (k0_pay3 q) b := rfl
theorem head4_eq (M : Vec F S32x49x49 .f32) (q k v : Vec F S1568x32 .f32) (b : Vec F S1x49x49 .f32) :
    k0_pay18 (k0_pay15 v) (k0_pay16 M q k b) (k0_pay17 M q k b) = k0_pay4 M k v (k0_pay3 q) b := rfl
theorem head5_eq (M : Vec F S32x49x49 .f32) (q k v : Vec F S1568x32 .f32) (b : Vec F S1x49x49 .f32) :
    k0_pay22 (k0_pay19 v) (k0_pay20 M q k b) (k0_pay21 M q k b) = k0_pay4 M k v (k0_pay3 q) b := rfl
theorem head6_eq (M : Vec F S32x49x49 .f32) (q k v : Vec F S1568x32 .f32) (b : Vec F S1x49x49 .f32) :
    k0_pay24 (k0_pay23 M q k v b) = k0_pay4 M k v (k0_pay3 q) b := rfl
theorem head7_eq (M : Vec F S32x49x49 .f32) (q k v : Vec F S1568x32 .f32) (b : Vec F S1x49x49 .f32) :
    k0_pay25 M q k v b = k0_pay4 M k v (k0_pay3 q) b := rfl
theorem head8_eq (M : Vec F S32x49x49 .f32) (q k v : Vec F S1568x32 .f32) (b : Vec F S1x49x49 .f32) :
    k0_pay26 M q k v b = k0_pay4 M k v (k0_pay3 q) b := rfl
theorem head9_eq (M : Vec F S32x49x49 .f32) (q k v : Vec F S1568x32 .f32) (b : Vec F S1x49x49 .f32) :
    k0_pay27 M q k v b = k0_pay4 M k v (k0_pay3 q) b := rfl
theorem head10_eq (M : Vec F S32x49x49 .f32) (q k v : Vec F S1568x32 .f32) (b : Vec F S1x49x49 .f32) :
    k0_pay29 M k v (k0_pay28 q) b = k0_pay4 M k v (k0_pay3 q) b := rfl
theorem head11_eq (M : Vec F S32x49x49 .f32) (q k v : Vec F S1568x32 .f32) (b : Vec F S1x49x49 .f32) :
    k0_pay33 M (k0_pay30 q) (k0_pay31 k) (k0_pay32 v) b = k0_pay4 M k v (k0_pay3 q) b := rfl

/-! ## The body's block as a function of its input blocks -/

theorem zero2 : (![0, 0] : Fin 2 → Nat) = fun _ => 0 := by funext a; fin_cases a <;> rfl
theorem zero3 : (![0, 0, 0] : Fin 3 → Nat) = fun _ => 0 := by funext a; fin_cases a <;> rfl

/-- The 32 columns of a 1568×1152 array that start at column `o`. -/
def cols (P : FVec F S1568x1152 .f32) (o : Nat)
    (h : ∀ a, (![0, o] : Fin 2 → Nat) a + (![1568, 32] : Fin 2 → Nat) a ≤ S1568x1152.size a) : Vec F S1568x32 .f32 :=
  fun j => P ((Rect.unit (s := S1568x1152) ![0, o] ![1568, 32] h).idx j)

/-- The 32 windows' rows of the mask that the grid point reads: 32 consecutive windows from the point's offset. -/
def maskBlk (i : grid0.Coords) (x1 : Vec F S64x49x49 .f32) : Vec F S32x49x49 .f32 :=
  View.ld x1 (Rect.unit (s := S64x49x49) (k0_off1 i) S32x49x49.size (k0_off1_inb i))

/-- Head `h`'s 49×49 bias, as a one-row block of the bias array. -/
def biasRow (x4 : Vec F S12x49x49 .f32) (h : Nat)
    (hb : ∀ a, (![h, 0, 0] : Fin 3 → Nat) a + (![1, 49, 49] : Fin 3 → Nat) a ≤ S12x49x49.size a) : Vec F S1x49x49 .f32 :=
  View.ld x4 (Rect.unit (s := S12x49x49) ![h, 0, 0] ![1, 49, 49] hb)

/-- The twelve heads' stores into the 1568×384 scratch array, last first: head `h` fills columns 32h … 32h+31
    with its attention output, computed from columns 32h (q), 384+32h (k) and 768+32h (v) of the stacked
    projection `P`, bias row `h` and the point's mask block. -/
def headStores (i : grid0.Coords) (P : FVec F S1568x1152 .f32) (x1 : Vec F S64x49x49 .f32) (x4 : Vec F S12x49x49 .f32) :
    List (View.Piece (Elt F) S1568x384 .bf16) :=
  [
    ⟨Rect.unit (s := S1568x384) ![0, 352] ![1568, 32] inb_S1568x384_S1568x32_0_352,
      k0_pay4 (maskBlk i x1) (cols P 736 inb_S1568x1152_S1568x32_0_736) (cols P 1120 inb_S1568x1152_S1568x32_0_1120)
        (k0_pay3 (cols P 352 inb_S1568x1152_S1568x32_0_352)) (biasRow x4 11 inb_S12x49x49_S1x49x49_11_0_0)⟩,
    ⟨Rect.unit (s := S1568x384) ![0, 320] ![1568, 32] inb_S1568x384_S1568x32_0_320,
      k0_pay4 (maskBlk i x1) (cols P 704 inb_S1568x1152_S1568x32_0_704) (cols P 1088 inb_S1568x1152_S1568x32_0_1088)
        (k0_pay3 (cols P 320 inb_S1568x1152_S1568x32_0_320)) (biasRow x4 10 inb_S12x49x49_S1x49x49_10_0_0)⟩,
    ⟨Rect.unit (s := S1568x384) ![0, 288] ![1568, 32] inb_S1568x384_S1568x32_0_288,
      k0_pay4 (maskBlk i x1) (cols P 672 inb_S1568x1152_S1568x32_0_672) (cols P 1056 inb_S1568x1152_S1568x32_0_1056)
        (k0_pay3 (cols P 288 inb_S1568x1152_S1568x32_0_288)) (biasRow x4 9 inb_S12x49x49_S1x49x49_9_0_0)⟩,
    ⟨Rect.unit (s := S1568x384) ![0, 256] ![1568, 32] inb_S1568x384_S1568x32_0_256,
      k0_pay4 (maskBlk i x1) (cols P 640 inb_S1568x1152_S1568x32_0_640) (cols P 1024 inb_S1568x1152_S1568x32_0_1024)
        (k0_pay3 (cols P 256 inb_S1568x1152_S1568x32_0_256)) (biasRow x4 8 inb_S12x49x49_S1x49x49_8_0_0)⟩,
    ⟨Rect.unit (s := S1568x384) ![0, 224] ![1568, 32] inb_S1568x384_S1568x32_0_224,
      k0_pay4 (maskBlk i x1) (cols P 608 inb_S1568x1152_S1568x32_0_608) (cols P 992 inb_S1568x1152_S1568x32_0_992)
        (k0_pay3 (cols P 224 inb_S1568x1152_S1568x32_0_224)) (biasRow x4 7 inb_S12x49x49_S1x49x49_7_0_0)⟩,
    ⟨Rect.unit (s := S1568x384) ![0, 192] ![1568, 32] inb_S1568x384_S1568x32_0_192,
      k0_pay4 (maskBlk i x1) (cols P 576 inb_S1568x1152_S1568x32_0_576) (cols P 960 inb_S1568x1152_S1568x32_0_960)
        (k0_pay3 (cols P 192 inb_S1568x1152_S1568x32_0_192)) (biasRow x4 6 inb_S12x49x49_S1x49x49_6_0_0)⟩,
    ⟨Rect.unit (s := S1568x384) ![0, 160] ![1568, 32] inb_S1568x384_S1568x32_0_160,
      k0_pay4 (maskBlk i x1) (cols P 544 inb_S1568x1152_S1568x32_0_544) (cols P 928 inb_S1568x1152_S1568x32_0_928)
        (k0_pay3 (cols P 160 inb_S1568x1152_S1568x32_0_160)) (biasRow x4 5 inb_S12x49x49_S1x49x49_5_0_0)⟩,
    ⟨Rect.unit (s := S1568x384) ![0, 128] ![1568, 32] inb_S1568x384_S1568x32_0_128,
      k0_pay4 (maskBlk i x1) (cols P 512 inb_S1568x1152_S1568x32_0_512) (cols P 896 inb_S1568x1152_S1568x32_0_896)
        (k0_pay3 (cols P 128 inb_S1568x1152_S1568x32_0_128)) (biasRow x4 4 inb_S12x49x49_S1x49x49_4_0_0)⟩,
    ⟨Rect.unit (s := S1568x384) ![0, 96] ![1568, 32] inb_S1568x384_S1568x32_0_96,
      k0_pay4 (maskBlk i x1) (cols P 480 inb_S1568x1152_S1568x32_0_480) (cols P 864 inb_S1568x1152_S1568x32_0_864)
        (k0_pay3 (cols P 96 inb_S1568x1152_S1568x32_0_96)) (biasRow x4 3 inb_S12x49x49_S1x49x49_3_0_0)⟩,
    ⟨Rect.unit (s := S1568x384) ![0, 64] ![1568, 32] inb_S1568x384_S1568x32_0_64,
      k0_pay4 (maskBlk i x1) (cols P 448 inb_S1568x1152_S1568x32_0_448) (cols P 832 inb_S1568x1152_S1568x32_0_832)
        (k0_pay3 (cols P 64 inb_S1568x1152_S1568x32_0_64)) (biasRow x4 2 inb_S12x49x49_S1x49x49_2_0_0)⟩,
    ⟨Rect.unit (s := S1568x384) ![0, 32] ![1568, 32] inb_S1568x384_S1568x32_0_32,
      k0_pay4 (maskBlk i x1) (cols P 416 inb_S1568x1152_S1568x32_0_416) (cols P 800 inb_S1568x1152_S1568x32_0_800)
        (k0_pay3 (cols P 32 inb_S1568x1152_S1568x32_0_32)) (biasRow x4 1 inb_S12x49x49_S1x49x49_1_0_0)⟩,
    ⟨Rect.unit (s := S1568x384) ![0, 0] ![1568, 32] inb_S1568x384_S1568x32_0_0,
      k0_pay4 (maskBlk i x1) (cols P 384 inb_S1568x1152_S1568x32_0_384) (cols P 768 inb_S1568x1152_S1568x32_0_768)
        (k0_pay3 (cols P 0 inb_S1568x1152_S1568x32_0_0)) (biasRow x4 0 inb_S12x49x49_S1x49x49_0_0_0)⟩ ]

/-- The 1568×384 array the heads leave: the stores read back. -/
def headsOut (i : grid0.Coords) (P : FVec F S1568x1152 .f32) (x1 : Vec F S64x49x49 .f32) (x4 : Vec F S12x49x49 .f32) :
    Vec F S1568x384 .bf16 :=
  fun j => View.canon (headStores i P x1 x4) ((Rect.unit (s := S1568x384) ![0, 0] ![1568, 384] inb_S1568x384_S1568x384_0_0).idx j)

/-- The block the body stores, as one function of its seven input blocks: the output projection of the heads'
    array, the heads computed from the stacked projection `k0_pay2 x0 x2 x3` of the point's rows. -/
def bodyOut (i : grid0.Coords) (x0 : Vec F S32x49x384 .f32) (x1 : Vec F S64x49x49 .f32) (x2 : Vec F S384x1152 .bf16)
    (x3 : Vec F S1x1152 .f32) (x4 : Vec F S12x49x49 .f32) (x5 : Vec F S384x384 .bf16) (x6 : Vec F S1x384 .f32) :
    FVec F S32x49x384 .f32 :=
  k0_pay1 (k0_pay34 (headsOut i (k0_pay2 x0 x2 x3) x1 x4) x5) (k0_pay35 x6)

/-- What the run leaves in the output block is `bodyOut` of the input blocks: its one store covers the block;
    every load of an input reads the input's contents; every load of the first scratch array reads the one
    store that filled it, through the load's columns; the load of the second reads its twelve stores back. -/
theorem out_eq (c : Dev nD) (i : grid0.Coords) (arg1 : Memref sig .tc .vmem S32x49x384 .f32) (harg1 : arg1.IsWhole) (arg2 : Memref sig .tc .vmem S64x49x49 .f32) (harg2 : arg2.IsWhole) (arg3 : Memref sig .tc .vmem S384x1152 .bf16) (harg3 : arg3.IsWhole) (arg4 : Memref sig .tc .vmem S1x1152 .f32) (harg4 : arg4.IsWhole) (arg5 : Memref sig .tc .vmem S12x49x49 .f32) (harg5 : arg5.IsWhole) (arg6 : Memref sig .tc .vmem S384x384 .bf16) (harg6 : arg6.IsWhole) (arg7 : Memref sig .tc .vmem S1x384 .f32) (harg7 : arg7.IsWhole) (arg8 : Memref sig .tc .vmem S32x49x384 .f32) (harg8 : arg8.IsWhole) (arg9 : Memref sig .tc .vmem S1568x1152 .f32) (harg9 : arg9.IsWhole) (arg10 : Memref sig .tc .vmem S1568x384 .bf16) (harg10 : arg10.IsWhole)
    (x0 : Vec F S32x49x384 .f32) (x1 : Vec F S64x49x49 .f32) (x2 : Vec F S384x1152 .bf16) (x3 : Vec F S1x1152 .f32) (x4 : Vec F S12x49x49 .f32) (x5 : Vec F S384x384 .bf16) (x6 : Vec F S1x384 .f32) :
    out0_A_7 c i arg1 harg1 arg2 harg2 arg3 harg3 arg4 harg4 arg5 harg5 arg6 harg6 arg7 harg7 arg8 harg8 arg9 harg9 arg10 harg10 x0 x1 x2 x3 x4 x5 x6 = bodyOut i x0 x1 x2 x3 x4 x5 x6 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 x0 x1 x2 x3 x4 x5 x6)]
  unfold kernelRun0_A; dsimp only; sl_unfold_words
  rw [View.canon_unit_zero zero3]
  simp only [View.readCov_eq_canon', View.canon_unit_zero (S := S1568x1152) zero2, View.readAt_eq_ld, harg1.read_unread, harg2.read_unread,
    harg3.read_unread, harg4.read_unread, harg5.read_unread, harg6.read_unread, harg7.read_unread,
    View.ld_unit_zero (S := S32x49x384) zero3, View.ld_unit_zero (S := S384x1152) zero2, View.ld_unit_zero (S := S1x1152) zero2,
    View.ld_unit_zero (S := S384x384) zero2, View.ld_unit_zero (S := S1x384) zero2,
    head1_eq, head2_eq, head3_eq, head4_eq, head5_eq, head6_eq, head7_eq, head8_eq, head9_eq, head10_eq, head11_eq]
  rfl

end Cert.KernelIdeal.Gen

end
-- ==== Proof.AttnSpec.lean ====
/-
  Windowed multi-head attention with a relative-position bias, on the extended reals, for ONE window of 49
  tokens: the stacked q;k;v projection of the window's 49×384 rows, twelve heads of width 32 — scaled scores
  q·kᵀ plus the head's bias plus the window's mask, a softmax along each row, the weighted sum of v — and the
  output projection of the twelve heads' 384 columns. Every sum is a finite sum over a literal index range and
  every operation is the exact one, so the functions below are what both programs compute at one output entry.
-/
import Idealize.ShloMosaic.PureOps.Ideal
import Idealize.ShloMosaic.Lib.ValueIdx

noncomputable section

namespace Cert.AttnSpec

open Idealize.ShloMosaic

/-- The softmax's starting value for a row maximum: −∞, as the float word both programs write. -/
abbrev negInf : EReal := Ideal.ofBits .f32 0xFF800000#32

/-- The score scale: the float word both programs multiply q by. -/
abbrev scale : EReal := Ideal.ofBits .f32 0x3E3504F3#32

/-- Column `s·384 + h·32 + e` of the stacked projection: part `s` (0 = q, 1 = k, 2 = v), head `h`, lane `e`. -/
def col (s : Fin 3) (h : Fin 12) (e : Fin 32) : Fin 1152 := ⟨s.val * 384 + h.val * 32 + e.val, by omega⟩

/-- Row `49·j + n` of the 32 windows' 49 rows set one under the other: window `j` of a block, token `n`. -/
def row (j : Fin 32) (n : Fin 49) : Fin 1568 := ⟨49 * j.val + n.val, by omega⟩

/-- The window's stacked projection at row `n`, column `f`: `∑ c, x n c · w f c + bq f`. -/
def qkv (x : Fin 49 → Fin 384 → EReal) (w : Fin 1152 → Fin 384 → EReal) (bq : Fin 1152 → EReal)
    (n : Fin 49) (f : Fin 1152) : EReal :=
  (∑ c : Fin 384, x n c * w f c) + bq f

/-- A row's maximum, taken from −∞ and then once more against −∞. -/
def rowMax (s : Fin 49 → EReal) : EReal := max negInf (Finset.univ.fold max negInf s)

/-- The row shifted by its maximum and exponentiated. -/
def expRow (s : Fin 49 → EReal) (m : Fin 49) : EReal := Ideal.exp (s m - rowMax s)

/-- The softmax of a row. -/
def soft (s : Fin 49 → EReal) (m : Fin 49) : EReal := Ideal.div (expRow s m) (∑ k : Fin 49, expRow s k)

/-- A head's score at (n, m): `(∑ e, (q n e · scale) · k m e + bias n m) + mask n m`. -/
def score (q k : Fin 49 → Fin 32 → EReal) (bias mask : Fin 49 → Fin 49 → EReal) (n m : Fin 49) : EReal :=
  ((∑ e : Fin 32, (q n e * scale) * k m e) + bias n m) + mask n m

/-- A head's output at (n, e): `∑ m, softmax(score n ·) m · v m e`. -/
def head (q k v : Fin 49 → Fin 32 → EReal) (bias mask : Fin 49 → Fin 49 → EReal) (n : Fin 49) (e : Fin 32) : EReal :=
  ∑ m : Fin 49, soft (score q k bias mask n) m * v m e

/-- Part `s` of head `h` of a stacked projection `p`, as a 49×32 matrix. -/
def part (p : Fin 49 → Fin 1152 → EReal) (s : Fin 3) (h : Fin 12) (n : Fin 49) (e : Fin 32) : EReal := p n (col s h e)

/-- Column `f` of the twelve heads' outputs set side by side: head `f / 32`, lane `f % 32`. -/
def heads (p : Fin 49 → Fin 1152 → EReal) (rpb : Fin 12 → Fin 49 → Fin 49 → EReal) (mask : Fin 49 → Fin 49 → EReal)
    (n : Fin 49) (f : Fin 384) : EReal :=
  head (part p 0 ⟨f.val / 32, by omega⟩) (part p 1 ⟨f.val / 32, by omega⟩) (part p 2 ⟨f.val / 32, by omega⟩)
    (rpb ⟨f.val / 32, by omega⟩) mask n ⟨f.val % 32, Nat.mod_lt _ (by decide)⟩

/-- One window's result at (n, d): the heads' 384 columns times the output weight, plus its bias. -/
def win (x : Fin 49 → Fin 384 → EReal) (mask : Fin 49 → Fin 49 → EReal) (w : Fin 1152 → Fin 384 → EReal)
    (bq : Fin 1152 → EReal) (rpb : Fin 12 → Fin 49 → Fin 49 → EReal) (wp : Fin 384 → Fin 384 → EReal)
    (bp : Fin 384 → EReal) (n : Fin 49) (d : Fin 384) : EReal :=
  (∑ f : Fin 384, heads (qkv x w bq) rpb mask n f * wp d f) + bp d

end Cert.AttnSpec

end
-- ==== Proof.KHead.lean ====
/-
  One attention head of the kernel's body, read at an index.

  The body holds the 32 windows of a block as 1568 = 32·49 rows. For one head it takes the rows' q (already
  times the score scale), k and v as [1568, 32] matrices, regroups each as [32, 49, 32] (window, token, lane),
  forms per window the scores q·kᵀ, adds the head's [49, 49] bias (the same for every window) and the window's
  mask, takes a softmax along each row — the row maximum from −∞ and once more against −∞, the shifted
  exponentials, their sum, the quotient — multiplies by v per window, and puts the [32, 49, 32] result back as
  1568 rows. Format changes are the identity on the extended reals. So at row 49·j + n, lane e, the body's value
  is the specification's head for window j at (n, e): that is `head_apply`, built from one small lemma per
  operation that is not pointwise.
-/
import proofs.«150585_j71975061947032_2_alg».proof.Proof.Gen.KernelIdeal.Skeleton
import proofs.«150585_j71975061947032_2_alg».proof.Proof.AttnSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KHead

open Idealize.ShloMosaic Idealize.ShloMosaic.ValueIdx Cert.AttnSpec

variable {φ φ₁ φ₂ : FTy}

/-! ## Regrouping rows: [1568, 32] ↔ [32, 49, 32] -/

/-- The rows regrouped by window: entry (j, n, e) of the [32, 49, 32] array is entry (49·j + n, e) of the
    [1568, 32] one — both sit at row-major position (49·j + n)·32 + e. -/
theorem cast_in (x : FVec Ideal S1568x32 φ) (h : S1568x32.ShapeCasts S32x49x32) (j : Fin 32) (n : Fin 49) (e : Fin 32) :
    shapeCast S32x49x32 x h (ix3 j n e) = x (ix2 (row j n) e) := by
  refine shapeCast_apply x h (ix3 j n e) (ix2 (row j n) e) ?_
  rw [Shape.rowMajor_val_two, Shape.rowMajor_val_three]
  show (row j n).val * 32 + e.val = (j.val * 49 + n.val) * 32 + e.val
  unfold row
  simp only
  omega

/-- … and back: entry (49·j + n, e) of the [1568, 32] array is entry (j, n, e) of the [32, 49, 32] one. -/
theorem cast_out (x : FVec Ideal S32x49x32 φ) (h : S32x49x32.ShapeCasts S1568x32) (j : Fin 32) (n : Fin 49) (e : Fin 32) :
    shapeCast S1568x32 x h (ix2 (row j n) e) = x (ix3 j n e) := by
  refine shapeCast_apply x h (ix2 (row j n) e) (ix3 j n e) ?_
  rw [Shape.rowMajor_val_two, Shape.rowMajor_val_three]
  show (j.val * 49 + n.val) * 32 + e.val = (row j n).val * 32 + e.val
  unfold row
  simp only
  omega

/-! ## The bias block over the windows, and a per-row value along its row -/

/-- The [1, 49, 49] bias block, recast to [49, 49] and back and then repeated over the 32 windows, reads at
    (j, n, m) the block's entry (0, n, m): the two recasts cancel and the repetition ignores the window. -/
theorem bias_apply (bias : FVec Ideal S1x49x49 φ) (h1 : S1x49x49.ShapeCasts S49x49) (h2 : S49x49.ShapeCasts S1x49x49)
    (h3 : S1x49x49.Broadcasts S32x49x49) (j : Fin 32) (n m : Fin 49) :
    broadcastTo S32x49x49 (shapeCast S1x49x49 (shapeCast S49x49 bias h1) h2) h3 (ix3 j n m) = bias (ix3 0 n m) := by
  rw [shapeCast_shapeCast]
  refine broadcastTo_apply bias h3 (ix3 j n m) (ix3 0 n m) ?_
  intro a
  match a with
  | ⟨0, _⟩ => rfl
  | ⟨1, _⟩ => rfl
  | ⟨2, _⟩ => rfl

/-- A per-row value x (j, n), given a trailing unit axis and repeated along the row, reads x (j, n) at every
    (j, n, m). -/
theorem col_apply (x : FVec Ideal S32x49 φ) (h1 : S32x49.ShapeCasts S32x49x1) (h2 : S32x49x1.Broadcasts S32x49x49)
    (j : Fin 32) (n m : Fin 49) :
    broadcastTo S32x49x49 (shapeCast S32x49x1 x h1) h2 (ix3 j n m) = x (ix2 j n) := by
  rw [broadcastTo_apply _ h2 (ix3 j n m) (ix3 j n (0 : Fin 1))]
  · refine shapeCast_apply x h1 _ (ix2 j n) ?_
    rw [Shape.rowMajor_val_two, Shape.rowMajor_val_three]
    show j.val * 49 + n.val = (j.val * 49 + n.val) * 1 + 0
    omega
  · intro a
    match a with
    | ⟨0, _⟩ => rfl
    | ⟨1, _⟩ => rfl
    | ⟨2, _⟩ => rfl

/-! ## The two products, per window -/

/-- In the product q·kᵀ per window, at output (j, n, m) and contraction coordinate e the left operand is read
    at (j, n, e) … -/
theorem lhs1 (j : Fin 32) (n m : Fin 49) (e : Fin 32) :
    dot_S32x49x32_S32x49x32_S32x49x49_2_2_1_1_0_0.lhsIdx (ix3 j n m) ((contrEquiv1 dot_S32x49x32_S32x49x32_S32x49x49_2_2_1_1_0_0 32 rfl rfl).symm e) = ix3 j n e := by
  funext c
  refine Fin.ext ?_
  match c with
  | ⟨0, _⟩ => rfl
  | ⟨1, _⟩ => rfl
  | ⟨2, _⟩ =>
    refine (DotDims.lhsIdx_val_of_single dot_S32x49x32_S32x49x32_S32x49x49_2_2_1_1_0_0 (cl := 2) rfl (ix3 j n m) _).trans ?_
    exact contrEquiv1_symm_val dot_S32x49x32_S32x49x32_S32x49x49_2_2_1_1_0_0 32 rfl rfl e

/-- … and the right operand at (j, m, e). -/
theorem rhs1 (j : Fin 32) (n m : Fin 49) (e : Fin 32) :
    dot_S32x49x32_S32x49x32_S32x49x49_2_2_1_1_0_0.rhsIdx (ix3 j n m) ((contrEquiv1 dot_S32x49x32_S32x49x32_S32x49x49_2_2_1_1_0_0 32 rfl rfl).symm e) = ix3 j m e := by
  funext c
  refine Fin.ext ?_
  match c with
  | ⟨0, _⟩ => rfl
  | ⟨1, _⟩ => rfl
  | ⟨2, _⟩ =>
    refine (DotDims.rhsIdx_val_of_single dot_S32x49x32_S32x49x32_S32x49x49_2_2_1_1_0_0 (cr := 2) rfl (ix3 j n m) _).trans ?_
    exact contrEquiv1_symm_val dot_S32x49x32_S32x49x32_S32x49x49_2_2_1_1_0_0 32 rfl rfl e

/-- The first product into zero, at (j, n, m): `∑ e, a (j, n, e) · b (j, m, e)`. -/
theorem mm1_apply (a : FVec Ideal S32x49x32 φ₁) (b : FVec Ideal S32x49x32 φ₂) (j : Fin 32) (n m : Fin 49) :
    matmul dot_S32x49x32_S32x49x32_S32x49x49_2_2_1_1_0_0 none a b (constant (F := Ideal) S32x49x49 .f32 0x00000000#32) (ix3 j n m)
      = ∑ e : Fin 32, a (ix3 j n e) * b (ix3 j m e) := by
  refine (Ideal.matmul_constant_zero_apply dot_S32x49x32_S32x49x32_S32x49x49_2_2_1_1_0_0 none a b (ix3 j n m)).trans ?_
  rw [← Equiv.sum_comp (contrEquiv1 dot_S32x49x32_S32x49x32_S32x49x49_2_2_1_1_0_0 32 rfl rfl).symm]
  refine Finset.sum_congr rfl fun e _ => ?_
  rw [lhs1, rhs1]

/-- In the product p·v per window, at output (j, n, e) and contraction coordinate m the left operand is read
    at (j, n, m) … -/
theorem lhs2 (j : Fin 32) (n : Fin 49) (e : Fin 32) (m : Fin 49) :
    dot_S32x49x49_S32x49x32_S32x49x32_2_1_1_2_0_0.lhsIdx (ix3 j n e) ((contrEquiv1 dot_S32x49x49_S32x49x32_S32x49x32_2_1_1_2_0_0 49 rfl rfl).symm m) = ix3 j n m := by
  funext c
  refine Fin.ext ?_
  match c with
  | ⟨0, _⟩ => rfl
  | ⟨1, _⟩ => rfl
  | ⟨2, _⟩ =>
    refine (DotDims.lhsIdx_val_of_single dot_S32x49x49_S32x49x32_S32x49x32_2_1_1_2_0_0 (cl := 2) rfl (ix3 j n e) _).trans ?_
    exact contrEquiv1_symm_val dot_S32x49x49_S32x49x32_S32x49x32_2_1_1_2_0_0 49 rfl rfl m

/-- … and the right operand at (j, m, e). -/
theorem rhs2 (j : Fin 32) (n : Fin 49) (e : Fin 32) (m : Fin 49) :
    dot_S32x49x49_S32x49x32_S32x49x32_2_1_1_2_0_0.rhsIdx (ix3 j n e) ((contrEquiv1 dot_S32x49x49_S32x49x32_S32x49x32_2_1_1_2_0_0 49 rfl rfl).symm m) = ix3 j m e := by
  funext c
  refine Fin.ext ?_
  match c with
  | ⟨0, _⟩ => rfl
  | ⟨1, _⟩ =>
    refine (DotDims.rhsIdx_val_of_single dot_S32x49x49_S32x49x32_S32x49x32_2_1_1_2_0_0 (cr := 1) rfl (ix3 j n e) _).trans ?_
    exact contrEquiv1_symm_val dot_S32x49x49_S32x49x32_S32x49x32_2_1_1_2_0_0 49 rfl rfl m
  | ⟨2, _⟩ => rfl

/-- The second product into zero, at (j, n, e): `∑ m, p (j, n, m) · v (j, m, e)`. -/
theorem mm2_apply (p : FVec Ideal S32x49x49 φ₁) (v : FVec Ideal S32x49x32 φ₂) (j : Fin 32) (n : Fin 49) (e : Fin 32) :
    matmul dot_S32x49x49_S32x49x32_S32x49x32_2_1_1_2_0_0 none p v (constant (F := Ideal) S32x49x32 .f32 0x00000000#32) (ix3 j n e)
      = ∑ m : Fin 49, p (ix3 j n m) * v (ix3 j m e) := by
  refine (Ideal.matmul_constant_zero_apply dot_S32x49x49_S32x49x32_S32x49x32_2_1_1_2_0_0 none p v (ix3 j n e)).trans ?_
  rw [← Equiv.sum_comp (contrEquiv1 dot_S32x49x49_S32x49x32_S32x49x32_2_1_1_2_0_0 49 rfl rfl).symm]
  refine Finset.sum_congr rfl fun m _ => ?_
  rw [lhs2, rhs2]

/-! ## The row reductions -/

/-- The reduced index (j, n) with m inserted on the last axis is (j, n, m). -/
theorem lift_eq (h : S32x49x49.Reduces [2] S32x49) (j : Fin 32) (n m : Fin 49) :
    h.lift (ix2 j n) m = ix3 j n m := by
  funext c
  refine Fin.ext ?_
  match c with
  | ⟨0, _⟩ => rfl
  | ⟨1, _⟩ => rfl
  | ⟨2, _⟩ => rfl

/-- The maximum along the last axis from −∞, at (j, n): the fold of `max` from −∞ over the row's 49 entries. -/
theorem max_apply (s : FVec Ideal S32x49x49 .f32) (h : S32x49x49.Reduces [2] S32x49) (hφ : FKind.Formats .f32)
    (hacc : (0xFF800000#32 : BitVec 32) = 0xFF800000#32) (j : Fin 32) (n : Fin 49) :
    multiReduction (F := Ideal) .maximumf [2] S32x49 s 0xFF800000#32 h hφ hacc (ix2 j n)
      = Finset.univ.fold max negInf (fun m : Fin 49 => s (ix3 j n m)) := by
  refine (Ideal.multiReduction_maximumf_single s 0xFF800000#32 h hφ hacc (ix2 j n)).trans ?_
  show (Finset.univ : Finset (Fin 49)).fold max negInf (s ∘ h.lift (ix2 j n)) = _
  congr 1
  funext m
  exact congrArg s (lift_eq h j n m)

/-- The sum along the last axis, at (j, n): the bare sum of the row's 49 entries. -/
theorem sum_apply (s : FVec Ideal S32x49x49 .f32) (h : S32x49x49.Reduces [2] S32x49) (hφ : FKind.Formats .f32)
    (hacc : (0x00000000#32 : BitVec 32) = 0x00000000#32) (j : Fin 32) (n : Fin 49) :
    multiReduction (F := Ideal) .add [2] S32x49 s 0x00000000#32 h hφ hacc (ix2 j n)
      = ∑ m : Fin 49, s (ix3 j n m) := by
  refine (Ideal.multiReduction_add_single s 0x00000000#32 h hφ hacc (ix2 j n)).trans ?_
  show ∑ m : Fin 49, s (h.lift (ix2 j n) m) = _
  refine Finset.sum_congr rfl fun m _ => ?_
  exact congrArg s (lift_eq h j n m)

/-! ## The softmax of a score array, the scores, and the head -/

/-- The exponential of a vector, read at an index. -/
theorem exp_apply {s : Shape} (a : FVec Ideal s φ) (i : s.Idx) : exp a i = Ideal.exp (a i) := rfl

/-- For ANY [32, 49, 49] array S: its rows' maxima (from −∞, then once more against −∞), the exponentials of S
    less its row maximum, their row sums, and the quotient, read at (j, n, m), are the softmax of the row
    `m ↦ S (j, n, m)` at m. -/
theorem soft_apply (S : FVec Ideal S32x49x49 .f32) (h : S32x49x49.Reduces [2] S32x49) (hφ : FKind.Formats .f32)
    (hm : (0xFF800000#32 : BitVec 32) = 0xFF800000#32)
    (ha : (0x00000000#32 : BitVec 32) = 0x00000000#32)
    (h1 : S32x49.ShapeCasts S32x49x1) (h2 : S32x49x1.Broadcasts S32x49x49) (j : Fin 32) (n m : Fin 49) :
    divf
        (exp (subf S (broadcastTo S32x49x49 (shapeCast S32x49x1
          (maximumf (broadcast S32x49 (FloatOps.ofBits (F := Ideal) .f32 0xFF800000#32))
            (multiReduction (F := Ideal) .maximumf [2] S32x49 S 0xFF800000#32 h hφ hm)) h1) h2)))
        (broadcastTo S32x49x49 (shapeCast S32x49x1
          (multiReduction (F := Ideal) .add [2] S32x49
            (exp (subf S (broadcastTo S32x49x49 (shapeCast S32x49x1
              (maximumf (broadcast S32x49 (FloatOps.ofBits (F := Ideal) .f32 0xFF800000#32))
                (multiReduction (F := Ideal) .maximumf [2] S32x49 S 0xFF800000#32 h hφ hm)) h1) h2)))
            0x00000000#32 h hφ ha) h1) h2)
        (ix3 j n m)
      = soft (fun m => S (ix3 j n m)) m := by
  -- the row maximum, repeated along the row
  have hmax : ∀ m' : Fin 49, (broadcastTo S32x49x49 (shapeCast S32x49x1
          (maximumf (broadcast S32x49 (FloatOps.ofBits (F := Ideal) .f32 0xFF800000#32))
            (multiReduction (F := Ideal) .maximumf [2] S32x49 S 0xFF800000#32 h hφ hm)) h1) h2) (ix3 j n m')
        = rowMax (fun m => S (ix3 j n m)) := by
    intro m'
    rw [col_apply, maximumf_apply, broadcast_apply, max_apply]
    rfl
  -- the shifted exponential at each entry of the row
  have hexp : ∀ m' : Fin 49, (exp (subf S (broadcastTo S32x49x49 (shapeCast S32x49x1
          (maximumf (broadcast S32x49 (FloatOps.ofBits (F := Ideal) .f32 0xFF800000#32))
            (multiReduction (F := Ideal) .maximumf [2] S32x49 S 0xFF800000#32 h hφ hm)) h1) h2))) (ix3 j n m')
        = expRow (fun m => S (ix3 j n m)) m' := by
    intro m'
    rw [exp_apply, subf_apply, hmax]
    rfl
  rw [divf_apply, hexp, col_apply, sum_apply]
  unfold soft
  exact congrArg (Ideal.div _) (Finset.sum_congr rfl fun m' _ => hexp m')

/-- The body's score array at (j, n, m): `(∑ e, (q (49·j + n, e) · scale) · k (49·j + m, e) + bias (0, n, m)) + mask (j, n, m)`,
    the specification's score for window j. -/
theorem score_apply (q k : Vec Ideal S1568x32 .f32) (bias : Vec Ideal S1x49x49 .f32) (mask : Vec Ideal S32x49x49 .f32)
    (hb : FTy.bits .bf16 < FTy.bits .f32) (h0 : S1568x32.ShapeCasts S32x49x32)
    (h1 : S1x49x49.ShapeCasts S49x49) (h2 : S49x49.ShapeCasts S1x49x49) (h3 : S1x49x49.Broadcasts S32x49x49)
    (j : Fin 32) (n m : Fin 49) :
    addf (addf
        (matmul dot_S32x49x32_S32x49x32_S32x49x49_2_2_1_1_0_0 none
          (shapeCast S32x49x32 (truncf .bf16 (Gen.k0_pay3 (F := Ideal) q) hb) h0)
          (shapeCast S32x49x32 (truncf (F := Ideal) .bf16 k hb) h0)
          (constant (F := Ideal) S32x49x49 .f32 0x00000000#32))
        (broadcastTo S32x49x49 (shapeCast S1x49x49 (shapeCast S49x49 bias h1) h2) h3))
      mask (ix3 j n m)
      = score (fun n e => q (ix2 (row j n) e)) (fun n e => k (ix2 (row j n) e))
          (fun n m => bias (ix3 0 n m)) (fun n m => mask (ix3 j n m)) n m := by
  rw [addf_apply, addf_apply, mm1_apply, bias_apply]
  unfold score
  refine congrArg (· + mask (ix3 j n m)) (congrArg (· + bias (ix3 0 n m)) ?_)
  refine Finset.sum_congr rfl fun e _ => ?_
  rw [cast_in, cast_in, truncf_apply, truncf_apply]
  rfl

/-- ONE HEAD OF THE BODY AT AN INDEX: at row 49·j + n and lane e the body's head (from the mask block, k, v, the
    scaled q and the bias block) is the specification's head of window j's 49 rows of q, k, v, with the bias
    block's one [49, 49] matrix and the mask block's matrix j, at (n, e). -/
theorem head_apply (q k v : Vec Ideal S1568x32 .f32) (bias : Vec Ideal S1x49x49 .f32) (mask : Vec Ideal S32x49x49 .f32)
    (j : Fin 32) (n : Fin 49) (e : Fin 32) :
    Gen.k0_pay4 (F := Ideal) mask k v (Gen.k0_pay3 (F := Ideal) q) bias (ix2 (AttnSpec.row j n) e)
      = AttnSpec.head (fun n e => q (ix2 (AttnSpec.row j n) e)) (fun n e => k (ix2 (AttnSpec.row j n) e))
          (fun n e => v (ix2 (AttnSpec.row j n) e)) (fun n m => bias (ix3 0 n m)) (fun n m => mask (ix3 j n m)) n e := by
  unfold Gen.k0_pay4
  dsimp only
  rw [shapeCast_self, truncf_apply, cast_out, mm2_apply]
  unfold head
  refine Finset.sum_congr rfl fun m _ => ?_
  rw [truncf_apply, cast_in, truncf_apply, soft_apply]
  refine congrArg (· * v (ix2 (row j m) e)) (congrArg (fun s => soft s m) ?_)
  funext m'
  exact score_apply q k bias mask _ _ _ _ _ j n m'

end Cert.KernelIdeal.KHead

end
-- ==== Proof.KBodyValue.lean ====
/-
  The block the kernel's body stores, read at an index.

  The body takes the 32 windows of a block as 1568 = 32·49 rows of width 384. It forms the stacked q;k;v
  projection of all rows (a [1568, 384] × [384, 1152] product plus a bias row), cuts for each of the twelve
  heads the three 32-column strips of q, k and v out of it, computes the head and writes its 32 columns into a
  [1568, 384] array, then multiplies that array by the [384, 384] output weight, adds the output bias row and
  regroups the 1568 rows as [32, 49, 384]. Read at (j, n, d) — window j of the block, token n, column d — this is
  the specification's one-window result `win` for window j's 49 rows, the block's mask matrix j, and the weights:
  that is `bodyOut_apply`. The pieces: the projection at a row (`qkv_apply`), a strip of columns at an entry
  (`cols_apply`), a head's bias (`biasRow_apply`), the twelve column strips read back as one function of the
  column (`headsOut_apply`: column f belongs to head f / 32, lane f % 32), and the output product (`out_apply`).
-/
import proofs.«150585_j71975061947032_2_alg».proof.Proof.KBody
import proofs.«150585_j71975061947032_2_alg».proof.Proof.KHead
import proofs.«150585_j71975061947032_2_alg».proof.Proof.AttnSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KBodyValue

open Idealize.ShloMosaic Idealize.ShloMosaic.ValueIdx Cert.AttnSpec

variable {φ φ₁ φ₂ : FTy}

/-! ## The stacked projection -/

/-- The 32 windows' rows set one under the other: entry (49·j + n, c) of the [1568, 384] array is entry (j, n, c) of the
    [32, 49, 384] one — both sit at row-major position (49·j + n)·384 + c. -/
theorem castRows (x : FVec Ideal S32x49x384 φ) (h : S32x49x384.ShapeCasts S1568x384) (j : Fin 32) (n : Fin 49) (c : Fin 384) :
    shapeCast S1568x384 x h (ix2 (row j n) c) = x (ix3 j n c) := by
  refine shapeCast_apply x h (ix2 (row j n) c) (ix3 j n c) ?_
  rw [Shape.rowMajor_val_two, Shape.rowMajor_val_three]
  show (j.val * 49 + n.val) * 384 + c.val = (row j n).val * 384 + c.val
  unfold row
  simp only
  omega

/-- In the projection's product, at output (r, f) and contraction coordinate c the left operand is read at (r, c) … -/
theorem lhsA (r : Fin 1568) (f : Fin 1152) (c : Fin 384) :
    dot_S1568x384_S384x1152_S1568x1152_1_0_0_1_n_n.lhsIdx (ix2 r f) ((contrEquiv1 dot_S1568x384_S384x1152_S1568x1152_1_0_0_1_n_n 384 rfl rfl).symm c) = ix2 r c := by
  funext a
  refine Fin.ext ?_
  match a with
  | ⟨0, _⟩ => rfl
  | ⟨1, _⟩ =>
    refine (DotDims.lhsIdx_val_of_single dot_S1568x384_S384x1152_S1568x1152_1_0_0_1_n_n (cl := 1) rfl (ix2 r f) _).trans ?_
    exact contrEquiv1_symm_val dot_S1568x384_S384x1152_S1568x1152_1_0_0_1_n_n 384 rfl rfl c

/-- … and the right operand at (c, f). -/
theorem rhsA (r : Fin 1568) (f : Fin 1152) (c : Fin 384) :
    dot_S1568x384_S384x1152_S1568x1152_1_0_0_1_n_n.rhsIdx (ix2 r f) ((contrEquiv1 dot_S1568x384_S384x1152_S1568x1152_1_0_0_1_n_n 384 rfl rfl).symm c) = ix2 c f := by
  funext a
  refine Fin.ext ?_
  match a with
  | ⟨0, _⟩ =>
    refine (DotDims.rhsIdx_val_of_single dot_S1568x384_S384x1152_S1568x1152_1_0_0_1_n_n (cr := 0) rfl (ix2 r f) _).trans ?_
    exact contrEquiv1_symm_val dot_S1568x384_S384x1152_S1568x1152_1_0_0_1_n_n 384 rfl rfl c
  | ⟨1, _⟩ => rfl

/-- The projection's product into zero, at (r, f): `∑ c, a (r, c) · b (c, f)`. -/
theorem mmA_apply (a : FVec Ideal S1568x384 φ₁) (b : FVec Ideal S384x1152 φ₂) (r : Fin 1568) (f : Fin 1152) :
    matmul dot_S1568x384_S384x1152_S1568x1152_1_0_0_1_n_n none a b (constant (F := Ideal) S1568x1152 .f32 0x00000000#32) (ix2 r f)
      = ∑ c : Fin 384, a (ix2 r c) * b (ix2 c f) := by
  refine (Ideal.matmul_constant_zero_apply dot_S1568x384_S384x1152_S1568x1152_1_0_0_1_n_n none a b (ix2 r f)).trans ?_
  rw [← Equiv.sum_comp (contrEquiv1 dot_S1568x384_S384x1152_S1568x1152_1_0_0_1_n_n 384 rfl rfl).symm]
  refine Finset.sum_congr rfl fun c _ => ?_
  rw [lhsA, rhsA]

/-- THE STACKED PROJECTION AT A ROW: at row 49·j + n and column f it is `∑ c, x (j, n, c) · w (c, f) + b (0, f)`, the
    specification's projection of window j's rows (the format changes and the same-shape casts are the identity). -/
theorem qkv_apply (x0 : Vec Ideal S32x49x384 .f32) (x2 : Vec Ideal S384x1152 .bf16) (x3 : Vec Ideal S1x1152 .f32)
    (j : Fin 32) (n : Fin 49) (f : Fin 1152) :
    Gen.k0_pay2 (F := Ideal) x0 x2 x3 (ix2 (row j n) f)
      = qkv (fun n c => x0 (ix3 j n c)) (fun f c => x2 (ix2 c f)) (fun f => x3 (ix2 0 f)) n f := by
  unfold Gen.k0_pay2
  rw [shapeCast_self, addf_apply, mmA_apply, broadcastTo_1b_ab_apply, shapeCast_self, shapeCast_self]
  unfold qkv
  refine congrArg (· + x3 (ix2 0 f)) ?_
  refine Finset.sum_congr rfl fun c _ => ?_
  rw [castRows, truncf_apply]

/-! ## The output projection -/

/-- … and the rows regrouped by window again: entry (j, n, d) of the [32, 49, 384] array is entry (49·j + n, d) of the
    [1568, 384] one. -/
theorem castWin (x : FVec Ideal S1568x384 φ) (h : S1568x384.ShapeCasts S32x49x384) (j : Fin 32) (n : Fin 49) (d : Fin 384) :
    shapeCast S32x49x384 x h (ix3 j n d) = x (ix2 (row j n) d) := by
  refine shapeCast_apply x h (ix3 j n d) (ix2 (row j n) d) ?_
  rw [Shape.rowMajor_val_two, Shape.rowMajor_val_three]
  show (row j n).val * 384 + d.val = (j.val * 49 + n.val) * 384 + d.val
  unfold row
  simp only
  omega

/-- In the output product, at output (r, d) and contraction coordinate f the left operand is read at (r, f) … -/
theorem lhsB (r : Fin 1568) (d : Fin 384) (f : Fin 384) :
    dot_S1568x384_S384x384_S1568x384_1_0_0_1_n_n.lhsIdx (ix2 r d) ((contrEquiv1 dot_S1568x384_S384x384_S1568x384_1_0_0_1_n_n 384 rfl rfl).symm f) = ix2 r f := by
  funext a
  refine Fin.ext ?_
  match a with
  | ⟨0, _⟩ => rfl
  | ⟨1, _⟩ =>
    refine (DotDims.lhsIdx_val_of_single dot_S1568x384_S384x384_S1568x384_1_0_0_1_n_n (cl := 1) rfl (ix2 r d) _).trans ?_
    exact contrEquiv1_symm_val dot_S1568x384_S384x384_S1568x384_1_0_0_1_n_n 384 rfl rfl f

/-- … and the right operand at (f, d). -/
theorem rhsB (r : Fin 1568) (d : Fin 384) (f : Fin 384) :
    dot_S1568x384_S384x384_S1568x384_1_0_0_1_n_n.rhsIdx (ix2 r d) ((contrEquiv1 dot_S1568x384_S384x384_S1568x384_1_0_0_1_n_n 384 rfl rfl).symm f) = ix2 f d := by
  funext a
  refine Fin.ext ?_
  match a with
  | ⟨0, _⟩ =>
    refine (DotDims.rhsIdx_val_of_single dot_S1568x384_S384x384_S1568x384_1_0_0_1_n_n (cr := 0) rfl (ix2 r d) _).trans ?_
    exact contrEquiv1_symm_val dot_S1568x384_S384x384_S1568x384_1_0_0_1_n_n 384 rfl rfl f
  | ⟨1, _⟩ => rfl

/-- The output product into zero, at (r, d): `∑ f, a (r, f) · b (f, d)`. -/
theorem mmB_apply (a : FVec Ideal S1568x384 φ₁) (b : FVec Ideal S384x384 φ₂) (r : Fin 1568) (d : Fin 384) :
    matmul dot_S1568x384_S384x384_S1568x384_1_0_0_1_n_n none a b (constant (F := Ideal) S1568x384 .f32 0x00000000#32) (ix2 r d)
      = ∑ f : Fin 384, a (ix2 r f) * b (ix2 f d) := by
  refine (Ideal.matmul_constant_zero_apply dot_S1568x384_S384x384_S1568x384_1_0_0_1_n_n none a b (ix2 r d)).trans ?_
  rw [← Equiv.sum_comp (contrEquiv1 dot_S1568x384_S384x384_S1568x384_1_0_0_1_n_n 384 rfl rfl).symm]
  refine Finset.sum_congr rfl fun f _ => ?_
  rw [lhsB, rhsB]

/-- THE OUTPUT PROJECTION AT AN INDEX: of any [1568, 384] array O, at (j, n, d):
    `∑ f, O (49·j + n, f) · w (f, d) + b (0, d)`. -/
theorem out_apply (O : Vec Ideal S1568x384 .bf16) (x5 : Vec Ideal S384x384 .bf16) (x6 : Vec Ideal S1x384 .f32)
    (j : Fin 32) (n : Fin 49) (d : Fin 384) :
    Gen.k0_pay1 (F := Ideal) (Gen.k0_pay34 (F := Ideal) O x5) (Gen.k0_pay35 (F := Ideal) x6) (ix3 j n d)
      = (∑ f : Fin 384, O (ix2 (row j n) f) * x5 (ix2 f d)) + x6 (ix2 0 d) := by
  unfold Gen.k0_pay1 Gen.k0_pay34 Gen.k0_pay35
  rw [castWin, addf_apply, mmB_apply, broadcastTo_1b_ab_apply, shapeCast_self, shapeCast_self]

/-! ## Columns of the stacked projection, and a head's bias -/

/-- The 32 columns from column `o`, at (r, e): the array at (r, o + e) — a unit-stride rectangle places its own index at
    offset plus coordinate. -/
theorem cols_apply (P : FVec Ideal S1568x1152 .f32) (o : Nat)
    (hb : ∀ a, (![0, o] : Fin 2 → Nat) a + (![1568, 32] : Fin 2 → Nat) a ≤ S1568x1152.size a)
    (r : Fin 1568) (e : Fin 32) :
    Gen.cols (F := Ideal) P o hb (ix2 r e) = P (ix2 r ⟨o + e.val, by have h1 : o + 32 ≤ 1152 := hb 1; have := e.isLt; omega⟩) := by
  unfold Gen.cols
  refine congrArg P (funext fun a => Fin.ext ?_)
  match a with
  | ⟨0, _⟩ => show 0 + 1 * r.val = r.val; omega
  | ⟨1, _⟩ => show o + 1 * e.val = o + e.val; omega

/-- Head `h`'s bias block at (0, n, m): the bias array at (h, n, m). -/
theorem biasRow_apply (x4 : Vec Ideal S12x49x49 .f32) (h : Nat)
    (hb : ∀ a, (![h, 0, 0] : Fin 3 → Nat) a + (![1, 49, 49] : Fin 3 → Nat) a ≤ S12x49x49.size a) (n m : Fin 49) :
    Gen.biasRow (F := Ideal) x4 h hb (ix3 0 n m) = x4 (ix3 ⟨h, by have h0 : h + 1 ≤ 12 := hb 0; omega⟩ n m) := by
  unfold Gen.biasRow
  refine congrArg x4 (funext fun a => Fin.ext ?_)
  match a with
  | ⟨0, _⟩ => show h + 1 * 0 = h; omega
  | ⟨1, _⟩ => show 0 + 1 * n.val = n.val; omega
  | ⟨2, _⟩ => show 0 + 1 * m.val = m.val; omega

/-! ## The twelve heads' stores read back -/

/-- A strip of 32 columns from column `o ≤ 1120` lies inside the 1152 columns. -/
theorem inbCol (o : Nat) (ho : o + 32 ≤ 1152) :
    ∀ a, (![0, o] : Fin 2 → Nat) a + (![1568, 32] : Fin 2 → Nat) a ≤ S1568x1152.size a := by
  intro a
  match a with
  | ⟨0, _⟩ => exact Nat.le_refl 1568
  | ⟨1, _⟩ => exact ho

/-- Row `h < 12` of the bias array lies inside it. -/
theorem inbBias (h : Nat) (hh : h < 12) :
    ∀ a, (![h, 0, 0] : Fin 3 → Nat) a + (![1, 49, 49] : Fin 3 → Nat) a ≤ S12x49x49.size a := by
  intro a
  match a with
  | ⟨0, _⟩ => exact hh
  | ⟨1, _⟩ => exact Nat.le_refl 49
  | ⟨2, _⟩ => exact Nat.le_refl 49

/-- The strip of columns 32h … 32h + 31, `h < 12`, lies inside the 384 columns. -/
theorem inbOut (h : Nat) (hh : h < 12) :
    ∀ a, (![0, 32 * h] : Fin 2 → Nat) a + (![1568, 32] : Fin 2 → Nat) a ≤ S1568x384.size a := by
  intro a
  match a with
  | ⟨0, _⟩ => exact Nat.le_refl 1568
  | ⟨1, _⟩ => show 32 * h + 32 ≤ 384; omega

/-- Head `h`'s 1568×32 output: the head computed from columns 32h (q), 384 + 32h (k) and 768 + 32h (v) of the stacked
    projection, bias `h` and the mask block. -/
def headTerm (i : grid0.Coords) (P : FVec Ideal S1568x1152 .f32) (x1 : Vec Ideal S64x49x49 .f32) (x4 : Vec Ideal S12x49x49 .f32)
    (h : Nat) (hh : h < 12) : FVec Ideal S1568x32 .bf16 :=
  Gen.k0_pay4 (F := Ideal) (Gen.maskBlk (F := Ideal) i x1) (Gen.cols (F := Ideal) P (384 + 32 * h) (inbCol _ (by omega)))
    (Gen.cols (F := Ideal) P (768 + 32 * h) (inbCol _ (by omega)))
    (Gen.k0_pay3 (F := Ideal) (Gen.cols (F := Ideal) P (32 * h) (inbCol _ (by omega)))) (Gen.biasRow (F := Ideal) x4 h (inbBias h hh))

/-- Equal head numbers and equal indices give equal entries. -/
theorem headTerm_congr (i : grid0.Coords) (P : FVec Ideal S1568x1152 .f32) (x1 : Vec Ideal S64x49x49 .f32) (x4 : Vec Ideal S12x49x49 .f32)
    {h h' : Nat} (hh : h < 12) (hh' : h' < 12) (e : h = h') {y y' : S1568x32.Idx} (ey : y = y') :
    headTerm i P x1 x4 h hh y = headTerm i P x1 x4 h' hh' y' := by
  subst e; subst ey; rfl

/-- Head `h`'s store: its output through the rectangle of columns 32h … 32h + 31. -/
def pieceOf (i : grid0.Coords) (P : FVec Ideal S1568x1152 .f32) (x1 : Vec Ideal S64x49x49 .f32) (x4 : Vec Ideal S12x49x49 .f32)
    (h : Fin 12) : View.Piece (Elt Ideal) S1568x384 .bf16 :=
  ⟨Rect.unit (s := S1568x384) ![0, 32 * h.val] ![1568, 32] (inbOut h.val h.isLt), headTerm i P x1 x4 h.val h.isLt⟩

/-- The twelve stores, last first, are the stores of heads 11, 10, …, 0: the literal column offsets 352, 736, 1120, … are
    32h, 384 + 32h, 768 + 32h at h = 11, …, by computation. -/
theorem headStores_eq (i : grid0.Coords) (P : FVec Ideal S1568x1152 .f32) (x1 : Vec Ideal S64x49x49 .f32) (x4 : Vec Ideal S12x49x49 .f32) :
    Gen.headStores (F := Ideal) i P x1 x4 = ([11, 10, 9, 8, 7, 6, 5, 4, 3, 2, 1, 0] : List (Fin 12)).map (pieceOf i P x1 x4) := rfl

/-- The array the stores leave, as one function of the index: column `f` belongs to head `f / 32`, lane `f % 32`. -/
def headsFn (i : grid0.Coords) (P : FVec Ideal S1568x1152 .f32) (x1 : Vec Ideal S64x49x49 .f32) (x4 : Vec Ideal S12x49x49 .f32) :
    S1568x384.Idx → Elt Ideal .bf16 :=
  fun y => headTerm i P x1 x4 ((y 1).val / 32) (by have := idx2_lt1 y; omega)
    (ix2 (⟨(y 0).val, idx2_lt0 y⟩ : Fin 1568) (⟨(y 1).val % 32, Nat.mod_lt _ (by decide)⟩ : Fin 32))

/-- Head `h`'s store is the tile of `headsFn` its rectangle names: under the rectangle the column is 32h + e with e < 32,
    whose quotient by 32 is h and whose remainder is e. -/
theorem piece_eq (i : grid0.Coords) (P : FVec Ideal S1568x1152 .f32) (x1 : Vec Ideal S64x49x49 .f32) (x4 : Vec Ideal S12x49x49 .f32)
    (h : Fin 12) (x : (pieceOf i P x1 x4 h).1.shape.Idx) :
    (pieceOf i P x1 x4 h).2 x = headsFn i P x1 x4 ((pieceOf i P x1 x4 h).1.emb x) := by
  have hx0 : (x 0).val < 1568 := (x 0).isLt
  have hx1 : (x 1).val < 32 := (x 1).isLt
  have e0 : (((pieceOf i P x1 x4 h).1.emb x) 0).val = (x 0).val := by
    show 0 + 1 * (x 0).val = (x 0).val; omega
  have e1 : (((pieceOf i P x1 x4 h).1.emb x) 1).val = 32 * h.val + (x 1).val := by
    show 32 * h.val + 1 * (x 1).val = 32 * h.val + (x 1).val; omega
  show headTerm i P x1 x4 h.val h.isLt x = _
  unfold headsFn
  refine headTerm_congr i P x1 x4 _ _ (by rw [e1]; omega) ?_
  funext a
  refine Fin.ext ?_
  match a with
  | ⟨0, _⟩ => exact e0.symm
  | ⟨1, _⟩ => show (x 1).val = (((pieceOf i P x1 x4 h).1.emb x) 1).val % 32; rw [e1]; omega

/-- Every entry (r, f) lies in the rectangle of head f / 32: 32·(f / 32) ≤ f < 32·(f / 32) + 32. -/
theorem mem_piece (i : grid0.Coords) (P : FVec Ideal S1568x1152 .f32) (x1 : Vec Ideal S64x49x49 .f32) (x4 : Vec Ideal S12x49x49 .f32)
    (r : Fin 1568) (f : Fin 384) :
    ix2 r f ∈ (pieceOf i P x1 x4 ⟨f.val / 32, by omega⟩).1.set := by
  show ix2 r f ∈ (Rect.unit (s := S1568x384) ![0, 32 * (f.val / 32)] ![1568, 32] (inbOut (f.val / 32) (by have := f.isLt; omega))).set
  rw [Rect.mem_set_unit]
  intro a
  match a with
  | ⟨0, _⟩ => show 0 ≤ r.val ∧ r.val < 0 + 1568; omega
  | ⟨1, _⟩ => show 32 * (f.val / 32) ≤ f.val ∧ f.val < 32 * (f.val / 32) + 32; omega

/-- Every head is in the list 11, 10, …, 0. -/
theorem all_heads (h : Fin 12) : h ∈ ([11, 10, 9, 8, 7, 6, 5, 4, 3, 2, 1, 0] : List (Fin 12)) := by
  revert h; decide

/-- THE HEADS' ARRAY AT AN ENTRY: at (r, f) it is head f / 32's output at (r, f % 32) — the twelve column strips tile the
    array, and each is a tile of the one function `headsFn`. -/
theorem headsOut_apply (i : grid0.Coords) (P : FVec Ideal S1568x1152 .f32) (x1 : Vec Ideal S64x49x49 .f32) (x4 : Vec Ideal S12x49x49 .f32)
    (r : Fin 1568) (f : Fin 384) :
    Gen.headsOut (F := Ideal) i P x1 x4 (ix2 r f)
      = headTerm i P x1 x4 (f.val / 32) (by omega) (ix2 r (⟨f.val % 32, Nat.mod_lt _ (by decide)⟩ : Fin 32)) := by
  have hidx : (Rect.unit (s := S1568x384) ![0, 0] ![1568, 384] Gen.inb_S1568x384_S1568x384_0_0).idx (ix2 r f) = ix2 r f := by
    funext a
    refine Fin.ext ?_
    match a with
    | ⟨0, _⟩ => show 0 + 1 * r.val = r.val; omega
    | ⟨1, _⟩ => show 0 + 1 * f.val = f.val; omega
  show View.canon (Gen.headStores (F := Ideal) i P x1 x4)
    ((Rect.unit (s := S1568x384) ![0, 0] ![1568, 384] Gen.inb_S1568x384_S1568x384_0_0).idx (ix2 r f)) = _
  rw [hidx, headStores_eq]
  refine (View.canon_apply_of_pieces (headsFn i P x1 x4) _ ?_ (ix2 r f) ?_).trans rfl
  · intro p hp x
    obtain ⟨h, -, rfl⟩ := List.mem_map.mp hp
    exact piece_eq i P x1 x4 h x
  · exact ⟨_, List.mem_map.mpr ⟨⟨f.val / 32, by omega⟩, all_heads _, rfl⟩, mem_piece i P x1 x4 r f⟩

/-! ## The body's block at an index -/

/-- 32 columns of the stacked projection from column `s·384 + h·32`, at row 49·j + n: part `s` of head `h` of window
    `j`'s projection. -/
theorem colsProj_apply (x0 : Vec Ideal S32x49x384 .f32) (x2 : Vec Ideal S384x1152 .bf16) (x3 : Vec Ideal S1x1152 .f32)
    (o : Nat) (hb : ∀ a, (![0, o] : Fin 2 → Nat) a + (![1568, 32] : Fin 2 → Nat) a ≤ S1568x1152.size a)
    (s : Fin 3) (h : Fin 12) (ho : o = s.val * 384 + h.val * 32) (j : Fin 32) (n : Fin 49) (e : Fin 32) :
    Gen.cols (F := Ideal) (Gen.k0_pay2 (F := Ideal) x0 x2 x3) o hb (ix2 (row j n) e)
      = part (qkv (fun n c => x0 (ix3 j n c)) (fun f c => x2 (ix2 c f)) (fun f => x3 (ix2 0 f))) s h n e := by
  rw [cols_apply, qkv_apply]
  unfold part
  refine congrArg (qkv _ _ _ n) (Fin.ext ?_)
  show o + e.val = s.val * 384 + h.val * 32 + e.val
  omega

/-- THE BODY'S BLOCK AT AN INDEX: at (j, n, d) the block the body stores is the specification's one-window result for
    window j — its 49 rows of the input block, matrix j of the mask block, the projection weight and bias, the twelve bias
    matrices, the output weight and bias — at (n, d). Under the output product's sum, column f of the heads' array is head
    f / 32 at lane f % 32, whose q, k, v strips are parts 0, 1, 2 of that head in window j's projection. -/
theorem bodyOut_apply (i : grid0.Coords) (x0 : Vec Ideal S32x49x384 .f32) (x1 : Vec Ideal S64x49x49 .f32) (x2 : Vec Ideal S384x1152 .bf16)
    (x3 : Vec Ideal S1x1152 .f32) (x4 : Vec Ideal S12x49x49 .f32) (x5 : Vec Ideal S384x384 .bf16) (x6 : Vec Ideal S1x384 .f32)
    (j : Fin 32) (n : Fin 49) (d : Fin 384) :
    Gen.bodyOut (F := Ideal) i x0 x1 x2 x3 x4 x5 x6 (ix3 j n d)
      = AttnSpec.win (fun n c => x0 (ix3 j n c)) (fun n m => Gen.maskBlk (F := Ideal) i x1 (ix3 j n m)) (fun f c => x2 (ix2 c f))
          (fun f => x3 (ix2 0 f)) (fun h n m => x4 (ix3 h n m)) (fun d f => x5 (ix2 f d)) (fun d => x6 (ix2 0 d)) n d := by
  unfold Gen.bodyOut
  rw [out_apply]
  unfold win
  refine congrArg (· + x6 (ix2 0 d)) ?_
  refine Finset.sum_congr rfl fun f _ => ?_
  refine congrArg (· * x5 (ix2 f d)) ?_
  have h12 : f.val / 32 < 12 := by have := f.isLt; omega
  rw [headsOut_apply]
  unfold headTerm
  rw [KHead.head_apply]
  unfold heads
  have eq0 : ∀ (n : Fin 49) (e : Fin 32),
      Gen.cols (F := Ideal) (Gen.k0_pay2 (F := Ideal) x0 x2 x3) (32 * (f.val / 32)) (inbCol _ (by omega)) (ix2 (row j n) e)
        = part (qkv (fun n c => x0 (ix3 j n c)) (fun f c => x2 (ix2 c f)) (fun f => x3 (ix2 0 f))) 0 ⟨f.val / 32, h12⟩ n e :=
    fun n e => colsProj_apply x0 x2 x3 _ _ 0 ⟨f.val / 32, h12⟩
      (by show 32 * (f.val / 32) = 0 * 384 + (f.val / 32) * 32; omega) j n e
  have eq1 : ∀ (n : Fin 49) (e : Fin 32),
      Gen.cols (F := Ideal) (Gen.k0_pay2 (F := Ideal) x0 x2 x3) (384 + 32 * (f.val / 32)) (inbCol _ (by omega)) (ix2 (row j n) e)
        = part (qkv (fun n c => x0 (ix3 j n c)) (fun f c => x2 (ix2 c f)) (fun f => x3 (ix2 0 f))) 1 ⟨f.val / 32, h12⟩ n e :=
    fun n e => colsProj_apply x0 x2 x3 _ _ 1 ⟨f.val / 32, h12⟩
      (by show 384 + 32 * (f.val / 32) = 1 * 384 + (f.val / 32) * 32; omega) j n e
  have eq2 : ∀ (n : Fin 49) (e : Fin 32),
      Gen.cols (F := Ideal) (Gen.k0_pay2 (F := Ideal) x0 x2 x3) (768 + 32 * (f.val / 32)) (inbCol _ (by omega)) (ix2 (row j n) e)
        = part (qkv (fun n c => x0 (ix3 j n c)) (fun f c => x2 (ix2 c f)) (fun f => x3 (ix2 0 f))) 2 ⟨f.val / 32, h12⟩ n e :=
    fun n e => colsProj_apply x0 x2 x3 _ _ 2 ⟨f.val / 32, h12⟩
      (by show 768 + 32 * (f.val / 32) = 2 * 384 + (f.val / 32) * 32; omega) j n e
  have eqb : ∀ (n m : Fin 49),
      Gen.biasRow (F := Ideal) x4 (f.val / 32) (inbBias _ h12) (ix3 0 n m) = x4 (ix3 (⟨f.val / 32, h12⟩ : Fin 12) n m) :=
    fun n m => biasRow_apply x4 _ _ n m
  simp only [eq0, eq1, eq2, eqb]

end Cert.KernelIdeal.KBodyValue

end
-- ==== Proof.KRpb.lean ====
/-
  The kernel's relative-position bias array as a function of the bias-table argument: the table recast to
  169×12, its rows gathered through the 49×49 integer index table (the table's entries, unchanged: the
  program's select between "entry + 169" and "entry" is taken on a constant-false mask), and the head axis
  moved to the front, [49,49,12] → [12,49,49].
-/
import proofs.«150585_j71975061947032_2_alg».proof.Proof.Gen.KernelIdeal

noncomputable section

namespace Cert.KernelIdeal.KRpb

open Cert.KernelIdeal Idealize.ShloMosaic Idealize.SL.Sem
open Facts₀ Facts

variable {F : FTy → Type} [FloatOps F]

/-- The 49×49 integer index table, row-major. -/
def Kc : (⟨S49x49, .i32⟩ : BufTy).Contents (Elt F) := fun i => lit0 (S49x49.rowMajor i)

/-- The gather's start indices: the table's entries, each as a length-1 index vector. -/
def Kidx : (⟨S49x49x1, .i32⟩ : BufTy).Contents (Elt F) :=
  (broadcastInDim S49x49x1 ![0, 1] bcast_S49x49_S49x49x1_0_1 : (⟨S49x49, .i32⟩ : BufTy).Contents (Elt F) → (⟨S49x49x1, .i32⟩ : BufTy).Contents (Elt F))
    ((select : (⟨S49x49, .i1⟩ : BufTy).Contents (Elt F) → (⟨S49x49, .i32⟩ : BufTy).Contents (Elt F) → (⟨S49x49, .i32⟩ : BufTy).Contents (Elt F) → (⟨S49x49, .i32⟩ : BufTy).Contents (Elt F))
      (constantI S49x49 1 0#1)
      ((addi : (⟨S49x49, .i32⟩ : BufTy).Contents (Elt F) → (⟨S49x49, .i32⟩ : BufTy).Contents (Elt F) → (⟨S49x49, .i32⟩ : BufTy).Contents (Elt F))
        (Kc (F := F))
        ((broadcastInDim S49x49 ![] bcast_S_S49x49 : (⟨S_, .i32⟩ : BufTy).Contents (Elt F) → (⟨S49x49, .i32⟩ : BufTy).Contents (Elt F)) (constantI S_ 32 169#32)))
      (Kc (F := F)))

/-- The bias array [12,49,49] of the table argument `a4` [13,13,12]. -/
def Krpb (a4 : (⟨S13x13x12, .f32⟩ : BufTy).Contents (Elt F)) : (⟨S12x49x49, .f32⟩ : BufTy).Contents (Elt F) :=
  transpose S12x49x49 [2, 0, 1]
    (Host.gather gather_S169x12_S49x49x1_S49x49x12_2_0_n_n_0_2_112 (fun i => shapeCast S169x12 a4 shapeCasts_S13x13x12_S169x12 i) (Kidx (F := F)))
    transposes_S49x49x12_S12x49x49_2_0_1

end Cert.KernelIdeal.KRpb

end
-- ==== Proof.KHost.lean ====
/-
  The kernel's input blocks, read at an index, as entries of the program's arguments. The region finds seven
  arrays: the tokens [4096,49,384] and the masks [64,49,49] as launched; the stacked projection's weight
  transposed, [1152,384] → [384,1152]; its bias with a leading unit axis, [1152] → [1,1152]; the relative-position
  bias array [12,49,49] gathered from the table argument; the output projection's weight transposed,
  [384,384] → [384,384]; its bias with a leading unit axis, [384] → [1,384]. At grid point t the token block
  and the output block are windows 32t … 32t+31 of their arrays; every other block is its whole array. Inside
  the body, the 32 masks a point reads start at window (t mod 2)·32 of the 64, so window j of the point reads
  mask (32t + j) mod 64.

  Every coordinate of a block's element in its array is (block index) × (block size) + 1 × (coordinate inside the
  block); the block indices are decided once over the 128 grid points, and the rest is linear arithmetic.
-/
import proofs.«150585_j71975061947032_2_alg».proof.Proof.KBody
import proofs.«150585_j71975061947032_2_alg».proof.Proof.KRpb
import Idealize.ShloMosaic.Lib.StableHlo.Run
import Idealize.ShloMosaic.Lib.ValueIdx
import Idealize.ShloMosaic.Lib.ValueLayout

set_option maxRecDepth 16384

noncomputable section

namespace Cert.KernelIdeal.KHost

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window cellOf)

variable (m : (ℓ : Loc nD τ sig) → Buf (Elt Ideal) ℓ) (c : Dev nD) (t : Fin cfg0.N)

/-! ## The block indices over the grid -/

/-- The token block at point `t` is block `t` along the window axis and block 0 along the other two. -/
theorem index0 : ∀ t : Fin grid0.N, win0_0.index t (0 : Fin 3) = t.val ∧ win0_0.index t (1 : Fin 3) = 0
    ∧ win0_0.index t (2 : Fin 3) = 0 := by decide +kernel
/-- The mask array is one block, at index 0 on every axis. -/
theorem index1 : ∀ t : Fin grid0.N, win0_1.index t (0 : Fin 3) = 0 ∧ win0_1.index t (1 : Fin 3) = 0
    ∧ win0_1.index t (2 : Fin 3) = 0 := by decide +kernel
/-- The transposed stacked weight is one block. -/
theorem index2 : ∀ t : Fin grid0.N, win0_2.index t (0 : Fin 2) = 0 ∧ win0_2.index t (1 : Fin 2) = 0 := by decide +kernel
/-- The stacked bias row is one block. -/
theorem index3 : ∀ t : Fin grid0.N, win0_3.index t (0 : Fin 2) = 0 ∧ win0_3.index t (1 : Fin 2) = 0 := by decide +kernel
/-- The relative-position bias array is one block. -/
theorem index4 : ∀ t : Fin grid0.N, win0_4.index t (0 : Fin 3) = 0 ∧ win0_4.index t (1 : Fin 3) = 0
    ∧ win0_4.index t (2 : Fin 3) = 0 := by decide +kernel
/-- The transposed output weight is one block. -/
theorem index5 : ∀ t : Fin grid0.N, win0_5.index t (0 : Fin 2) = 0 ∧ win0_5.index t (1 : Fin 2) = 0 := by decide +kernel
/-- The output bias row is one block. -/
theorem index6 : ∀ t : Fin grid0.N, win0_6.index t (0 : Fin 2) = 0 ∧ win0_6.index t (1 : Fin 2) = 0 := by decide +kernel
/-- The output block at point `t` is block `t` along the window axis and block 0 along the other two. -/
theorem index7 : ∀ t : Fin grid0.N, win0_7.index t (0 : Fin 3) = t.val ∧ win0_7.index t (1 : Fin 3) = 0
    ∧ win0_7.index t (2 : Fin 3) = 0 := by decide +kernel
/-- The first mask a point reads: the body's integer chain computes (t mod 2)·32, and 0 on the two token axes. -/
theorem maskOff : ∀ t : Fin grid0.N, k0_off1 (grid0.coords t) (0 : Fin 3) = (t.val % 2) * 32
    ∧ k0_off1 (grid0.coords t) (1 : Fin 3) = 0 ∧ k0_off1 (grid0.coords t) (2 : Fin 3) = 0 := by decide +kernel

/-! ## The arrays the operations before the region wrote -/

/-- The stacked weight as the region finds it: the argument [1152,384] transposed (its narrowing to the block's
    format is the identity on the extended reals). -/
theorem wqkv_eq : @Eq (FVec Ideal S384x1152 .bf16) (V m c main_v8)
    (truncf .bf16 (transpose S384x1152 [1, 0] (m ((c : Thread nD τ).loc main_arg2) : FVec Ideal S1152x384 .f32)
      transposes_S1152x384_S384x1152_1_0) bitsLt_bf16_f32) := by
  dsimp only [Gen.V, Gen.hostOps0]; after_results

/-- The stacked bias as the region finds it: the argument [1152] recast to [1,1152]. -/
theorem bqkv_eq : @Eq (FVec Ideal S1x1152 .f32) (V m c main_v11)
    (shapeCast S1x1152 (m ((c : Thread nD τ).loc main_arg3) : FVec Ideal S1152 .f32) shapeCasts_S1152_S1x1152) := by
  dsimp only [Gen.V, Gen.hostOps0]; after_results; rfl

/-- The relative-position bias array as the region finds it: the gather of the table argument, head axis first. -/
theorem rpb_eq : @Eq (FVec Ideal S12x49x49 .f32) (V m c main_v6)
    (KRpb.Krpb (F := Ideal) (m ((c : Thread nD τ).loc main_arg4))) := by
  dsimp only [Gen.V, Gen.hostOps0]; after_results; rfl

/-- The output weight as the region finds it: the argument [384,384] transposed. -/
theorem wproj_eq : @Eq (FVec Ideal S384x384 .bf16) (V m c main_v10)
    (truncf .bf16 (transpose S384x384 [1, 0] (m ((c : Thread nD τ).loc main_arg5) : FVec Ideal S384x384 .f32)
      transposes_S384x384_S384x384_1_0) bitsLt_bf16_f32) := by
  dsimp only [Gen.V, Gen.hostOps0]; after_results

/-- The output bias as the region finds it: the argument [384] recast to [1,384]. -/
theorem bproj_eq : @Eq (FVec Ideal S1x384 .f32) (V m c main_v12)
    (shapeCast S1x384 (m ((c : Thread nD τ).loc main_arg6) : FVec Ideal S384 .f32) shapeCasts_S384_S1x384) := by
  dsimp only [Gen.V, Gen.hostOps0]; after_results; rfl

/-! ## The blocks at an index -/

/-- Window `j` of point `t`'s token block is window `32t + j` of the token argument. -/
theorem iblk0_apply (j : Fin 32) (n : Fin 49) (cc : Fin 384) :
    iblk m c 0 t (ix3 j n cc)
      = m ((c : Thread nD τ).loc main_arg0) (ix3 ⟨32 * t.val + j.val, by have ht : t.val < 128 := t.isLt; omega⟩ n cc) := by
  show V m c main_arg0 (((cfg0.win 0).blk t).view.emb (ix3 j n cc)) = _
  rw [V_main_arg0]
  refine congrArg _ ?_
  obtain ⟨e0, e1, e2⟩ := index0 t
  funext a; apply Fin.ext
  match a with
  | ⟨0, _⟩ => show win0_0.index t (0 : Fin 3) * 32 + 1 * j.val = 32 * t.val + j.val; omega
  | ⟨1, _⟩ => show win0_0.index t (1 : Fin 3) * 49 + 1 * n.val = n.val; omega
  | ⟨2, _⟩ => show win0_0.index t (2 : Fin 3) * 384 + 1 * cc.val = cc.val; omega

/-- The mask block is the mask argument. -/
theorem iblk1_apply (w : Fin 64) (n mm : Fin 49) :
    iblk m c 1 t (ix3 w n mm) = m ((c : Thread nD τ).loc main_arg1) (ix3 w n mm) := by
  show V m c main_arg1 (((cfg0.win 1).blk t).view.emb (ix3 w n mm)) = _
  rw [V_main_arg1]
  refine congrArg _ ?_
  obtain ⟨e0, e1, e2⟩ := index1 t
  funext a; apply Fin.ext
  match a with
  | ⟨0, _⟩ => show win0_1.index t (0 : Fin 3) * 64 + 1 * w.val = w.val; omega
  | ⟨1, _⟩ => show win0_1.index t (1 : Fin 3) * 49 + 1 * n.val = n.val; omega
  | ⟨2, _⟩ => show win0_1.index t (2 : Fin 3) * 49 + 1 * mm.val = mm.val; omega

/-- The stacked weight's block at (input column `cc`, output column `f`) is the weight argument at (`f`, `cc`). -/
theorem iblk2_apply (cc : Fin 384) (f : Fin 1152) :
    iblk m c 2 t (ix2 cc f) = m ((c : Thread nD τ).loc main_arg2) (ix2 f cc) := by
  show (V m c main_v8 : FVec Ideal S384x1152 .bf16) (((cfg0.win 2).blk t).view.emb (ix2 cc f)) = _
  rw [wqkv_eq, truncf_apply]
  refine transpose_apply _ _ _ _ (ix2 f cc) ?_
  obtain ⟨e0, e1⟩ := index2 t
  intro b
  match b with
  | ⟨0, _⟩ => show cc.val = win0_2.index t (0 : Fin 2) * 384 + 1 * cc.val; omega
  | ⟨1, _⟩ => show f.val = win0_2.index t (1 : Fin 2) * 1152 + 1 * f.val; omega

/-- The stacked bias's block at (0, `f`) is the bias argument at `f`. -/
theorem iblk3_apply (f : Fin 1152) :
    iblk m c 3 t (ix2 0 f) = m ((c : Thread nD τ).loc main_arg3) (ix1 f) := by
  show (V m c main_v11 : FVec Ideal S1x1152 .f32) (((cfg0.win 3).blk t).view.emb (ix2 0 f)) = _
  rw [bqkv_eq]
  refine shapeCast_apply _ _ _ (ix1 f) ?_
  obtain ⟨e0, e1⟩ := index3 t
  rw [Shape.rowMajor_val_one, Shape.rowMajor_val_two]
  show f.val = (win0_3.index t (0 : Fin 2) * 1 + 1 * 0) * 1152 + (win0_3.index t (1 : Fin 2) * 1152 + 1 * f.val)
  omega

/-- The relative-position bias block is the bias array gathered from the table argument. -/
theorem iblk4_apply (h : Fin 12) (n mm : Fin 49) :
    iblk m c 4 t (ix3 h n mm) = KRpb.Krpb (F := Ideal) (m ((c : Thread nD τ).loc main_arg4)) (ix3 h n mm) := by
  show (V m c main_v6 : FVec Ideal S12x49x49 .f32) (((cfg0.win 4).blk t).view.emb (ix3 h n mm)) = _
  rw [rpb_eq]
  refine congrArg _ ?_
  obtain ⟨e0, e1, e2⟩ := index4 t
  funext a; apply Fin.ext
  match a with
  | ⟨0, _⟩ => show win0_4.index t (0 : Fin 3) * 12 + 1 * h.val = h.val; omega
  | ⟨1, _⟩ => show win0_4.index t (1 : Fin 3) * 49 + 1 * n.val = n.val; omega
  | ⟨2, _⟩ => show win0_4.index t (2 : Fin 3) * 49 + 1 * mm.val = mm.val; omega

/-- The output weight's block at (heads' column `f`, output column `d`) is the weight argument at (`d`, `f`). -/
theorem iblk5_apply (f d : Fin 384) :
    iblk m c 5 t (ix2 f d) = m ((c : Thread nD τ).loc main_arg5) (ix2 d f) := by
  show (V m c main_v10 : FVec Ideal S384x384 .bf16) (((cfg0.win 5).blk t).view.emb (ix2 f d)) = _
  rw [wproj_eq, truncf_apply]
  refine transpose_apply _ _ _ _ (ix2 d f) ?_
  obtain ⟨e0, e1⟩ := index5 t
  intro b
  match b with
  | ⟨0, _⟩ => show f.val = win0_5.index t (0 : Fin 2) * 384 + 1 * f.val; omega
  | ⟨1, _⟩ => show d.val = win0_5.index t (1 : Fin 2) * 384 + 1 * d.val; omega

/-- The output bias's block at (0, `d`) is the bias argument at `d`. -/
theorem iblk6_apply (d : Fin 384) :
    iblk m c 6 t (ix2 0 d) = m ((c : Thread nD τ).loc main_arg6) (ix1 d) := by
  show (V m c main_v12 : FVec Ideal S1x384 .f32) (((cfg0.win 6).blk t).view.emb (ix2 0 d)) = _
  rw [bproj_eq]
  refine shapeCast_apply _ _ _ (ix1 d) ?_
  obtain ⟨e0, e1⟩ := index6 t
  rw [Shape.rowMajor_val_one, Shape.rowMajor_val_two]
  show d.val = (win0_6.index t (0 : Fin 2) * 1 + 1 * 0) * 384 + (win0_6.index t (1 : Fin 2) * 384 + 1 * d.val)
  omega

/-- Window `j` of point `t`'s output block is window `32t + j` of the output array. -/
theorem emb7 (j : Fin 32) (n : Fin 49) (d : Fin 384) :
    ((cfg0.win 7).blk t).view.emb (ix3 j n d)
      = ix3 ⟨32 * t.val + j.val, by have ht : t.val < 128 := t.isLt; omega⟩ n d := by
  obtain ⟨e0, e1, e2⟩ := index7 t
  funext a; apply Fin.ext
  match a with
  | ⟨0, _⟩ => show win0_7.index t (0 : Fin 3) * 32 + 1 * j.val = 32 * t.val + j.val; omega
  | ⟨1, _⟩ => show win0_7.index t (1 : Fin 3) * 49 + 1 * n.val = n.val; omega
  | ⟨2, _⟩ => show win0_7.index t (2 : Fin 3) * 384 + 1 * d.val = d.val; omega

/-- Window `j` of point `t` reads mask `(32t + j) mod 64`: the 32 masks from (t mod 2)·32 on. -/
theorem mask_apply (x1 : Vec Ideal S64x49x49 .f32) (j : Fin 32) (n mm : Fin 49) :
    Gen.maskBlk (F := Ideal) (grid0.coords t) x1 (ix3 j n mm)
      = x1 (ix3 ⟨(32 * t.val + j.val) % 64, Nat.mod_lt _ (by decide)⟩ n mm) := by
  show x1 ((Rect.unit (s := S64x49x49) (k0_off1 (grid0.coords t)) S32x49x49.size (k0_off1_inb (grid0.coords t))).idx (ix3 j n mm)) = _
  refine congrArg _ ?_
  obtain ⟨e0, e1, e2⟩ := maskOff t
  funext a; apply Fin.ext
  match a with
  | ⟨0, _⟩ => show k0_off1 (grid0.coords t) (0 : Fin 3) + 1 * j.val = (32 * t.val + j.val) % 64; omega
  | ⟨1, _⟩ => show k0_off1 (grid0.coords t) (1 : Fin 3) + 1 * n.val = n.val; omega
  | ⟨2, _⟩ => show k0_off1 (grid0.coords t) (2 : Fin 3) + 1 * mm.val = mm.val; omega

end Cert.KernelIdeal.KHost

end
-- ==== Proof.KOut.lean ====
/-
  The kernel's whole result as one function of its seven argument arrays: at window b, token n, column d it is
  the single-window attention of window b's rows, with mask window b mod 64, the stacked projection weight and
  bias, the kernel's bias array of the table, and the output projection weight and bias.
-/
import proofs.«150585_j71975061947032_2_alg».proof.Proof.KRpb
import proofs.«150585_j71975061947032_2_alg».proof.Proof.AttnSpec
import Idealize.ShloMosaic.Lib.ValueIdx

noncomputable section

namespace Cert.KernelIdeal.KOut

open Cert.KernelIdeal Idealize.ShloMosaic Idealize.SL.Sem Idealize.ShloMosaic.ValueIdx

/-- The result at window `b`, token `n`, column `d`. -/
def KoutAt (a0 : (⟨S4096x49x384, .f32⟩ : BufTy).Contents (Elt Ideal)) (a1 : (⟨S64x49x49, .f32⟩ : BufTy).Contents (Elt Ideal)) (a2 : (⟨S1152x384, .f32⟩ : BufTy).Contents (Elt Ideal)) (a3 : (⟨S1152, .f32⟩ : BufTy).Contents (Elt Ideal)) (a4 : (⟨S13x13x12, .f32⟩ : BufTy).Contents (Elt Ideal)) (a5 : (⟨S384x384, .f32⟩ : BufTy).Contents (Elt Ideal)) (a6 : (⟨S384, .f32⟩ : BufTy).Contents (Elt Ideal)) (b : Fin 4096) (n : Fin 49) (d : Fin 384) : EReal :=
  AttnSpec.win (fun n c => a0 (ix3 b n c)) (fun n mm => a1 (ix3 ⟨b.val % 64, Nat.mod_lt _ (by decide)⟩ n mm))
    (fun f c => a2 (ix2 f c)) (fun f => a3 (ix1 f)) (fun h n mm => KRpb.Krpb (F := Ideal) a4 (ix3 h n mm))
    (fun d f => a5 (ix2 d f)) (fun d => a6 (ix1 d)) n d

/-- The whole result array. -/
def Kout (a0 : (⟨S4096x49x384, .f32⟩ : BufTy).Contents (Elt Ideal)) (a1 : (⟨S64x49x49, .f32⟩ : BufTy).Contents (Elt Ideal)) (a2 : (⟨S1152x384, .f32⟩ : BufTy).Contents (Elt Ideal)) (a3 : (⟨S1152, .f32⟩ : BufTy).Contents (Elt Ideal)) (a4 : (⟨S13x13x12, .f32⟩ : BufTy).Contents (Elt Ideal)) (a5 : (⟨S384x384, .f32⟩ : BufTy).Contents (Elt Ideal)) (a6 : (⟨S384, .f32⟩ : BufTy).Contents (Elt Ideal)) : (⟨S4096x49x384, .f32⟩ : BufTy).Contents (Elt Ideal) :=
  fun i => KoutAt a0 a1 a2 a3 a4 a5 a6 (i 0) (i 1) (i 2)

end Cert.KernelIdeal.KOut

end
-- ==== Proof.KFinal.lean ====
/-
  From blocks to the array. Grid point t of the kernel handles windows 32t … 32t+31 and writes their
  [32,49,384] block of the result; what it writes is the body's function of the point's input blocks, and each
  input block is the argument arrays read where the block sits (rows 32t+j of the activations; the whole mask,
  of which the body takes the 32 windows from (32t mod 64), so window 32t+j meets mask window (32t+j) mod 64;
  the weights transposed; the biases recast; the bias array of the table). So every point writes a block of ONE
  function of the argument arrays — `Kout`: at (b, n, d) the single-window attention of window b with mask
  window b mod 64 — and the 128 blocks tile the array: it ends holding that function.
-/
import proofs.«150585_j71975061947032_2_alg».proof.Proof.Gen.KernelIdeal.Value
import proofs.«150585_j71975061947032_2_alg».proof.Proof.KBody
import proofs.«150585_j71975061947032_2_alg».proof.Proof.KBodyValue
import proofs.«150585_j71975061947032_2_alg».proof.Proof.KHost
import proofs.«150585_j71975061947032_2_alg».proof.Proof.KRpb
import proofs.«150585_j71975061947032_2_alg».proof.Proof.KOut
import proofs.«150585_j71975061947032_2_alg».proof.Proof.AttnSpec
import Idealize.ShloMosaic.Lib.ValueIdx
import Idealize.ShloMosaic.Lib.Pipeline.Value

set_option maxRecDepth 16384

noncomputable section

namespace Cert.KernelIdeal.KFinal

open Cert.KernelIdeal Cert.KernelIdeal.Gen Cert.KernelIdeal.KOut Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The output window's index map over the grid: point t's block is block t along the window axis. -/
theorem idx7 : ∀ t : Fin cfg0.N, win0_7.index t (0 : Fin 3) = t.val ∧ win0_7.index t (1 : Fin 3) = 0 ∧ win0_7.index t (2 : Fin 3) = 0 :=
  (by decide +kernel : ∀ t : Fin grid0.N, _)

/-- WHAT POINT t WRITES BACK is block t of `Kout` of the argument arrays. -/
theorem flushed_eq (c : Dev nD) (t : Fin cfg0.N) :
    (dats m 0 c).flushed 7 t = ((cfg0.win 7).blk t).view.read (Elt Ideal) (Kout (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [Value.flushed7_A, out_eq]
  funext y
  obtain ⟨j, n, d, rfl⟩ : ∃ (j : Fin 32) (n : Fin 49) (d : Fin 384), y = ix3 j n d := ⟨y 0, y 1, y 2, eq_ix3 y⟩
  show bodyOut (F := Ideal) (grid0.coords t) (iblk m c 0 t) (iblk m c 1 t) (iblk m c 2 t) (iblk m c 3 t) (iblk m c 4 t) (iblk m c 5 t) (iblk m c 6 t) (ix3 j n d)
      = Kout (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 7).blk t).view.emb (ix3 j n d))
  rw [KHost.emb7 t j n d]
  refine (KBodyValue.bodyOut_apply (grid0.coords t) (iblk m c 0 t) (iblk m c 1 t) (iblk m c 2 t) (iblk m c 3 t) (iblk m c 4 t) (iblk m c 5 t) (iblk m c 6 t) j n d).trans ?_
  have hmask : ∀ n mm, maskBlk (F := Ideal) (grid0.coords t) (iblk m c 1 t) (ix3 j n mm)
      = (m ((c : Thread nD τ).loc main_arg1)) (ix3 ⟨(32 * t.val + j.val) % 64, Nat.mod_lt _ (by decide)⟩ n mm) :=
    fun n mm => (KHost.mask_apply t (iblk m c 1 t) j n mm).trans (KHost.iblk1_apply m c t _ n mm)
  simp only [hmask, KHost.iblk0_apply, KHost.iblk2_apply, KHost.iblk3_apply, KHost.iblk4_apply, KHost.iblk5_apply, KHost.iblk6_apply]
  rfl

/-- An index of the array is in point t's block iff each coordinate is in the block's range on its axis. -/
theorem mem_blk7 (t : Fin cfg0.N) (i : S4096x49x384.Idx) :
    i ∈ ((cfg0.win 7).blk t).view.set ↔ ∀ a : Fin 3, win0_7.index t a * S32x49x384.size a ≤ (i a).val ∧ (i a).val < win0_7.index t a * S32x49x384.size a + S32x49x384.size a := by
  show i ∈ ((View.whole main_v13).slice (win0_7.rect t)).set ↔ _
  rw [View.set_slice_whole, Rect.mem_set_unit]
  exact Iff.rfl

/-- The 128 blocks tile the array: window b is in the block of point b / 32. -/
theorem cover7 (i : S4096x49x384.Idx) : ∃ t : Fin cfg0.N, (cfg0.win 7).flush t = true ∧ i ∈ ((cfg0.win 7).blk t).view.set := by
  have h0 : (i 0).val < 4096 := (i 0).isLt
  have h1 : (i 1).val < 49 := (i 1).isLt
  have h2 : (i 2).val < 384 := (i 2).isLt
  have ht : (i 0).val / 32 < 128 := by omega
  refine ⟨⟨(i 0).val / 32, ht⟩, flush0_7 _, ?_⟩
  rw [mem_blk7]
  obtain ⟨e0, e1, e2⟩ := idx7 ⟨(i 0).val / 32, ht⟩
  have e0' : win0_7.index ⟨(i 0).val / 32, ht⟩ (0 : Fin 3) = (i 0).val / 32 := e0
  intro a
  match a with
  | ⟨0, _⟩ => show win0_7.index ⟨(i 0).val / 32, ht⟩ (0 : Fin 3) * 32 ≤ (i 0).val ∧ (i 0).val < win0_7.index ⟨(i 0).val / 32, ht⟩ (0 : Fin 3) * 32 + 32; omega
  | ⟨1, _⟩ => show win0_7.index ⟨(i 0).val / 32, ht⟩ (1 : Fin 3) * 49 ≤ (i 1).val ∧ (i 1).val < win0_7.index ⟨(i 0).val / 32, ht⟩ (1 : Fin 3) * 49 + 49; omega
  | ⟨2, _⟩ => show win0_7.index ⟨(i 0).val / 32, ht⟩ (2 : Fin 3) * 384 ≤ (i 2).val ∧ (i 2).val < win0_7.index ⟨(i 0).val / 32, ht⟩ (2 : Fin 3) * 384 + 384; omega

/-- THE ARRAY after the run is `Kout` of the argument arrays. -/
theorem final (c : Dev nD) : (dats m 0 c).arrAt 7 cfg0.N = Kout (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 7 (Kout (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (fun t _ => flushed_eq m c t) cover7

/-- The kernel's run: every weakly fair execution terminates with the result at `Kout` of the arguments and
    the arguments unchanged. -/
theorem run : θ_run defs (onTc (τ := τ) (main (F := Ideal))) ⟨m, fun _ => 0, ρ⟩ fun r => ∀ c : Dev nD,
      r.2.mem ((c : Thread nD τ).loc main_v13) = Kout (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.KFinal

end
-- ==== Proof.RefStages.lean ====
/-
  The reference program's operations as named functions of its argument arrays: each result of its
  straight line, in order, is the operation's pure function applied to the earlier results it reads.
  The first stretch (up to the masked scores `Rv33` and the values `Rv15`) is stated over the argument
  arrays; the rest — the softmax along the last axis, the weighted sum of the values and the output
  projection — over the scores `s` and the values `vv` as variables, so that it can be read for any scores.
-/
import proofs.«150585_j71975061947032_2_alg».proof.Proof.Gen.ReferenceIdeal

noncomputable section

namespace Cert.ReferenceIdeal.RefStages

open Cert.ReferenceIdeal Idealize.ShloMosaic Idealize.SL.Sem
open Facts₀ Facts

variable {F : FTy → Type} [FloatOps F]

/-- `%c = stablehlo.constant dense<…>`. -/
def Rc : (⟨S49x49, .i32⟩ : BufTy).Contents (Elt F) :=
  fun i => lit0 (S49x49.rowMajor i)

/-- `%0 = stablehlo.dot_general %arg0, %arg2, contracting_dims = `. -/
def Rv0 (a0 : (⟨S4096x49x384, .f32⟩ : BufTy).Contents (Elt F)) (a2 : (⟨S1152x384, .f32⟩ : BufTy).Contents (Elt F)) : (⟨S4096x49x1152, .f32⟩ : BufTy).Contents (Elt F) :=
  Host.dotGeneral dot_S4096x49x384_S1152x384_S4096x49x1152_2_1_01_0_n_n none a0 a2

/-- `%1 = stablehlo.broadcast_in_dim %arg3, dims = [2]`. -/
def Rv1 (a3 : (⟨S1152, .f32⟩ : BufTy).Contents (Elt F)) : (⟨S1x1x1152, .f32⟩ : BufTy).Contents (Elt F) :=
  broadcastInDim S1x1x1152 ![2] bcast_S1152_S1x1x1152_2 a3

/-- `%2 = stablehlo.broadcast_in_dim %1, dims = [0, 1, 2]`. -/
def Rv2 (a3 : (⟨S1152, .f32⟩ : BufTy).Contents (Elt F)) : (⟨S4096x49x1152, .f32⟩ : BufTy).Contents (Elt F) :=
  broadcastInDim S4096x49x1152 ![0, 1, 2] bcast_S1x1x1152_S4096x49x1152_0_1_2 (Rv1 a3)

/-- `%3 = stablehlo.add %0, %2`. -/
def Rv3 (a0 : (⟨S4096x49x384, .f32⟩ : BufTy).Contents (Elt F)) (a2 : (⟨S1152x384, .f32⟩ : BufTy).Contents (Elt F)) (a3 : (⟨S1152, .f32⟩ : BufTy).Contents (Elt F)) : (⟨S4096x49x1152, .f32⟩ : BufTy).Contents (Elt F) :=
  addf (Rv0 a0 a2) (Rv2 a3)

/-- `%4 = stablehlo.reshape %3`. -/
def Rv4 (a0 : (⟨S4096x49x384, .f32⟩ : BufTy).Contents (Elt F)) (a2 : (⟨S1152x384, .f32⟩ : BufTy).Contents (Elt F)) (a3 : (⟨S1152, .f32⟩ : BufTy).Contents (Elt F)) : (⟨S4096x49x3x12x32, .f32⟩ : BufTy).Contents (Elt F) :=
  fun i => shapeCast S4096x49x3x12x32 (Rv3 a0 a2 a3) shapeCasts_S4096x49x1152_S4096x49x3x12x32 i

/-- `%5 = stablehlo.slice %4 [0:4096, 0:49, 0:1, 0:12, 0:32]`. -/
def Rv5 (a0 : (⟨S4096x49x384, .f32⟩ : BufTy).Contents (Elt F)) (a2 : (⟨S1152x384, .f32⟩ : BufTy).Contents (Elt F)) (a3 : (⟨S1152, .f32⟩ : BufTy).Contents (Elt F)) : (⟨S4096x49x1x12x32, .f32⟩ : BufTy).Contents (Elt F) :=
  extractStridedSlice S4096x49x1x12x32 ![0, 0, 0, 0, 0] (Rv4 a0 a2 a3) slices_S4096x49x3x12x32_S4096x49x1x12x32_0_0_0_0_0

/-- `%6 = stablehlo.reshape %5`. -/
def Rv6 (a0 : (⟨S4096x49x384, .f32⟩ : BufTy).Contents (Elt F)) (a2 : (⟨S1152x384, .f32⟩ : BufTy).Contents (Elt F)) (a3 : (⟨S1152, .f32⟩ : BufTy).Contents (Elt F)) : (⟨S4096x49x12x32, .f32⟩ : BufTy).Contents (Elt F) :=
  fun i => shapeCast S4096x49x12x32 (Rv5 a0 a2 a3) shapeCasts_S4096x49x1x12x32_S4096x49x12x32 i

/-- `%7 = stablehlo.transpose %6, dims = [0, 2, 1, 3]`. -/
def Rv7 (a0 : (⟨S4096x49x384, .f32⟩ : BufTy).Contents (Elt F)) (a2 : (⟨S1152x384, .f32⟩ : BufTy).Contents (Elt F)) (a3 : (⟨S1152, .f32⟩ : BufTy).Contents (Elt F)) : (⟨S4096x12x49x32, .f32⟩ : BufTy).Contents (Elt F) :=
  transpose S4096x12x49x32 [0, 2, 1, 3] (Rv6 a0 a2 a3) transposes_S4096x49x12x32_S4096x12x49x32_0_2_1_3

/-- `%cst = stablehlo.constant dense<0.176776692>`. -/
def Rcst : (⟨S_, .f32⟩ : BufTy).Contents (Elt F) :=
  constant S_ .f32 0x3E3504F3#32

/-- `%8 = stablehlo.broadcast_in_dim %cst, dims = []`. -/
def Rv8 : (⟨S4096x12x49x32, .f32⟩ : BufTy).Contents (Elt F) :=
  broadcastInDim S4096x12x49x32 ![] bcast_S_S4096x12x49x32 (Rcst (F := F))

/-- `%9 = stablehlo.multiply %7, %8`. -/
def Rv9 (a0 : (⟨S4096x49x384, .f32⟩ : BufTy).Contents (Elt F)) (a2 : (⟨S1152x384, .f32⟩ : BufTy).Contents (Elt F)) (a3 : (⟨S1152, .f32⟩ : BufTy).Contents (Elt F)) : (⟨S4096x12x49x32, .f32⟩ : BufTy).Contents (Elt F) :=
  mulf (Rv7 a0 a2 a3) (Rv8 (F := F))

/-- `%10 = stablehlo.slice %4 [0:4096, 0:49, 1:2, 0:12, 0:32]`. -/
def Rv10 (a0 : (⟨S4096x49x384, .f32⟩ : BufTy).Contents (Elt F)) (a2 : (⟨S1152x384, .f32⟩ : BufTy).Contents (Elt F)) (a3 : (⟨S1152, .f32⟩ : BufTy).Contents (Elt F)) : (⟨S4096x49x1x12x32, .f32⟩ : BufTy).Contents (Elt F) :=
  extractStridedSlice S4096x49x1x12x32 ![0, 0, 1, 0, 0] (Rv4 a0 a2 a3) slices_S4096x49x3x12x32_S4096x49x1x12x32_0_0_1_0_0

/-- `%11 = stablehlo.reshape %10`. -/
def Rv11 (a0 : (⟨S4096x49x384, .f32⟩ : BufTy).Contents (Elt F)) (a2 : (⟨S1152x384, .f32⟩ : BufTy).Contents (Elt F)) (a3 : (⟨S1152, .f32⟩ : BufTy).Contents (Elt F)) : (⟨S4096x49x12x32, .f32⟩ : BufTy).Contents (Elt F) :=
  fun i => shapeCast S4096x49x12x32 (Rv10 a0 a2 a3) shapeCasts_S4096x49x1x12x32_S4096x49x12x32 i

/-- `%12 = stablehlo.transpose %11, dims = [0, 2, 1, 3]`. -/
def Rv12 (a0 : (⟨S4096x49x384, .f32⟩ : BufTy).Contents (Elt F)) (a2 : (⟨S1152x384, .f32⟩ : BufTy).Contents (Elt F)) (a3 : (⟨S1152, .f32⟩ : BufTy).Contents (Elt F)) : (⟨S4096x12x49x32, .f32⟩ : BufTy).Contents (Elt F) :=
  transpose S4096x12x49x32 [0, 2, 1, 3] (Rv11 a0 a2 a3) transposes_S4096x49x12x32_S4096x12x49x32_0_2_1_3

/-- `%13 = stablehlo.slice %4 [0:4096, 0:49, 2:3, 0:12, 0:32]`. -/
def Rv13 (a0 : (⟨S4096x49x384, .f32⟩ : BufTy).Contents (Elt F)) (a2 : (⟨S1152x384, .f32⟩ : BufTy).Contents (Elt F)) (a3 : (⟨S1152, .f32⟩ : BufTy).Contents (Elt F)) : (⟨S4096x49x1x12x32, .f32⟩ : BufTy).Contents (Elt F) :=
  extractStridedSlice S4096x49x1x12x32 ![0, 0, 2, 0, 0] (Rv4 a0 a2 a3) slices_S4096x49x3x12x32_S4096x49x1x12x32_0_0_2_0_0

/-- `%14 = stablehlo.reshape %13`. -/
def Rv14 (a0 : (⟨S4096x49x384, .f32⟩ : BufTy).Contents (Elt F)) (a2 : (⟨S1152x384, .f32⟩ : BufTy).Contents (Elt F)) (a3 : (⟨S1152, .f32⟩ : BufTy).Contents (Elt F)) : (⟨S4096x49x12x32, .f32⟩ : BufTy).Contents (Elt F) :=
  fun i => shapeCast S4096x49x12x32 (Rv13 a0 a2 a3) shapeCasts_S4096x49x1x12x32_S4096x49x12x32 i

/-- `%15 = stablehlo.transpose %14, dims = [0, 2, 1, 3]`. -/
def Rv15 (a0 : (⟨S4096x49x384, .f32⟩ : BufTy).Contents (Elt F)) (a2 : (⟨S1152x384, .f32⟩ : BufTy).Contents (Elt F)) (a3 : (⟨S1152, .f32⟩ : BufTy).Contents (Elt F)) : (⟨S4096x12x49x32, .f32⟩ : BufTy).Contents (Elt F) :=
  transpose S4096x12x49x32 [0, 2, 1, 3] (Rv14 a0 a2 a3) transposes_S4096x49x12x32_S4096x12x49x32_0_2_1_3

/-- `%16 = stablehlo.dot_general %9, %12, batching_dims = [0, 1] `. -/
def Rv16 (a0 : (⟨S4096x49x384, .f32⟩ : BufTy).Contents (Elt F)) (a2 : (⟨S1152x384, .f32⟩ : BufTy).Contents (Elt F)) (a3 : (⟨S1152, .f32⟩ : BufTy).Contents (Elt F)) : (⟨S4096x12x49x49, .f32⟩ : BufTy).Contents (Elt F) :=
  Host.dotGeneral dot_S4096x12x49x32_S4096x12x49x32_S4096x12x49x49_3_3_2_2_01_01 none (Rv9 a0 a2 a3) (Rv12 a0 a2 a3)

/-- `%17 = stablehlo.reshape %arg4`. -/
def Rv17 (a4 : (⟨S13x13x12, .f32⟩ : BufTy).Contents (Elt F)) : (⟨S169x12, .f32⟩ : BufTy).Contents (Elt F) :=
  fun i => shapeCast S169x12 a4 shapeCasts_S13x13x12_S169x12 i

/-- `%c_0 = stablehlo.constant dense<0>`. -/
def Rc_0 : (⟨S_, .i32⟩ : BufTy).Contents (Elt F) :=
  constantI S_ 32 0#32

/-- `%18 = stablehlo.broadcast_in_dim %c_0, dims = []`. -/
def Rv18 : (⟨S49x49, .i32⟩ : BufTy).Contents (Elt F) :=
  broadcastInDim S49x49 ![] bcast_S_S49x49 (Rc_0 (F := F))

/-- `%19 = stablehlo.compare LT, %c, %18, SIGNED`. -/
def Rv19 : (⟨S49x49, .i1⟩ : BufTy).Contents (Elt F) :=
  cmpi .slt (Rc (F := F)) (Rv18 (F := F))

/-- `%c_1 = stablehlo.constant dense<169>`. -/
def Rc_1 : (⟨S_, .i32⟩ : BufTy).Contents (Elt F) :=
  constantI S_ 32 169#32

/-- `%20 = stablehlo.broadcast_in_dim %c_1, dims = []`. -/
def Rv20 : (⟨S49x49, .i32⟩ : BufTy).Contents (Elt F) :=
  broadcastInDim S49x49 ![] bcast_S_S49x49 (Rc_1 (F := F))

/-- `%21 = stablehlo.add %c, %20`. -/
def Rv21 : (⟨S49x49, .i32⟩ : BufTy).Contents (Elt F) :=
  addi (Rc (F := F)) (Rv20 (F := F))

/-- `%22 = stablehlo.select %19, %21, %c`. -/
def Rv22 : (⟨S49x49, .i32⟩ : BufTy).Contents (Elt F) :=
  select (Rv19 (F := F)) (Rv21 (F := F)) (Rc (F := F))

/-- `%23 = stablehlo.broadcast_in_dim %22, dims = [0, 1]`. -/
def Rv23 : (⟨S49x49x1, .i32⟩ : BufTy).Contents (Elt F) :=
  broadcastInDim S49x49x1 ![0, 1] bcast_S49x49_S49x49x1_0_1 (Rv22 (F := F))

/-- `%24 = "stablehlo.gather"(%17, %23) <{dimension_numbers = #st`. -/
def Rv24 (a4 : (⟨S13x13x12, .f32⟩ : BufTy).Contents (Elt F)) : (⟨S49x49x12, .f32⟩ : BufTy).Contents (Elt F) :=
  Host.gather gather_S169x12_S49x49x1_S49x49x12_2_0_n_n_0_2_112 (Rv17 a4) (Rv23 (F := F))

/-- `%25 = stablehlo.transpose %24, dims = [2, 0, 1]`. -/
def Rv25 (a4 : (⟨S13x13x12, .f32⟩ : BufTy).Contents (Elt F)) : (⟨S12x49x49, .f32⟩ : BufTy).Contents (Elt F) :=
  transpose S12x49x49 [2, 0, 1] (Rv24 a4) transposes_S49x49x12_S12x49x49_2_0_1

/-- `%26 = stablehlo.broadcast_in_dim %25, dims = [1, 2, 3]`. -/
def Rv26 (a4 : (⟨S13x13x12, .f32⟩ : BufTy).Contents (Elt F)) : (⟨S1x12x49x49, .f32⟩ : BufTy).Contents (Elt F) :=
  broadcastInDim S1x12x49x49 ![1, 2, 3] bcast_S12x49x49_S1x12x49x49_1_2_3 (Rv25 a4)

/-- `%27 = stablehlo.broadcast_in_dim %26, dims = [0, 1, 2, 3]`. -/
def Rv27 (a4 : (⟨S13x13x12, .f32⟩ : BufTy).Contents (Elt F)) : (⟨S4096x12x49x49, .f32⟩ : BufTy).Contents (Elt F) :=
  broadcastInDim S4096x12x49x49 ![0, 1, 2, 3] bcast_S1x12x49x49_S4096x12x49x49_0_1_2_3 (Rv26 a4)

/-- `%28 = stablehlo.add %16, %27`. -/
def Rv28 (a0 : (⟨S4096x49x384, .f32⟩ : BufTy).Contents (Elt F)) (a2 : (⟨S1152x384, .f32⟩ : BufTy).Contents (Elt F)) (a3 : (⟨S1152, .f32⟩ : BufTy).Contents (Elt F)) (a4 : (⟨S13x13x12, .f32⟩ : BufTy).Contents (Elt F)) : (⟨S4096x12x49x49, .f32⟩ : BufTy).Contents (Elt F) :=
  addf (Rv16 a0 a2 a3) (Rv27 a4)

/-- `%29 = stablehlo.reshape %28`. -/
def Rv29 (a0 : (⟨S4096x49x384, .f32⟩ : BufTy).Contents (Elt F)) (a2 : (⟨S1152x384, .f32⟩ : BufTy).Contents (Elt F)) (a3 : (⟨S1152, .f32⟩ : BufTy).Contents (Elt F)) (a4 : (⟨S13x13x12, .f32⟩ : BufTy).Contents (Elt F)) : (⟨S64x64x12x49x49, .f32⟩ : BufTy).Contents (Elt F) :=
  fun i => shapeCast S64x64x12x49x49 (Rv28 a0 a2 a3 a4) shapeCasts_S4096x12x49x49_S64x64x12x49x49 i

/-- `%30 = stablehlo.broadcast_in_dim %arg1, dims = [1, 3, 4]`. -/
def Rv30 (a1 : (⟨S64x49x49, .f32⟩ : BufTy).Contents (Elt F)) : (⟨S1x64x1x49x49, .f32⟩ : BufTy).Contents (Elt F) :=
  broadcastInDim S1x64x1x49x49 ![1, 3, 4] bcast_S64x49x49_S1x64x1x49x49_1_3_4 a1

/-- `%31 = stablehlo.broadcast_in_dim %30, dims = [0, 1, 2, 3, 4]`. -/
def Rv31 (a1 : (⟨S64x49x49, .f32⟩ : BufTy).Contents (Elt F)) : (⟨S64x64x12x49x49, .f32⟩ : BufTy).Contents (Elt F) :=
  broadcastInDim S64x64x12x49x49 ![0, 1, 2, 3, 4] bcast_S1x64x1x49x49_S64x64x12x49x49_0_1_2_3_4 (Rv30 a1)

/-- `%32 = stablehlo.add %29, %31`. -/
def Rv32 (a0 : (⟨S4096x49x384, .f32⟩ : BufTy).Contents (Elt F)) (a1 : (⟨S64x49x49, .f32⟩ : BufTy).Contents (Elt F)) (a2 : (⟨S1152x384, .f32⟩ : BufTy).Contents (Elt F)) (a3 : (⟨S1152, .f32⟩ : BufTy).Contents (Elt F)) (a4 : (⟨S13x13x12, .f32⟩ : BufTy).Contents (Elt F)) : (⟨S64x64x12x49x49, .f32⟩ : BufTy).Contents (Elt F) :=
  addf (Rv29 a0 a2 a3 a4) (Rv31 a1)

/-- `%33 = stablehlo.reshape %32`. -/
def Rv33 (a0 : (⟨S4096x49x384, .f32⟩ : BufTy).Contents (Elt F)) (a1 : (⟨S64x49x49, .f32⟩ : BufTy).Contents (Elt F)) (a2 : (⟨S1152x384, .f32⟩ : BufTy).Contents (Elt F)) (a3 : (⟨S1152, .f32⟩ : BufTy).Contents (Elt F)) (a4 : (⟨S13x13x12, .f32⟩ : BufTy).Contents (Elt F)) : (⟨S4096x12x49x49, .f32⟩ : BufTy).Contents (Elt F) :=
  fun i => shapeCast S4096x12x49x49 (Rv32 a0 a1 a2 a3 a4) shapeCasts_S64x64x12x49x49_S4096x12x49x49 i

/-- `%cst_2 = stablehlo.constant dense<0xFF800000>`. -/
def Rcst_2 : (⟨S_, .f32⟩ : BufTy).Contents (Elt F) :=
  constant S_ .f32 0xFF800000#32

/-- `%34 = stablehlo.reduce(%33 init: %cst_2) applies stablehlo.maximum across dimensions = [3]`. -/
def Rv34 (s : (⟨S4096x12x49x49, .f32⟩ : BufTy).Contents (Elt F)) : (⟨S4096x12x49, .f32⟩ : BufTy).Contents (Elt F) :=
  Host.reduce FloatOps.maximumf s (Rcst_2 (F := F)) reducesTo_S4096x12x49x49_S4096x12x49_d3 h_S_

/-- `%cst_3 = stablehlo.constant dense<0xFF800000>`. -/
def Rcst_3 : (⟨S_, .f32⟩ : BufTy).Contents (Elt F) :=
  constant S_ .f32 0xFF800000#32

/-- `%35 = stablehlo.broadcast_in_dim %cst_3, dims = []`. -/
def Rv35 : (⟨S4096x12x49, .f32⟩ : BufTy).Contents (Elt F) :=
  broadcastInDim S4096x12x49 ![] bcast_S_S4096x12x49 (Rcst_3 (F := F))

/-- `%36 = stablehlo.maximum %35, %34`. -/
def Rv36 (s : (⟨S4096x12x49x49, .f32⟩ : BufTy).Contents (Elt F)) : (⟨S4096x12x49, .f32⟩ : BufTy).Contents (Elt F) :=
  maximumf (Rv35 (F := F)) (Rv34 s)

/-- `%37 = stablehlo.broadcast_in_dim %36, dims = [0, 1, 2]`. -/
def Rv37 (s : (⟨S4096x12x49x49, .f32⟩ : BufTy).Contents (Elt F)) : (⟨S4096x12x49x1, .f32⟩ : BufTy).Contents (Elt F) :=
  broadcastInDim S4096x12x49x1 ![0, 1, 2] bcast_S4096x12x49_S4096x12x49x1_0_1_2 (Rv36 s)

/-- `%38 = stablehlo.broadcast_in_dim %37, dims = [0, 1, 2, 3]`. -/
def Rv38 (s : (⟨S4096x12x49x49, .f32⟩ : BufTy).Contents (Elt F)) : (⟨S4096x12x49x49, .f32⟩ : BufTy).Contents (Elt F) :=
  broadcastInDim S4096x12x49x49 ![0, 1, 2, 3] bcast_S4096x12x49x1_S4096x12x49x49_0_1_2_3 (Rv37 s)

/-- `%39 = stablehlo.subtract %33, %38`. -/
def Rv39 (s : (⟨S4096x12x49x49, .f32⟩ : BufTy).Contents (Elt F)) : (⟨S4096x12x49x49, .f32⟩ : BufTy).Contents (Elt F) :=
  subf s (Rv38 s)

/-- `%40 = stablehlo.exponential %39`. -/
def Rv40 (s : (⟨S4096x12x49x49, .f32⟩ : BufTy).Contents (Elt F)) : (⟨S4096x12x49x49, .f32⟩ : BufTy).Contents (Elt F) :=
  Host.exp (Rv39 s)

/-- `%cst_4 = stablehlo.constant dense<0.000000e+00>`. -/
def Rcst_4 : (⟨S_, .f32⟩ : BufTy).Contents (Elt F) :=
  constant S_ .f32 0x00000000#32

/-- `%41 = stablehlo.reduce(%40 init: %cst_4) applies stablehlo.add across dimensions = [3]`. -/
def Rv41 (s : (⟨S4096x12x49x49, .f32⟩ : BufTy).Contents (Elt F)) : (⟨S4096x12x49, .f32⟩ : BufTy).Contents (Elt F) :=
  Host.reduceAdd (Rv40 s) (Rcst_4 (F := F)) reducesTo_S4096x12x49x49_S4096x12x49_d3 h_S_

/-- `%42 = stablehlo.broadcast_in_dim %41, dims = [0, 1, 2]`. -/
def Rv42 (s : (⟨S4096x12x49x49, .f32⟩ : BufTy).Contents (Elt F)) : (⟨S4096x12x49x1, .f32⟩ : BufTy).Contents (Elt F) :=
  broadcastInDim S4096x12x49x1 ![0, 1, 2] bcast_S4096x12x49_S4096x12x49x1_0_1_2 (Rv41 s)

/-- `%43 = stablehlo.broadcast_in_dim %42, dims = [0, 1, 2, 3]`. -/
def Rv43 (s : (⟨S4096x12x49x49, .f32⟩ : BufTy).Contents (Elt F)) : (⟨S4096x12x49x49, .f32⟩ : BufTy).Contents (Elt F) :=
  broadcastInDim S4096x12x49x49 ![0, 1, 2, 3] bcast_S4096x12x49x1_S4096x12x49x49_0_1_2_3 (Rv42 s)

/-- `%44 = stablehlo.divide %40, %43`. -/
def Rv44 (s : (⟨S4096x12x49x49, .f32⟩ : BufTy).Contents (Elt F)) : (⟨S4096x12x49x49, .f32⟩ : BufTy).Contents (Elt F) :=
  Host.divf (Rv40 s) (Rv43 s)

/-- `%45 = stablehlo.dot_general %15, %44, batching_dims = [0, 1]`. -/
def Rv45 (s : (⟨S4096x12x49x49, .f32⟩ : BufTy).Contents (Elt F)) (vv : (⟨S4096x12x49x32, .f32⟩ : BufTy).Contents (Elt F)) : (⟨S4096x12x32x49, .f32⟩ : BufTy).Contents (Elt F) :=
  Host.dotGeneral dot_S4096x12x49x32_S4096x12x49x49_S4096x12x32x49_2_3_3_2_01_01 none vv (Rv44 s)

/-- `%46 = stablehlo.transpose %45, dims = [0, 3, 1, 2]`. -/
def Rv46 (s : (⟨S4096x12x49x49, .f32⟩ : BufTy).Contents (Elt F)) (vv : (⟨S4096x12x49x32, .f32⟩ : BufTy).Contents (Elt F)) : (⟨S4096x49x12x32, .f32⟩ : BufTy).Contents (Elt F) :=
  transpose S4096x49x12x32 [0, 3, 1, 2] (Rv45 s vv) transposes_S4096x12x32x49_S4096x49x12x32_0_3_1_2

/-- `%47 = stablehlo.reshape %46`. -/
def Rv47 (s : (⟨S4096x12x49x49, .f32⟩ : BufTy).Contents (Elt F)) (vv : (⟨S4096x12x49x32, .f32⟩ : BufTy).Contents (Elt F)) : (⟨S4096x49x384, .f32⟩ : BufTy).Contents (Elt F) :=
  fun i => shapeCast S4096x49x384 (Rv46 s vv) shapeCasts_S4096x49x12x32_S4096x49x384 i

/-- `%48 = stablehlo.dot_general %47, %arg5, contracting_dims = [2] x [1], precision = [DEFAULT, DEFAULT]`. -/
def Rv48 (s : (⟨S4096x12x49x49, .f32⟩ : BufTy).Contents (Elt F)) (vv : (⟨S4096x12x49x32, .f32⟩ : BufTy).Contents (Elt F)) (a5 : (⟨S384x384, .f32⟩ : BufTy).Contents (Elt F)) : (⟨S4096x49x384, .f32⟩ : BufTy).Contents (Elt F) :=
  Host.dotGeneral dot_S4096x49x384_S384x384_S4096x49x384_2_1_01_0_n_n none (Rv47 s vv) a5

/-- `%49 = stablehlo.broadcast_in_dim %arg6, dims = [2]`. -/
def Rv49 (a6 : (⟨S384, .f32⟩ : BufTy).Contents (Elt F)) : (⟨S1x1x384, .f32⟩ : BufTy).Contents (Elt F) :=
  broadcastInDim S1x1x384 ![2] bcast_S384_S1x1x384_2 a6

/-- `%50 = stablehlo.broadcast_in_dim %49, dims = [0, 1, 2]`. -/
def Rv50 (a6 : (⟨S384, .f32⟩ : BufTy).Contents (Elt F)) : (⟨S4096x49x384, .f32⟩ : BufTy).Contents (Elt F) :=
  broadcastInDim S4096x49x384 ![0, 1, 2] bcast_S1x1x384_S4096x49x384_0_1_2 (Rv49 a6)

/-- `%51 = stablehlo.add %48, %50`. -/
def Rv51 (s : (⟨S4096x12x49x49, .f32⟩ : BufTy).Contents (Elt F)) (vv : (⟨S4096x12x49x32, .f32⟩ : BufTy).Contents (Elt F)) (a5 : (⟨S384x384, .f32⟩ : BufTy).Contents (Elt F)) (a6 : (⟨S384, .f32⟩ : BufTy).Contents (Elt F)) : (⟨S4096x49x384, .f32⟩ : BufTy).Contents (Elt F) :=
  addf (Rv48 s vv a5) (Rv50 a6)

/-- The reference's result as one function of its seven argument arrays. -/
def Rout (a0 : (⟨S4096x49x384, .f32⟩ : BufTy).Contents (Elt F)) (a1 : (⟨S64x49x49, .f32⟩ : BufTy).Contents (Elt F)) (a2 : (⟨S1152x384, .f32⟩ : BufTy).Contents (Elt F)) (a3 : (⟨S1152, .f32⟩ : BufTy).Contents (Elt F)) (a4 : (⟨S13x13x12, .f32⟩ : BufTy).Contents (Elt F)) (a5 : (⟨S384x384, .f32⟩ : BufTy).Contents (Elt F)) (a6 : (⟨S384, .f32⟩ : BufTy).Contents (Elt F)) : (⟨S4096x49x384, .f32⟩ : BufTy).Contents (Elt F) :=
  Rv51 (Rv33 a0 a1 a2 a3 a4) (Rv15 a0 a2 a3) a5 a6

end Cert.ReferenceIdeal.RefStages

end
-- ==== Proof.RefRun.lean ====
/-
  The reference program's run read back: its @main is the list `ops` of its 59 host operations, so every
  weakly fair execution terminates with the result buffer at the operations' composed function of the
  argument arrays' launch contents (`RefStages.Rout`) and the arguments unchanged.
-/
import proofs.«150585_j71975061947032_2_alg».proof.Proof.Gen.ReferenceIdeal
import proofs.«150585_j71975061947032_2_alg».proof.Proof.RefStages
import Idealize.ShloMosaic.Lib.StableHlo.Run

set_option maxRecDepth 16384

noncomputable section

namespace Cert.ReferenceIdeal.RefRun

open Cert.ReferenceIdeal Cert.ReferenceIdeal.Gen Cert.ReferenceIdeal.RefStages Idealize.ShloMosaic Idealize.ShloMosaic.TcCoe Idealize.SL.Sem Idealize.ShloMosaic.StableHlo

variable {F : FTy → Type} [FloatOps F]

/-- @main's 59 operations, in order. -/
abbrev ops : List (HloOp τ sig (Elt F)) :=
  [
    nullary main_c (fun i => lit0 (S49x49.rowMajor i)),
    binary main_arg0 main_arg2 main_v0 ((fun l r => Host.dotGeneral dot_S4096x49x384_S1152x384_S4096x49x1152_2_1_01_0_n_n none l r) : (⟨S4096x49x384, .f32⟩ : BufTy).Contents (Elt F) → (⟨S1152x384, .f32⟩ : BufTy).Contents (Elt F) → (⟨S4096x49x1152, .f32⟩ : BufTy).Contents (Elt F)),
    unary main_arg3 main_v1 (broadcastInDim S1x1x1152 ![2] bcast_S1152_S1x1x1152_2 : (⟨S1152, .f32⟩ : BufTy).Contents (Elt F) → (⟨S1x1x1152, .f32⟩ : BufTy).Contents (Elt F)),
    unary main_v1 main_v2 (broadcastInDim S4096x49x1152 ![0, 1, 2] bcast_S1x1x1152_S4096x49x1152_0_1_2 : (⟨S1x1x1152, .f32⟩ : BufTy).Contents (Elt F) → (⟨S4096x49x1152, .f32⟩ : BufTy).Contents (Elt F)),
    binary main_v0 main_v2 main_v3 (addf : (⟨S4096x49x1152, .f32⟩ : BufTy).Contents (Elt F) → (⟨S4096x49x1152, .f32⟩ : BufTy).Contents (Elt F) → (⟨S4096x49x1152, .f32⟩ : BufTy).Contents (Elt F)),
    reshape main_v3 main_v4 rfl shapeCasts_S4096x49x1152_S4096x49x3x12x32,
    unary main_v4 main_v5 ((extractStridedSlice S4096x49x1x12x32 ![0, 0, 0, 0, 0] · slices_S4096x49x3x12x32_S4096x49x1x12x32_0_0_0_0_0) : (⟨S4096x49x3x12x32, .f32⟩ : BufTy).Contents (Elt F) → (⟨S4096x49x1x12x32, .f32⟩ : BufTy).Contents (Elt F)),
    reshape main_v5 main_v6 rfl shapeCasts_S4096x49x1x12x32_S4096x49x12x32,
    unary main_v6 main_v7 ((transpose S4096x12x49x32 [0, 2, 1, 3] · transposes_S4096x49x12x32_S4096x12x49x32_0_2_1_3) : (⟨S4096x49x12x32, .f32⟩ : BufTy).Contents (Elt F) → (⟨S4096x12x49x32, .f32⟩ : BufTy).Contents (Elt F)),
    nullary main_cst (constant S_ .f32 0x3E3504F3#32),
    unary main_cst main_v8 (broadcastInDim S4096x12x49x32 ![] bcast_S_S4096x12x49x32 : (⟨S_, .f32⟩ : BufTy).Contents (Elt F) → (⟨S4096x12x49x32, .f32⟩ : BufTy).Contents (Elt F)),
    binary main_v7 main_v8 main_v9 (mulf : (⟨S4096x12x49x32, .f32⟩ : BufTy).Contents (Elt F) → (⟨S4096x12x49x32, .f32⟩ : BufTy).Contents (Elt F) → (⟨S4096x12x49x32, .f32⟩ : BufTy).Contents (Elt F)),
    unary main_v4 main_v10 ((extractStridedSlice S4096x49x1x12x32 ![0, 0, 1, 0, 0] · slices_S4096x49x3x12x32_S4096x49x1x12x32_0_0_1_0_0) : (⟨S4096x49x3x12x32, .f32⟩ : BufTy).Contents (Elt F) → (⟨S4096x49x1x12x32, .f32⟩ : BufTy).Contents (Elt F)),
    reshape main_v10 main_v11 rfl shapeCasts_S4096x49x1x12x32_S4096x49x12x32,
    unary main_v11 main_v12 ((transpose S4096x12x49x32 [0, 2, 1, 3] · transposes_S4096x49x12x32_S4096x12x49x32_0_2_1_3) : (⟨S4096x49x12x32, .f32⟩ : BufTy).Contents (Elt F) → (⟨S4096x12x49x32, .f32⟩ : BufTy).Contents (Elt F)),
    unary main_v4 main_v13 ((extractStridedSlice S4096x49x1x12x32 ![0, 0, 2, 0, 0] · slices_S4096x49x3x12x32_S4096x49x1x12x32_0_0_2_0_0) : (⟨S4096x49x3x12x32, .f32⟩ : BufTy).Contents (Elt F) → (⟨S4096x49x1x12x32, .f32⟩ : BufTy).Contents (Elt F)),
    reshape main_v13 main_v14 rfl shapeCasts_S4096x49x1x12x32_S4096x49x12x32,
    unary main_v14 main_v15 ((transpose S4096x12x49x32 [0, 2, 1, 3] · transposes_S4096x49x12x32_S4096x12x49x32_0_2_1_3) : (⟨S4096x49x12x32, .f32⟩ : BufTy).Contents (Elt F) → (⟨S4096x12x49x32, .f32⟩ : BufTy).Contents (Elt F)),
    binary main_v9 main_v12 main_v16 ((fun l r => Host.dotGeneral dot_S4096x12x49x32_S4096x12x49x32_S4096x12x49x49_3_3_2_2_01_01 none l r) : (⟨S4096x12x49x32, .f32⟩ : BufTy).Contents (Elt F) → (⟨S4096x12x49x32, .f32⟩ : BufTy).Contents (Elt F) → (⟨S4096x12x49x49, .f32⟩ : BufTy).Contents (Elt F)),
    reshape main_arg4 main_v17 rfl shapeCasts_S13x13x12_S169x12,
    nullary main_c_0 (constantI S_ 32 0#32),
    unary main_c_0 main_v18 (broadcastInDim S49x49 ![] bcast_S_S49x49 : (⟨S_, .i32⟩ : BufTy).Contents (Elt F) → (⟨S49x49, .i32⟩ : BufTy).Contents (Elt F)),
    binary main_c main_v18 main_v19 (cmpi .slt : (⟨S49x49, .i32⟩ : BufTy).Contents (Elt F) → (⟨S49x49, .i32⟩ : BufTy).Contents (Elt F) → (⟨S49x49, .i1⟩ : BufTy).Contents (Elt F)),
    nullary main_c_1 (constantI S_ 32 169#32),
    unary main_c_1 main_v20 (broadcastInDim S49x49 ![] bcast_S_S49x49 : (⟨S_, .i32⟩ : BufTy).Contents (Elt F) → (⟨S49x49, .i32⟩ : BufTy).Contents (Elt F)),
    binary main_c main_v20 main_v21 (addi : (⟨S49x49, .i32⟩ : BufTy).Contents (Elt F) → (⟨S49x49, .i32⟩ : BufTy).Contents (Elt F) → (⟨S49x49, .i32⟩ : BufTy).Contents (Elt F)),
    ternary main_v19 main_v21 main_c main_v22 (select : (⟨S49x49, .i1⟩ : BufTy).Contents (Elt F) → (⟨S49x49, .i32⟩ : BufTy).Contents (Elt F) → (⟨S49x49, .i32⟩ : BufTy).Contents (Elt F) → (⟨S49x49, .i32⟩ : BufTy).Contents (Elt F)),
    unary main_v22 main_v23 (broadcastInDim S49x49x1 ![0, 1] bcast_S49x49_S49x49x1_0_1 : (⟨S49x49, .i32⟩ : BufTy).Contents (Elt F) → (⟨S49x49x1, .i32⟩ : BufTy).Contents (Elt F)),
    binary main_v17 main_v23 main_v24 ((fun x i => Host.gather gather_S169x12_S49x49x1_S49x49x12_2_0_n_n_0_2_112 x i) : (⟨S169x12, .f32⟩ : BufTy).Contents (Elt F) → (⟨S49x49x1, .i32⟩ : BufTy).Contents (Elt F) → (⟨S49x49x12, .f32⟩ : BufTy).Contents (Elt F)),
    unary main_v24 main_v25 ((transpose S12x49x49 [2, 0, 1] · transposes_S49x49x12_S12x49x49_2_0_1) : (⟨S49x49x12, .f32⟩ : BufTy).Contents (Elt F) → (⟨S12x49x49, .f32⟩ : BufTy).Contents (Elt F)),
    unary main_v25 main_v26 (broadcastInDim S1x12x49x49 ![1, 2, 3] bcast_S12x49x49_S1x12x49x49_1_2_3 : (⟨S12x49x49, .f32⟩ : BufTy).Contents (Elt F) → (⟨S1x12x49x49, .f32⟩ : BufTy).Contents (Elt F)),
    unary main_v26 main_v27 (broadcastInDim S4096x12x49x49 ![0, 1, 2, 3] bcast_S1x12x49x49_S4096x12x49x49_0_1_2_3 : (⟨S1x12x49x49, .f32⟩ : BufTy).Contents (Elt F) → (⟨S4096x12x49x49, .f32⟩ : BufTy).Contents (Elt F)),
    binary main_v16 main_v27 main_v28 (addf : (⟨S4096x12x49x49, .f32⟩ : BufTy).Contents (Elt F) → (⟨S4096x12x49x49, .f32⟩ : BufTy).Contents (Elt F) → (⟨S4096x12x49x49, .f32⟩ : BufTy).Contents (Elt F)),
    reshape main_v28 main_v29 rfl shapeCasts_S4096x12x49x49_S64x64x12x49x49,
    unary main_arg1 main_v30 (broadcastInDim S1x64x1x49x49 ![1, 3, 4] bcast_S64x49x49_S1x64x1x49x49_1_3_4 : (⟨S64x49x49, .f32⟩ : BufTy).Contents (Elt F) → (⟨S1x64x1x49x49, .f32⟩ : BufTy).Contents (Elt F)),
    unary main_v30 main_v31 (broadcastInDim S64x64x12x49x49 ![0, 1, 2, 3, 4] bcast_S1x64x1x49x49_S64x64x12x49x49_0_1_2_3_4 : (⟨S1x64x1x49x49, .f32⟩ : BufTy).Contents (Elt F) → (⟨S64x64x12x49x49, .f32⟩ : BufTy).Contents (Elt F)),
    binary main_v29 main_v31 main_v32 (addf : (⟨S64x64x12x49x49, .f32⟩ : BufTy).Contents (Elt F) → (⟨S64x64x12x49x49, .f32⟩ : BufTy).Contents (Elt F) → (⟨S64x64x12x49x49, .f32⟩ : BufTy).Contents (Elt F)),
    reshape main_v32 main_v33 rfl shapeCasts_S64x64x12x49x49_S4096x12x49x49,
    nullary main_cst_2 (constant S_ .f32 0xFF800000#32),
    binary main_v33 main_cst_2 main_v34 ((fun x v => Host.reduce FloatOps.maximumf x v reducesTo_S4096x12x49x49_S4096x12x49_d3 h_S_) : (⟨S4096x12x49x49, .f32⟩ : BufTy).Contents (Elt F) → (⟨S_, .f32⟩ : BufTy).Contents (Elt F) → (⟨S4096x12x49, .f32⟩ : BufTy).Contents (Elt F)),
    nullary main_cst_3 (constant S_ .f32 0xFF800000#32),
    unary main_cst_3 main_v35 (broadcastInDim S4096x12x49 ![] bcast_S_S4096x12x49 : (⟨S_, .f32⟩ : BufTy).Contents (Elt F) → (⟨S4096x12x49, .f32⟩ : BufTy).Contents (Elt F)),
    binary main_v35 main_v34 main_v36 (maximumf : (⟨S4096x12x49, .f32⟩ : BufTy).Contents (Elt F) → (⟨S4096x12x49, .f32⟩ : BufTy).Contents (Elt F) → (⟨S4096x12x49, .f32⟩ : BufTy).Contents (Elt F)),
    unary main_v36 main_v37 (broadcastInDim S4096x12x49x1 ![0, 1, 2] bcast_S4096x12x49_S4096x12x49x1_0_1_2 : (⟨S4096x12x49, .f32⟩ : BufTy).Contents (Elt F) → (⟨S4096x12x49x1, .f32⟩ : BufTy).Contents (Elt F)),
    unary main_v37 main_v38 (broadcastInDim S4096x12x49x49 ![0, 1, 2, 3] bcast_S4096x12x49x1_S4096x12x49x49_0_1_2_3 : (⟨S4096x12x49x1, .f32⟩ : BufTy).Contents (Elt F) → (⟨S4096x12x49x49, .f32⟩ : BufTy).Contents (Elt F)),
    binary main_v33 main_v38 main_v39 (subf : (⟨S4096x12x49x49, .f32⟩ : BufTy).Contents (Elt F) → (⟨S4096x12x49x49, .f32⟩ : BufTy).Contents (Elt F) → (⟨S4096x12x49x49, .f32⟩ : BufTy).Contents (Elt F)),
    unary main_v39 main_v40 (Host.exp : (⟨S4096x12x49x49, .f32⟩ : BufTy).Contents (Elt F) → (⟨S4096x12x49x49, .f32⟩ : BufTy).Contents (Elt F)),
    nullary main_cst_4 (constant S_ .f32 0x00000000#32),
    binary main_v40 main_cst_4 main_v41 ((fun x v => Host.reduceAdd x v reducesTo_S4096x12x49x49_S4096x12x49_d3 h_S_) : (⟨S4096x12x49x49, .f32⟩ : BufTy).Contents (Elt F) → (⟨S_, .f32⟩ : BufTy).Contents (Elt F) → (⟨S4096x12x49, .f32⟩ : BufTy).Contents (Elt F)),
    unary main_v41 main_v42 (broadcastInDim S4096x12x49x1 ![0, 1, 2] bcast_S4096x12x49_S4096x12x49x1_0_1_2 : (⟨S4096x12x49, .f32⟩ : BufTy).Contents (Elt F) → (⟨S4096x12x49x1, .f32⟩ : BufTy).Contents (Elt F)),
    unary main_v42 main_v43 (broadcastInDim S4096x12x49x49 ![0, 1, 2, 3] bcast_S4096x12x49x1_S4096x12x49x49_0_1_2_3 : (⟨S4096x12x49x1, .f32⟩ : BufTy).Contents (Elt F) → (⟨S4096x12x49x49, .f32⟩ : BufTy).Contents (Elt F)),
    binary main_v40 main_v43 main_v44 (Host.divf : (⟨S4096x12x49x49, .f32⟩ : BufTy).Contents (Elt F) → (⟨S4096x12x49x49, .f32⟩ : BufTy).Contents (Elt F) → (⟨S4096x12x49x49, .f32⟩ : BufTy).Contents (Elt F)),
    binary main_v15 main_v44 main_v45 ((fun l r => Host.dotGeneral dot_S4096x12x49x32_S4096x12x49x49_S4096x12x32x49_2_3_3_2_01_01 none l r) : (⟨S4096x12x49x32, .f32⟩ : BufTy).Contents (Elt F) → (⟨S4096x12x49x49, .f32⟩ : BufTy).Contents (Elt F) → (⟨S4096x12x32x49, .f32⟩ : BufTy).Contents (Elt F)),
    unary main_v45 main_v46 ((transpose S4096x49x12x32 [0, 3, 1, 2] · transposes_S4096x12x32x49_S4096x49x12x32_0_3_1_2) : (⟨S4096x12x32x49, .f32⟩ : BufTy).Contents (Elt F) → (⟨S4096x49x12x32, .f32⟩ : BufTy).Contents (Elt F)),
    reshape main_v46 main_v47 rfl shapeCasts_S4096x49x12x32_S4096x49x384,
    binary main_v47 main_arg5 main_v48 ((fun l r => Host.dotGeneral dot_S4096x49x384_S384x384_S4096x49x384_2_1_01_0_n_n none l r) : (⟨S4096x49x384, .f32⟩ : BufTy).Contents (Elt F) → (⟨S384x384, .f32⟩ : BufTy).Contents (Elt F) → (⟨S4096x49x384, .f32⟩ : BufTy).Contents (Elt F)),
    unary main_arg6 main_v49 (broadcastInDim S1x1x384 ![2] bcast_S384_S1x1x384_2 : (⟨S384, .f32⟩ : BufTy).Contents (Elt F) → (⟨S1x1x384, .f32⟩ : BufTy).Contents (Elt F)),
    unary main_v49 main_v50 (broadcastInDim S4096x49x384 ![0, 1, 2] bcast_S1x1x384_S4096x49x384_0_1_2 : (⟨S1x1x384, .f32⟩ : BufTy).Contents (Elt F) → (⟨S4096x49x384, .f32⟩ : BufTy).Contents (Elt F)),
    binary main_v48 main_v50 main_v51 (addf : (⟨S4096x49x384, .f32⟩ : BufTy).Contents (Elt F) → (⟨S4096x49x384, .f32⟩ : BufTy).Contents (Elt F) → (⟨S4096x49x384, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., binary_bufs_sub .., unary_bufs_sub .., unary_bufs_sub .., binary_bufs_sub .., reshape_bufs_sub .., unary_bufs_sub .., reshape_bufs_sub .., unary_bufs_sub .., nullary_bufs_sub .., unary_bufs_sub .., binary_bufs_sub .., unary_bufs_sub .., reshape_bufs_sub .., unary_bufs_sub .., unary_bufs_sub .., reshape_bufs_sub .., unary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., unary_bufs_sub .., binary_bufs_sub .., reshape_bufs_sub .., unary_bufs_sub .., unary_bufs_sub .., binary_bufs_sub .., reshape_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., unary_bufs_sub .., reshape_bufs_sub .., binary_bufs_sub .., unary_bufs_sub .., unary_bufs_sub .., binary_bufs_sub ..⟩

/-- The result buffer after the operations, from any valuation of the buffers: the composed function of the
    argument buffers' contents. -/
theorem after_out (V : Valuation τ sig (Elt F)) :
    after ops V main_v51 = Rout (V main_arg0) (V main_arg1) (V main_arg2) (V main_arg3) (V main_arg4) (V main_arg5) (V main_arg6) := by
  after_results_simp
  rfl

/-- On every device, from any memory with zero counters: every weakly fair execution of @main terminates with
    the result at `Rout` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v51) = Rout (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v51).trans (after_out _),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp),
      (h c main_arg6).trans (by after_results_simp)⟩)
    (run_seq scopedRefs_eq scopedSems_eq defs main (fun _ => ops) main_eq (fun _ => ops_sub) m ρ)

end Cert.ReferenceIdeal.RefRun

end
-- ==== Proof.RefFront.lean ====
/-
  The reference's first stretch read at an index, on the extended reals. For window `b`, the stacked q;k;v
  projection of its 49 rows is `∑ c, x n c · w f c + bq f`; reshaped to [4096, 49, 3, 12, 32] its column is
  `s·384 + h·32 + e`, so the slice at part `s`, with the unit axis dropped and the token and head axes exchanged,
  is part `s` of head `h` as a 49×32 matrix. The values are part 2. The masked scores at (b, h, n, m) are the
  sum over the 32 lanes of (q n e · scale) · k m e, plus the head's bias at (n, m), plus the mask of window
  `b % 64` at (n, m): the reshape [4096, …] → [64, 64, …] splits `b` as `64·(b / 64) + b % 64`, the mask is
  broadcast over the first of the two window axes and over the heads, and the reshape back joins them again.
  The bias array enters only as a function of (h, n, m).
-/
import proofs.«150585_j71975061947032_2_alg».proof.Proof.AttnSpec
import proofs.«150585_j71975061947032_2_alg».proof.Proof.RefStages
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefFront

open Cert.ReferenceIdeal Cert.ReferenceIdeal.RefStages Idealize.ShloMosaic Idealize.SL.Sem Idealize.ShloMosaic.ValueIdx
open Facts₀ Facts

/-- The projection `dot_general` (contracting axis 2 of the rows with axis 1 of the weight) at (b, n, f):
    the sum over the 384 input columns. -/
theorem Rv0_apply (a0 : (⟨S4096x49x384, .f32⟩ : BufTy).Contents (Elt Ideal)) (a2 : (⟨S1152x384, .f32⟩ : BufTy).Contents (Elt Ideal))
    (b : Fin 4096) (n : Fin 49) (f : Fin 1152) :
    Rv0 (F := Ideal) a0 a2 (ix3 b n f) = ∑ c : Fin 384, a0 (ix3 b n c) * a2 (ix2 f c) := by
  refine (Ideal.dotGeneral_apply dot_S4096x49x384_S1152x384_S4096x49x1152_2_1_01_0_n_n none .single a0 a2 (ix3 b n f)).trans ?_
  rw [← Equiv.sum_comp (contrEquiv1 dot_S4096x49x384_S1152x384_S4096x49x1152_2_1_01_0_n_n 384 rfl rfl).symm]
  refine Finset.sum_congr rfl fun c _ => ?_
  have c3 := contrEquiv1_symm_val dot_S4096x49x384_S1152x384_S4096x49x1152_2_1_01_0_n_n 384 rfl rfl c
  have l3 : dot_S4096x49x384_S1152x384_S4096x49x1152_2_1_01_0_n_n.lhsIdx (ix3 b n f)
      ((contrEquiv1 _ 384 rfl rfl).symm c) = ix3 b n c := by
    funext ax; apply Fin.ext
    match ax with
    | ⟨0, _⟩ => simp [DotDims.lhsIdx, dot_S4096x49x384_S1152x384_S4096x49x1152_2_1_01_0_n_n]; rfl
    | ⟨1, _⟩ => simp [DotDims.lhsIdx, dot_S4096x49x384_S1152x384_S4096x49x1152_2_1_01_0_n_n]; rfl
    | ⟨2, _⟩ => simp [DotDims.lhsIdx, dot_S4096x49x384_S1152x384_S4096x49x1152_2_1_01_0_n_n]; exact c3
  have r3 : dot_S4096x49x384_S1152x384_S4096x49x1152_2_1_01_0_n_n.rhsIdx (ix3 b n f)
      ((contrEquiv1 _ 384 rfl rfl).symm c) = ix2 f c := by
    funext ax; apply Fin.ext
    match ax with
    | ⟨0, _⟩ => simp [DotDims.rhsIdx, dot_S4096x49x384_S1152x384_S4096x49x1152_2_1_01_0_n_n]; rfl
    | ⟨1, _⟩ => simp [DotDims.rhsIdx, dot_S4096x49x384_S1152x384_S4096x49x1152_2_1_01_0_n_n]; exact c3
  rw [l3, r3]

/-- The projection's bias, broadcast over windows and tokens, reads its column. -/
theorem Rv2_apply (a3 : (⟨S1152, .f32⟩ : BufTy).Contents (Elt Ideal)) (b : Fin 4096) (n : Fin 49) (f : Fin 1152) :
    Rv2 (F := Ideal) a3 (ix3 b n f) = a3 (ix1 f) := by
  unfold Rv2
  refine (broadcastInDim_apply _ _ _ (ix3 b n f) (ix3 (0 : Fin 1) (0 : Fin 1) f) fun a => ?_).trans ?_
  · match a with
    | ⟨0, _⟩ => rfl
    | ⟨1, _⟩ => rfl
    | ⟨2, _⟩ => rfl
  · unfold Rv1
    refine broadcastInDim_apply _ _ _ (ix3 (0 : Fin 1) (0 : Fin 1) f) (ix1 f) fun a => ?_
    match a with
    | ⟨0, _⟩ => rfl

/-- The stacked projection with its bias at (b, n, f). -/
theorem Rv3_apply (a0 : (⟨S4096x49x384, .f32⟩ : BufTy).Contents (Elt Ideal)) (a2 : (⟨S1152x384, .f32⟩ : BufTy).Contents (Elt Ideal)) (a3 : (⟨S1152, .f32⟩ : BufTy).Contents (Elt Ideal))
    (b : Fin 4096) (n : Fin 49) (f : Fin 1152) :
    Rv3 (F := Ideal) a0 a2 a3 (ix3 b n f) = AttnSpec.qkv (fun n c => a0 (ix3 b n c)) (fun f c => a2 (ix2 f c)) (fun f => a3 (ix1 f)) n f := by
  unfold Rv3
  rw [addf_apply, Rv0_apply, Rv2_apply]
  rfl

/-- The reshape to [4096, 49, 3, 12, 32] reads column `s·384 + h·32 + e`. -/
theorem Rv4_apply (a0 : (⟨S4096x49x384, .f32⟩ : BufTy).Contents (Elt Ideal)) (a2 : (⟨S1152x384, .f32⟩ : BufTy).Contents (Elt Ideal)) (a3 : (⟨S1152, .f32⟩ : BufTy).Contents (Elt Ideal))
    (b : Fin 4096) (n : Fin 49) (s : Fin 3) (h : Fin 12) (e : Fin 32) :
    Rv4 (F := Ideal) a0 a2 a3 (ix5 b n s h e) = AttnSpec.qkv (fun n c => a0 (ix3 b n c)) (fun f c => a2 (ix2 f c)) (fun f => a3 (ix1 f)) n (AttnSpec.col s h e) := by
  unfold Rv4
  refine (shapeCast_apply _ _ (ix5 b n s h e) (ix3 b n (AttnSpec.col s h e)) ?_).trans (Rv3_apply a0 a2 a3 b n (AttnSpec.col s h e))
  rw [Shape.rowMajor_val_three, Shape.rowMajor_val_five]
  show (b.val * 49 + n.val) * 1152 + (s.val * 384 + h.val * 32 + e.val) = ((((b.val * 49 + n.val) * 3 + s.val) * 12 + h.val) * 32 + e.val)
  omega

/-- The slice at offset 0 along the part axis reads the stacked projection at part 0. -/
theorem Rv5_apply (a0 : (⟨S4096x49x384, .f32⟩ : BufTy).Contents (Elt Ideal)) (a2 : (⟨S1152x384, .f32⟩ : BufTy).Contents (Elt Ideal)) (a3 : (⟨S1152, .f32⟩ : BufTy).Contents (Elt Ideal))
    (b : Fin 4096) (n : Fin 49) (h : Fin 12) (e : Fin 32) :
    Rv5 (F := Ideal) a0 a2 a3 (ix5 b n (0 : Fin 1) h e) = Rv4 (F := Ideal) a0 a2 a3 (ix5 b n (0 : Fin 3) h e) := by
  unfold Rv5
  refine extractStridedSlice_apply _ _ _ (ix5 b n (0 : Fin 1) h e) (ix5 b n (0 : Fin 3) h e) fun a => ?_
  match a with
  | ⟨0, _⟩ => exact (Nat.zero_add _).symm
  | ⟨1, _⟩ => exact (Nat.zero_add _).symm
  | ⟨2, _⟩ => rfl
  | ⟨3, _⟩ => exact (Nat.zero_add _).symm
  | ⟨4, _⟩ => exact (Nat.zero_add _).symm

/-- Dropping the unit axis keeps the row-major position. -/
theorem Rv6_apply (a0 : (⟨S4096x49x384, .f32⟩ : BufTy).Contents (Elt Ideal)) (a2 : (⟨S1152x384, .f32⟩ : BufTy).Contents (Elt Ideal)) (a3 : (⟨S1152, .f32⟩ : BufTy).Contents (Elt Ideal))
    (b : Fin 4096) (n : Fin 49) (h : Fin 12) (e : Fin 32) :
    Rv6 (F := Ideal) a0 a2 a3 (ix4 b n h e) = Rv5 (F := Ideal) a0 a2 a3 (ix5 b n (0 : Fin 1) h e) := by
  unfold Rv6
  refine shapeCast_apply _ _ (ix4 b n h e) (ix5 b n (0 : Fin 1) h e) ?_
  rw [Shape.rowMajor_val_five, Shape.rowMajor_val_four]
  show ((((b.val * 49 + n.val) * 1 + 0) * 12 + h.val) * 32 + e.val) = ((b.val * 49 + n.val) * 12 + h.val) * 32 + e.val
  omega

/-- The transpose [0, 2, 1, 3] exchanges the token and head axes. -/
theorem Rv7_apply (a0 : (⟨S4096x49x384, .f32⟩ : BufTy).Contents (Elt Ideal)) (a2 : (⟨S1152x384, .f32⟩ : BufTy).Contents (Elt Ideal)) (a3 : (⟨S1152, .f32⟩ : BufTy).Contents (Elt Ideal))
    (b : Fin 4096) (h : Fin 12) (n : Fin 49) (e : Fin 32) :
    Rv7 (F := Ideal) a0 a2 a3 (ix4 b h n e) = Rv6 (F := Ideal) a0 a2 a3 (ix4 b n h e) := by
  unfold Rv7
  refine transpose_apply _ _ _ (ix4 b h n e) (ix4 b n h e) fun a => ?_
  match a with
  | ⟨0, _⟩ => rfl
  | ⟨1, _⟩ => rfl
  | ⟨2, _⟩ => rfl
  | ⟨3, _⟩ => rfl

/-- Part 0 of head `h` of the window's stacked projection. -/
theorem q_apply (a0 : (⟨S4096x49x384, .f32⟩ : BufTy).Contents (Elt Ideal)) (a2 : (⟨S1152x384, .f32⟩ : BufTy).Contents (Elt Ideal)) (a3 : (⟨S1152, .f32⟩ : BufTy).Contents (Elt Ideal))
    (b : Fin 4096) (h : Fin 12) (n : Fin 49) (e : Fin 32) :
    Rv7 (F := Ideal) a0 a2 a3 (ix4 b h n e) = AttnSpec.part (AttnSpec.qkv (fun n c => a0 (ix3 b n c)) (fun f c => a2 (ix2 f c)) (fun f => a3 (ix1 f))) 0 h n e := by
  rw [Rv7_apply, Rv6_apply, Rv5_apply, Rv4_apply]
  rfl

/-- The slice at offset 1 along the part axis reads the stacked projection at part 1. -/
theorem Rv10_apply (a0 : (⟨S4096x49x384, .f32⟩ : BufTy).Contents (Elt Ideal)) (a2 : (⟨S1152x384, .f32⟩ : BufTy).Contents (Elt Ideal)) (a3 : (⟨S1152, .f32⟩ : BufTy).Contents (Elt Ideal))
    (b : Fin 4096) (n : Fin 49) (h : Fin 12) (e : Fin 32) :
    Rv10 (F := Ideal) a0 a2 a3 (ix5 b n (0 : Fin 1) h e) = Rv4 (F := Ideal) a0 a2 a3 (ix5 b n (1 : Fin 3) h e) := by
  unfold Rv10
  refine extractStridedSlice_apply _ _ _ (ix5 b n (0 : Fin 1) h e) (ix5 b n (1 : Fin 3) h e) fun a => ?_
  match a with
  | ⟨0, _⟩ => exact (Nat.zero_add _).symm
  | ⟨1, _⟩ => exact (Nat.zero_add _).symm
  | ⟨2, _⟩ => rfl
  | ⟨3, _⟩ => exact (Nat.zero_add _).symm
  | ⟨4, _⟩ => exact (Nat.zero_add _).symm

/-- Dropping the unit axis keeps the row-major position. -/
theorem Rv11_apply (a0 : (⟨S4096x49x384, .f32⟩ : BufTy).Contents (Elt Ideal)) (a2 : (⟨S1152x384, .f32⟩ : BufTy).Contents (Elt Ideal)) (a3 : (⟨S1152, .f32⟩ : BufTy).Contents (Elt Ideal))
    (b : Fin 4096) (n : Fin 49) (h : Fin 12) (e : Fin 32) :
    Rv11 (F := Ideal) a0 a2 a3 (ix4 b n h e) = Rv10 (F := Ideal) a0 a2 a3 (ix5 b n (0 : Fin 1) h e) := by
  unfold Rv11
  refine shapeCast_apply _ _ (ix4 b n h e) (ix5 b n (0 : Fin 1) h e) ?_
  rw [Shape.rowMajor_val_five, Shape.rowMajor_val_four]
  show ((((b.val * 49 + n.val) * 1 + 0) * 12 + h.val) * 32 + e.val) = ((b.val * 49 + n.val) * 12 + h.val) * 32 + e.val
  omega

/-- The transpose [0, 2, 1, 3] exchanges the token and head axes. -/
theorem Rv12_apply (a0 : (⟨S4096x49x384, .f32⟩ : BufTy).Contents (Elt Ideal)) (a2 : (⟨S1152x384, .f32⟩ : BufTy).Contents (Elt Ideal)) (a3 : (⟨S1152, .f32⟩ : BufTy).Contents (Elt Ideal))
    (b : Fin 4096) (h : Fin 12) (n : Fin 49) (e : Fin 32) :
    Rv12 (F := Ideal) a0 a2 a3 (ix4 b h n e) = Rv11 (F := Ideal) a0 a2 a3 (ix4 b n h e) := by
  unfold Rv12
  refine transpose_apply _ _ _ (ix4 b h n e) (ix4 b n h e) fun a => ?_
  match a with
  | ⟨0, _⟩ => rfl
  | ⟨1, _⟩ => rfl
  | ⟨2, _⟩ => rfl
  | ⟨3, _⟩ => rfl

/-- Part 1 of head `h` of the window's stacked projection. -/
theorem k_apply (a0 : (⟨S4096x49x384, .f32⟩ : BufTy).Contents (Elt Ideal)) (a2 : (⟨S1152x384, .f32⟩ : BufTy).Contents (Elt Ideal)) (a3 : (⟨S1152, .f32⟩ : BufTy).Contents (Elt Ideal))
    (b : Fin 4096) (h : Fin 12) (n : Fin 49) (e : Fin 32) :
    Rv12 (F := Ideal) a0 a2 a3 (ix4 b h n e) = AttnSpec.part (AttnSpec.qkv (fun n c => a0 (ix3 b n c)) (fun f c => a2 (ix2 f c)) (fun f => a3 (ix1 f))) 1 h n e := by
  rw [Rv12_apply, Rv11_apply, Rv10_apply, Rv4_apply]
  rfl

/-- The slice at offset 2 along the part axis reads the stacked projection at part 2. -/
theorem Rv13_apply (a0 : (⟨S4096x49x384, .f32⟩ : BufTy).Contents (Elt Ideal)) (a2 : (⟨S1152x384, .f32⟩ : BufTy).Contents (Elt Ideal)) (a3 : (⟨S1152, .f32⟩ : BufTy).Contents (Elt Ideal))
    (b : Fin 4096) (n : Fin 49) (h : Fin 12) (e : Fin 32) :
    Rv13 (F := Ideal) a0 a2 a3 (ix5 b n (0 : Fin 1) h e) = Rv4 (F := Ideal) a0 a2 a3 (ix5 b n (2 : Fin 3) h e) := by
  unfold Rv13
  refine extractStridedSlice_apply _ _ _ (ix5 b n (0 : Fin 1) h e) (ix5 b n (2 : Fin 3) h e) fun a => ?_
  match a with
  | ⟨0, _⟩ => exact (Nat.zero_add _).symm
  | ⟨1, _⟩ => exact (Nat.zero_add _).symm
  | ⟨2, _⟩ => rfl
  | ⟨3, _⟩ => exact (Nat.zero_add _).symm
  | ⟨4, _⟩ => exact (Nat.zero_add _).symm

/-- Dropping the unit axis keeps the row-major position. -/
theorem Rv14_apply (a0 : (⟨S4096x49x384, .f32⟩ : BufTy).Contents (Elt Ideal)) (a2 : (⟨S1152x384, .f32⟩ : BufTy).Contents (Elt Ideal)) (a3 : (⟨S1152, .f32⟩ : BufTy).Contents (Elt Ideal))
    (b : Fin 4096) (n : Fin 49) (h : Fin 12) (e : Fin 32) :
    Rv14 (F := Ideal) a0 a2 a3 (ix4 b n h e) = Rv13 (F := Ideal) a0 a2 a3 (ix5 b n (0 : Fin 1) h e) := by
  unfold Rv14
  refine shapeCast_apply _ _ (ix4 b n h e) (ix5 b n (0 : Fin 1) h e) ?_
  rw [Shape.rowMajor_val_five, Shape.rowMajor_val_four]
  show ((((b.val * 49 + n.val) * 1 + 0) * 12 + h.val) * 32 + e.val) = ((b.val * 49 + n.val) * 12 + h.val) * 32 + e.val
  omega

/-- The transpose [0, 2, 1, 3] exchanges the token and head axes. -/
theorem Rv15_apply (a0 : (⟨S4096x49x384, .f32⟩ : BufTy).Contents (Elt Ideal)) (a2 : (⟨S1152x384, .f32⟩ : BufTy).Contents (Elt Ideal)) (a3 : (⟨S1152, .f32⟩ : BufTy).Contents (Elt Ideal))
    (b : Fin 4096) (h : Fin 12) (n : Fin 49) (e : Fin 32) :
    Rv15 (F := Ideal) a0 a2 a3 (ix4 b h n e) = Rv14 (F := Ideal) a0 a2 a3 (ix4 b n h e) := by
  unfold Rv15
  refine transpose_apply _ _ _ (ix4 b h n e) (ix4 b n h e) fun a => ?_
  match a with
  | ⟨0, _⟩ => rfl
  | ⟨1, _⟩ => rfl
  | ⟨2, _⟩ => rfl
  | ⟨3, _⟩ => rfl

/-- Part 2 of head `h` of the window's stacked projection. -/
theorem values_apply (a0 : (⟨S4096x49x384, .f32⟩ : BufTy).Contents (Elt Ideal)) (a2 : (⟨S1152x384, .f32⟩ : BufTy).Contents (Elt Ideal)) (a3 : (⟨S1152, .f32⟩ : BufTy).Contents (Elt Ideal))
    (b : Fin 4096) (h : Fin 12) (m : Fin 49) (e : Fin 32) :
    Rv15 (F := Ideal) a0 a2 a3 (ix4 b h m e) = AttnSpec.part (AttnSpec.qkv (fun n c => a0 (ix3 b n c)) (fun f c => a2 (ix2 f c)) (fun f => a3 (ix1 f))) 2 h m e := by
  rw [Rv15_apply, Rv14_apply, Rv13_apply, Rv4_apply]
  rfl

/-- The scale word, broadcast, reads the same extended real everywhere. -/
theorem Rv8_apply (b : Fin 4096) (h : Fin 12) (n : Fin 49) (e : Fin 32) :
    Rv8 (F := Ideal) (ix4 b h n e) = AttnSpec.scale := by
  unfold Rv8
  refine (broadcastInDim_apply _ _ _ (ix4 b h n e) ix0 fun a => a.elim0).trans ?_
  rfl

/-- The scaled q at (b, h, n, e). -/
theorem Rv9_apply (a0 : (⟨S4096x49x384, .f32⟩ : BufTy).Contents (Elt Ideal)) (a2 : (⟨S1152x384, .f32⟩ : BufTy).Contents (Elt Ideal)) (a3 : (⟨S1152, .f32⟩ : BufTy).Contents (Elt Ideal))
    (b : Fin 4096) (h : Fin 12) (n : Fin 49) (e : Fin 32) :
    Rv9 (F := Ideal) a0 a2 a3 (ix4 b h n e) = AttnSpec.part (AttnSpec.qkv (fun n c => a0 (ix3 b n c)) (fun f c => a2 (ix2 f c)) (fun f => a3 (ix1 f))) 0 h n e * AttnSpec.scale := by
  unfold Rv9
  rw [mulf_apply, q_apply, Rv8_apply]

/-- The batched `dot_general` q·kᵀ (batch axes 0 and 1, contracting the lane axis of both) at (b, h, n, m):
    the sum over the 32 lanes. -/
theorem Rv16_apply (a0 : (⟨S4096x49x384, .f32⟩ : BufTy).Contents (Elt Ideal)) (a2 : (⟨S1152x384, .f32⟩ : BufTy).Contents (Elt Ideal)) (a3 : (⟨S1152, .f32⟩ : BufTy).Contents (Elt Ideal))
    (b : Fin 4096) (h : Fin 12) (n m : Fin 49) :
    Rv16 (F := Ideal) a0 a2 a3 (ix4 b h n m)
      = ∑ e : Fin 32, Rv9 (F := Ideal) a0 a2 a3 (ix4 b h n e) * Rv12 (F := Ideal) a0 a2 a3 (ix4 b h m e) := by
  refine (Ideal.dotGeneral_apply dot_S4096x12x49x32_S4096x12x49x32_S4096x12x49x49_3_3_2_2_01_01 none .single (Rv9 (F := Ideal) a0 a2 a3) (Rv12 (F := Ideal) a0 a2 a3) (ix4 b h n m)).trans ?_
  rw [← Equiv.sum_comp (contrEquiv1 dot_S4096x12x49x32_S4096x12x49x32_S4096x12x49x49_3_3_2_2_01_01 32 rfl rfl).symm]
  refine Finset.sum_congr rfl fun c _ => ?_
  have c3 := contrEquiv1_symm_val dot_S4096x12x49x32_S4096x12x49x32_S4096x12x49x49_3_3_2_2_01_01 32 rfl rfl c
  have l3 : dot_S4096x12x49x32_S4096x12x49x32_S4096x12x49x49_3_3_2_2_01_01.lhsIdx (ix4 b h n m)
      ((contrEquiv1 _ 32 rfl rfl).symm c) = ix4 b h n c := by
    funext ax; apply Fin.ext
    match ax with
    | ⟨0, _⟩ => simp [DotDims.lhsIdx, dot_S4096x12x49x32_S4096x12x49x32_S4096x12x49x49_3_3_2_2_01_01]; rfl
    | ⟨1, _⟩ => simp [DotDims.lhsIdx, dot_S4096x12x49x32_S4096x12x49x32_S4096x12x49x49_3_3_2_2_01_01]; rfl
    | ⟨2, _⟩ => simp [DotDims.lhsIdx, dot_S4096x12x49x32_S4096x12x49x32_S4096x12x49x49_3_3_2_2_01_01]; rfl
    | ⟨3, _⟩ => simp [DotDims.lhsIdx, dot_S4096x12x49x32_S4096x12x49x32_S4096x12x49x49_3_3_2_2_01_01]; exact c3
  have r3 : dot_S4096x12x49x32_S4096x12x49x32_S4096x12x49x49_3_3_2_2_01_01.rhsIdx (ix4 b h n m)
      ((contrEquiv1 _ 32 rfl rfl).symm c) = ix4 b h m c := by
    funext ax; apply Fin.ext
    match ax with
    | ⟨0, _⟩ => simp [DotDims.rhsIdx, dot_S4096x12x49x32_S4096x12x49x32_S4096x12x49x49_3_3_2_2_01_01]; rfl
    | ⟨1, _⟩ => simp [DotDims.rhsIdx, dot_S4096x12x49x32_S4096x12x49x32_S4096x12x49x49_3_3_2_2_01_01]; rfl
    | ⟨2, _⟩ => simp [DotDims.rhsIdx, dot_S4096x12x49x32_S4096x12x49x32_S4096x12x49x49_3_3_2_2_01_01]; rfl
    | ⟨3, _⟩ => simp [DotDims.rhsIdx, dot_S4096x12x49x32_S4096x12x49x32_S4096x12x49x49_3_3_2_2_01_01]; exact c3
  rw [l3, r3]

/-- The bias array, broadcast over the windows, reads its (h, n, m) entry. -/
theorem Rv27_apply (a4 : (⟨S13x13x12, .f32⟩ : BufTy).Contents (Elt Ideal)) (b : Fin 4096) (h : Fin 12) (n m : Fin 49) :
    Rv27 (F := Ideal) a4 (ix4 b h n m) = Rv25 (F := Ideal) a4 (ix3 h n m) := by
  unfold Rv27
  refine (broadcastInDim_apply _ _ _ (ix4 b h n m) (ix4 (0 : Fin 1) h n m) fun a => ?_).trans ?_
  · match a with
    | ⟨0, _⟩ => rfl
    | ⟨1, _⟩ => rfl
    | ⟨2, _⟩ => rfl
    | ⟨3, _⟩ => rfl
  · unfold Rv26
    refine broadcastInDim_apply _ _ _ (ix4 (0 : Fin 1) h n m) (ix3 h n m) fun a => ?_
    match a with
    | ⟨0, _⟩ => rfl
    | ⟨1, _⟩ => rfl
    | ⟨2, _⟩ => rfl

/-- The scores with the bias at (b, h, n, m). -/
theorem Rv28_apply (a0 : (⟨S4096x49x384, .f32⟩ : BufTy).Contents (Elt Ideal)) (a2 : (⟨S1152x384, .f32⟩ : BufTy).Contents (Elt Ideal)) (a3 : (⟨S1152, .f32⟩ : BufTy).Contents (Elt Ideal)) (a4 : (⟨S13x13x12, .f32⟩ : BufTy).Contents (Elt Ideal))
    (b : Fin 4096) (h : Fin 12) (n m : Fin 49) :
    Rv28 (F := Ideal) a0 a2 a3 a4 (ix4 b h n m)
      = (∑ e : Fin 32, (AttnSpec.part (AttnSpec.qkv (fun n c => a0 (ix3 b n c)) (fun f c => a2 (ix2 f c)) (fun f => a3 (ix1 f))) 0 h n e * AttnSpec.scale) * AttnSpec.part (AttnSpec.qkv (fun n c => a0 (ix3 b n c)) (fun f c => a2 (ix2 f c)) (fun f => a3 (ix1 f))) 1 h m e)
        + Rv25 (F := Ideal) a4 (ix3 h n m) := by
  unfold Rv28
  rw [addf_apply, Rv16_apply, Rv27_apply]
  refine congrArg (· + _) (Finset.sum_congr rfl fun e _ => ?_)
  rw [Rv9_apply, k_apply]

/-- The reshape [4096, …] → [64, 64, …] read at window `b`'s two coordinates `b / 64`, `b % 64`. -/
theorem Rv29_apply (a0 : (⟨S4096x49x384, .f32⟩ : BufTy).Contents (Elt Ideal)) (a2 : (⟨S1152x384, .f32⟩ : BufTy).Contents (Elt Ideal)) (a3 : (⟨S1152, .f32⟩ : BufTy).Contents (Elt Ideal)) (a4 : (⟨S13x13x12, .f32⟩ : BufTy).Contents (Elt Ideal))
    (b : Fin 4096) (h : Fin 12) (n m : Fin 49) :
    Rv29 (F := Ideal) a0 a2 a3 a4 (ix5 (⟨b.val / 64, by omega⟩ : Fin 64) (⟨b.val % 64, Nat.mod_lt _ (by decide)⟩ : Fin 64) h n m)
      = Rv28 (F := Ideal) a0 a2 a3 a4 (ix4 b h n m) := by
  unfold Rv29
  refine shapeCast_apply _ _ (ix5 (⟨b.val / 64, by omega⟩ : Fin 64) (⟨b.val % 64, Nat.mod_lt _ (by decide)⟩ : Fin 64) h n m) (ix4 b h n m) ?_
  rw [Shape.rowMajor_val_four, Shape.rowMajor_val_five]
  show ((b.val * 12 + h.val) * 49 + n.val) * 49 + m.val
    = ((((b.val / 64) * 64 + b.val % 64) * 12 + h.val) * 49 + n.val) * 49 + m.val
  omega

/-- The mask, broadcast over the first window axis and the heads, reads its (b₂, n, m) entry. -/
theorem Rv31_apply (a1 : (⟨S64x49x49, .f32⟩ : BufTy).Contents (Elt Ideal)) (b1 b2 : Fin 64) (h : Fin 12) (n m : Fin 49) :
    Rv31 (F := Ideal) a1 (ix5 b1 b2 h n m) = a1 (ix3 b2 n m) := by
  unfold Rv31
  refine (broadcastInDim_apply _ _ _ (ix5 b1 b2 h n m) (ix5 (0 : Fin 1) b2 (0 : Fin 1) n m) fun a => ?_).trans ?_
  · match a with
    | ⟨0, _⟩ => rfl
    | ⟨1, _⟩ => rfl
    | ⟨2, _⟩ => rfl
    | ⟨3, _⟩ => rfl
    | ⟨4, _⟩ => rfl
  · unfold Rv30
    refine broadcastInDim_apply _ _ _ (ix5 (0 : Fin 1) b2 (0 : Fin 1) n m) (ix3 b2 n m) fun a => ?_
    match a with
    | ⟨0, _⟩ => rfl
    | ⟨1, _⟩ => rfl
    | ⟨2, _⟩ => rfl

/-- The reshape back to [4096, …] reads window `b` at its two coordinates. -/
theorem Rv33_apply (a0 : (⟨S4096x49x384, .f32⟩ : BufTy).Contents (Elt Ideal)) (a1 : (⟨S64x49x49, .f32⟩ : BufTy).Contents (Elt Ideal)) (a2 : (⟨S1152x384, .f32⟩ : BufTy).Contents (Elt Ideal)) (a3 : (⟨S1152, .f32⟩ : BufTy).Contents (Elt Ideal)) (a4 : (⟨S13x13x12, .f32⟩ : BufTy).Contents (Elt Ideal))
    (b : Fin 4096) (h : Fin 12) (n m : Fin 49) :
    Rv33 (F := Ideal) a0 a1 a2 a3 a4 (ix4 b h n m)
      = Rv32 (F := Ideal) a0 a1 a2 a3 a4 (ix5 (⟨b.val / 64, by omega⟩ : Fin 64) (⟨b.val % 64, Nat.mod_lt _ (by decide)⟩ : Fin 64) h n m) := by
  unfold Rv33
  refine shapeCast_apply _ _ (ix4 b h n m) (ix5 (⟨b.val / 64, by omega⟩ : Fin 64) (⟨b.val % 64, Nat.mod_lt _ (by decide)⟩ : Fin 64) h n m) ?_
  rw [Shape.rowMajor_val_four, Shape.rowMajor_val_five]
  show ((((b.val / 64) * 64 + b.val % 64) * 12 + h.val) * 49 + n.val) * 49 + m.val
    = ((b.val * 12 + h.val) * 49 + n.val) * 49 + m.val
  omega

/-- THE MASKED SCORES at (b, h, n, m): the head's scaled q·kᵀ plus its bias plus the mask of window `b % 64`. -/
theorem scores_apply (a0 : (⟨S4096x49x384, .f32⟩ : BufTy).Contents (Elt Ideal)) (a1 : (⟨S64x49x49, .f32⟩ : BufTy).Contents (Elt Ideal)) (a2 : (⟨S1152x384, .f32⟩ : BufTy).Contents (Elt Ideal)) (a3 : (⟨S1152, .f32⟩ : BufTy).Contents (Elt Ideal)) (a4 : (⟨S13x13x12, .f32⟩ : BufTy).Contents (Elt Ideal))
    (b : Fin 4096) (h : Fin 12) (n m : Fin 49) :
    Rv33 (F := Ideal) a0 a1 a2 a3 a4 (ix4 b h n m)
      = AttnSpec.score (AttnSpec.part (AttnSpec.qkv (fun n c => a0 (ix3 b n c)) (fun f c => a2 (ix2 f c)) (fun f => a3 (ix1 f))) 0 h)
          (AttnSpec.part (AttnSpec.qkv (fun n c => a0 (ix3 b n c)) (fun f c => a2 (ix2 f c)) (fun f => a3 (ix1 f))) 1 h)
          (fun n m => Rv25 (F := Ideal) a4 (ix3 h n m))
          (fun n m => a1 (ix3 ⟨b.val % 64, Nat.mod_lt _ (by decide)⟩ n m)) n m := by
  rw [Rv33_apply]
  unfold Rv32
  rw [addf_apply, Rv29_apply, Rv31_apply, Rv28_apply]
  rfl

end Cert.ReferenceIdeal.RefFront

end
-- ==== Proof.RefTail.lean ====
/-
  The reference program's last stretch read at one output entry: the softmax along the last axis of the
  masked scores, the weighted sum of the values, the heads set side by side and the output projection.
  Each operation is read at an index with explicit coordinates, innermost first; the last theorem chains them.
-/
import Idealize.ShloMosaic.Lib.ValueIdx
import Idealize.ShloMosaic.Lib.ValueLayout
import Idealize.ShloMosaic.Lib.Pipeline.Value
import Idealize.ShloMosaic.PureOps.Ideal.Laws
import proofs.«150585_j71975061947032_2_alg».proof.Proof.AttnSpec
import proofs.«150585_j71975061947032_2_alg».proof.Proof.RefStages

noncomputable section

namespace Cert.ReferenceIdeal.RefTail

open Cert Cert.ReferenceIdeal Cert.ReferenceIdeal.RefStages Idealize.ShloMosaic Idealize.SL.Sem Idealize.ShloMosaic.ValueIdx
open Facts₀ Facts
open scoped BigOperators

/-- The index a reduction over the last axis inserts: the reduced index (b, h, n) with coordinate m put last. -/
theorem lift_d3 (hr : S4096x12x49x49.Reduces [3] S4096x12x49) (b : Fin 4096) (h : Fin 12) (n : Fin 49) (m : Fin 49) :
    hr.lift (ix3 b h n) m = ix4 b h n m :=
  funext fun a => Fin.ext (by match a with | ⟨0, _⟩ => rfl | ⟨1, _⟩ => rfl | ⟨2, _⟩ => rfl | ⟨3, _⟩ => rfl)

/-- The row maximum taken from −∞: the fold of max over the row. -/
theorem rv34_apply (s : (⟨S4096x12x49x49, .f32⟩ : BufTy).Contents (Elt Ideal)) (b : Fin 4096) (h : Fin 12) (n : Fin 49) :
    Rv34 (F := Ideal) s (ix3 b h n) = (Finset.univ : Finset (Fin 49)).fold max AttnSpec.negInf (fun m => s (ix4 b h n m)) := by
  unfold Rv34
  refine (Host.reduce_eq_fold_single (FloatOps.maximumf (F := Ideal) (φ := .f32)) s (Rcst_2 (F := Ideal))
    reducesTo_S4096x12x49x49_S4096x12x49_d3 (by decide) h_S_ (ix3 b h n)).trans ?_
  have e : (s ∘ (Shape.Reduces.lift (by decide : S4096x12x49x49.Reduces [3] S4096x12x49) (ix3 b h n)))
      = fun m : Fin 49 => s (ix4 b h n m) := funext fun m => congrArg s (lift_d3 _ b h n m)
  rw [e]
  rfl

/-- The −∞ constant spread over [4096, 12, 49] reads −∞ everywhere. -/
theorem rv35_apply (b : Fin 4096) (h : Fin 12) (n : Fin 49) : Rv35 (F := Ideal) (ix3 b h n) = AttnSpec.negInf := by
  unfold Rv35 Rcst_3
  exact (broadcastInDim_apply _ _ _ _ ix0 fun a => a.elim0).trans (constant_apply _ _)

/-- The maximum once more against the −∞ broadcast: the row's maximum as the specification writes it. -/
theorem rv36_apply (s : (⟨S4096x12x49x49, .f32⟩ : BufTy).Contents (Elt Ideal)) (b : Fin 4096) (h : Fin 12) (n : Fin 49) :
    Rv36 (F := Ideal) s (ix3 b h n) = AttnSpec.rowMax (fun m => s (ix4 b h n m)) := by
  unfold Rv36
  rw [maximumf_apply, rv35_apply, rv34_apply]
  rfl

/-- The row maximum given a unit last axis … -/
theorem rv37_apply (s : (⟨S4096x12x49x49, .f32⟩ : BufTy).Contents (Elt Ideal)) (b : Fin 4096) (h : Fin 12) (n : Fin 49) (u : Fin 1) :
    Rv37 (F := Ideal) s (ix4 b h n u) = Rv36 (F := Ideal) s (ix3 b h n) := by
  unfold Rv37
  exact broadcastInDim_apply _ _ _ _ (ix3 b h n) fun a => match a with | ⟨0, _⟩ => rfl | ⟨1, _⟩ => rfl | ⟨2, _⟩ => rfl

/-- … and spread along the row: every entry of row (b, h, n) reads that row's maximum. -/
theorem rv38_apply (s : (⟨S4096x12x49x49, .f32⟩ : BufTy).Contents (Elt Ideal)) (b : Fin 4096) (h : Fin 12) (n m : Fin 49) :
    Rv38 (F := Ideal) s (ix4 b h n m) = AttnSpec.rowMax (fun m' => s (ix4 b h n m')) := by
  unfold Rv38
  refine (broadcastInDim_apply _ _ _ _ (ix4 b h n (0 : Fin 1)) fun a => match a with
    | ⟨0, _⟩ => rfl | ⟨1, _⟩ => rfl | ⟨2, _⟩ => rfl | ⟨3, _⟩ => rfl).trans ?_
  rw [rv37_apply, rv36_apply]

/-- The row shifted by its maximum and exponentiated. -/
theorem rv40_apply (s : (⟨S4096x12x49x49, .f32⟩ : BufTy).Contents (Elt Ideal)) (b : Fin 4096) (h : Fin 12) (n m : Fin 49) :
    Rv40 (F := Ideal) s (ix4 b h n m) = AttnSpec.expRow (fun m' => s (ix4 b h n m')) m := by
  unfold Rv40 Host.exp Rv39
  rw [Ideal.hostUnary_exp_def, subf_apply, rv38_apply]
  rfl

/-- The sum of the exponentials along the row, from the zero constant. -/
theorem rv41_apply (s : (⟨S4096x12x49x49, .f32⟩ : BufTy).Contents (Elt Ideal)) (b : Fin 4096) (h : Fin 12) (n : Fin 49) :
    Rv41 (F := Ideal) s (ix3 b h n) = ∑ k : Fin 49, AttnSpec.expRow (fun m' => s (ix4 b h n m')) k := by
  unfold Rv41 Host.reduceAdd Rcst_4
  rw [Ideal.hostReduceAdd_def, Ideal.hostReduceAdd_single reducesTo_S4096x12x49x49_S4096x12x49_d3 (by decide),
    constant_apply, Ideal.ofBits_zero_f32, zero_add]
  refine Finset.sum_congr rfl fun k _ => ?_
  exact (congrArg (Rv40 (F := Ideal) s) (lift_d3 _ b h n k)).trans (rv40_apply s b h n k)

/-- The row sum given a unit last axis … -/
theorem rv42_apply (s : (⟨S4096x12x49x49, .f32⟩ : BufTy).Contents (Elt Ideal)) (b : Fin 4096) (h : Fin 12) (n : Fin 49) (u : Fin 1) :
    Rv42 (F := Ideal) s (ix4 b h n u) = Rv41 (F := Ideal) s (ix3 b h n) := by
  unfold Rv42
  exact broadcastInDim_apply _ _ _ _ (ix3 b h n) fun a => match a with | ⟨0, _⟩ => rfl | ⟨1, _⟩ => rfl | ⟨2, _⟩ => rfl

/-- … and spread along the row. -/
theorem rv43_apply (s : (⟨S4096x12x49x49, .f32⟩ : BufTy).Contents (Elt Ideal)) (b : Fin 4096) (h : Fin 12) (n m : Fin 49) :
    Rv43 (F := Ideal) s (ix4 b h n m) = ∑ k : Fin 49, AttnSpec.expRow (fun m' => s (ix4 b h n m')) k := by
  unfold Rv43
  refine (broadcastInDim_apply _ _ _ _ (ix4 b h n (0 : Fin 1)) fun a => match a with
    | ⟨0, _⟩ => rfl | ⟨1, _⟩ => rfl | ⟨2, _⟩ => rfl | ⟨3, _⟩ => rfl).trans ?_
  rw [rv42_apply, rv41_apply]

/-- The softmax of row (b, h, n) at m. -/
theorem rv44_apply (s : (⟨S4096x12x49x49, .f32⟩ : BufTy).Contents (Elt Ideal)) (b : Fin 4096) (h : Fin 12) (n m : Fin 49) :
    Rv44 (F := Ideal) s (ix4 b h n m) = AttnSpec.soft (fun m' => s (ix4 b h n m')) m := by
  unfold Rv44 Host.divf
  rw [Ideal.hostDivf_def, rv40_apply, rv43_apply]
  rfl

/-! ## The weighted sum of the values: a contraction over the key position, batched over window and head

The operand indices of the contraction at a result index and a contraction index, one coordinate at a time: a batch
axis and a free axis read the result index, the contracted axis the contraction index. -/

theorem lhs45_0 (i : S4096x12x32x49.Idx) (q : dot_S4096x12x49x32_S4096x12x49x49_S4096x12x32x49_2_3_3_2_01_01.contr.Idx) :
    (dot_S4096x12x49x32_S4096x12x49x49_S4096x12x32x49_2_3_3_2_01_01.lhsIdx i q 0).val = (i 0).val := by
  unfold DotDims.lhsIdx
  rw [dif_pos (show (0 : Fin S4096x12x49x32.rank) ∈ dot_S4096x12x49x32_S4096x12x49x49_S4096x12x32x49_2_3_3_2_01_01.lhsBatch by decide)]
  rfl

theorem lhs45_1 (i : S4096x12x32x49.Idx) (q : dot_S4096x12x49x32_S4096x12x49x49_S4096x12x32x49_2_3_3_2_01_01.contr.Idx) :
    (dot_S4096x12x49x32_S4096x12x49x49_S4096x12x32x49_2_3_3_2_01_01.lhsIdx i q 1).val = (i 1).val := by
  unfold DotDims.lhsIdx
  rw [dif_pos (show (1 : Fin S4096x12x49x32.rank) ∈ dot_S4096x12x49x32_S4096x12x49x49_S4096x12x32x49_2_3_3_2_01_01.lhsBatch by decide)]
  rfl

theorem lhs45_2 (i : S4096x12x32x49.Idx) (q : dot_S4096x12x49x32_S4096x12x49x49_S4096x12x32x49_2_3_3_2_01_01.contr.Idx) :
    (dot_S4096x12x49x32_S4096x12x49x49_S4096x12x32x49_2_3_3_2_01_01.lhsIdx i q 2).val = (q ⟨0, by decide⟩).val :=
  dot_S4096x12x49x32_S4096x12x49x49_S4096x12x32x49_2_3_3_2_01_01.lhsIdx_val_of_single rfl i q

theorem lhs45_3 (i : S4096x12x32x49.Idx) (q : dot_S4096x12x49x32_S4096x12x49x49_S4096x12x32x49_2_3_3_2_01_01.contr.Idx) :
    (dot_S4096x12x49x32_S4096x12x49x49_S4096x12x32x49_2_3_3_2_01_01.lhsIdx i q 3).val = (i 2).val := by
  unfold DotDims.lhsIdx
  rw [dif_neg (show ¬(3 : Fin S4096x12x49x32.rank) ∈ dot_S4096x12x49x32_S4096x12x49x49_S4096x12x32x49_2_3_3_2_01_01.lhsBatch by decide), dif_pos (show (3 : Fin S4096x12x49x32.rank) ∈ dot_S4096x12x49x32_S4096x12x49x49_S4096x12x32x49_2_3_3_2_01_01.lhsNonContracting by decide)]
  rfl

theorem rhs45_0 (i : S4096x12x32x49.Idx) (q : dot_S4096x12x49x32_S4096x12x49x49_S4096x12x32x49_2_3_3_2_01_01.contr.Idx) :
    (dot_S4096x12x49x32_S4096x12x49x49_S4096x12x32x49_2_3_3_2_01_01.rhsIdx i q 0).val = (i 0).val := by
  unfold DotDims.rhsIdx
  rw [dif_pos (show (0 : Fin S4096x12x49x49.rank) ∈ dot_S4096x12x49x32_S4096x12x49x49_S4096x12x32x49_2_3_3_2_01_01.rhsBatch by decide)]
  rfl

theorem rhs45_1 (i : S4096x12x32x49.Idx) (q : dot_S4096x12x49x32_S4096x12x49x49_S4096x12x32x49_2_3_3_2_01_01.contr.Idx) :
    (dot_S4096x12x49x32_S4096x12x49x49_S4096x12x32x49_2_3_3_2_01_01.rhsIdx i q 1).val = (i 1).val := by
  unfold DotDims.rhsIdx
  rw [dif_pos (show (1 : Fin S4096x12x49x49.rank) ∈ dot_S4096x12x49x32_S4096x12x49x49_S4096x12x32x49_2_3_3_2_01_01.rhsBatch by decide)]
  rfl

theorem rhs45_2 (i : S4096x12x32x49.Idx) (q : dot_S4096x12x49x32_S4096x12x49x49_S4096x12x32x49_2_3_3_2_01_01.contr.Idx) :
    (dot_S4096x12x49x32_S4096x12x49x49_S4096x12x32x49_2_3_3_2_01_01.rhsIdx i q 2).val = (i 3).val := by
  unfold DotDims.rhsIdx
  rw [dif_neg (show ¬(2 : Fin S4096x12x49x49.rank) ∈ dot_S4096x12x49x32_S4096x12x49x49_S4096x12x32x49_2_3_3_2_01_01.rhsBatch by decide), dif_pos (show (2 : Fin S4096x12x49x49.rank) ∈ dot_S4096x12x49x32_S4096x12x49x49_S4096x12x32x49_2_3_3_2_01_01.rhsNonContracting by decide)]
  rfl

theorem rhs45_3 (i : S4096x12x32x49.Idx) (q : dot_S4096x12x49x32_S4096x12x49x49_S4096x12x32x49_2_3_3_2_01_01.contr.Idx) :
    (dot_S4096x12x49x32_S4096x12x49x49_S4096x12x32x49_2_3_3_2_01_01.rhsIdx i q 3).val = (q ⟨0, by decide⟩).val :=
  dot_S4096x12x49x32_S4096x12x49x49_S4096x12x32x49_2_3_3_2_01_01.rhsIdx_val_of_single rfl i q

/-- The weighted sum at (b, h, e, n): over the key position m, the value at (b, h, m, e) times the softmax at (b, h, n, m). -/
theorem rv45_apply (s : (⟨S4096x12x49x49, .f32⟩ : BufTy).Contents (Elt Ideal)) (vv : (⟨S4096x12x49x32, .f32⟩ : BufTy).Contents (Elt Ideal))
    (b : Fin 4096) (h : Fin 12) (e : Fin 32) (n : Fin 49) :
    Rv45 (F := Ideal) s vv (ix4 b h e n) = ∑ m : Fin 49, vv (ix4 b h m e) * Rv44 (F := Ideal) s (ix4 b h n m) := by
  unfold Rv45 Host.dotGeneral
  rw [Ideal.dotGeneral_apply, ← Equiv.sum_comp (contrEquiv1 dot_S4096x12x49x32_S4096x12x49x49_S4096x12x32x49_2_3_3_2_01_01 49 rfl rfl).symm]
  refine Finset.sum_congr rfl fun k _ => ?_
  have hk := contrEquiv1_symm_val dot_S4096x12x49x32_S4096x12x49x49_S4096x12x32x49_2_3_3_2_01_01 49 rfl rfl k
  have el : dot_S4096x12x49x32_S4096x12x49x49_S4096x12x32x49_2_3_3_2_01_01.lhsIdx (ix4 b h e n) ((contrEquiv1 dot_S4096x12x49x32_S4096x12x49x49_S4096x12x32x49_2_3_3_2_01_01 49 rfl rfl).symm k) = ix4 b h k e :=
    funext fun a => Fin.ext (by
      match a with
      | ⟨0, _⟩ => exact lhs45_0 _ _
      | ⟨1, _⟩ => exact lhs45_1 _ _
      | ⟨2, _⟩ => exact (lhs45_2 _ _).trans hk
      | ⟨3, _⟩ => exact lhs45_3 _ _)
  have er : dot_S4096x12x49x32_S4096x12x49x49_S4096x12x32x49_2_3_3_2_01_01.rhsIdx (ix4 b h e n) ((contrEquiv1 dot_S4096x12x49x32_S4096x12x49x49_S4096x12x32x49_2_3_3_2_01_01 49 rfl rfl).symm k) = ix4 b h n k :=
    funext fun a => Fin.ext (by
      match a with
      | ⟨0, _⟩ => exact rhs45_0 _ _
      | ⟨1, _⟩ => exact rhs45_1 _ _
      | ⟨2, _⟩ => exact rhs45_2 _ _
      | ⟨3, _⟩ => exact (rhs45_3 _ _).trans hk)
  rw [el, er]

/-! ## The heads set side by side and the output projection -/

/-- The transpose [0, 3, 1, 2]: entry (b, n, h, e) of the result is entry (b, h, e, n) of the operand. -/
theorem rv46_apply (s : (⟨S4096x12x49x49, .f32⟩ : BufTy).Contents (Elt Ideal)) (vv : (⟨S4096x12x49x32, .f32⟩ : BufTy).Contents (Elt Ideal))
    (b : Fin 4096) (n : Fin 49) (h : Fin 12) (e : Fin 32) :
    Rv46 (F := Ideal) s vv (ix4 b n h e) = Rv45 (F := Ideal) s vv (ix4 b h e n) := by
  unfold Rv46
  exact transpose_apply _ _ _ _ (ix4 b h e n) fun c => match c with
    | ⟨0, _⟩ => rfl | ⟨1, _⟩ => rfl | ⟨2, _⟩ => rfl | ⟨3, _⟩ => rfl

/-- The reshape [4096, 49, 12, 32] → [4096, 49, 384]: column f is head f / 32, lane f % 32. -/
theorem rv47_apply (s : (⟨S4096x12x49x49, .f32⟩ : BufTy).Contents (Elt Ideal)) (vv : (⟨S4096x12x49x32, .f32⟩ : BufTy).Contents (Elt Ideal))
    (b : Fin 4096) (n : Fin 49) (f : Fin 384) :
    Rv47 (F := Ideal) s vv (ix3 b n f)
      = Rv46 (F := Ideal) s vv (ix4 b n ⟨f.val / 32, by omega⟩ ⟨f.val % 32, Nat.mod_lt _ (by decide)⟩) := by
  unfold Rv47
  refine shapeCast_apply _ _ _ _ ?_
  rw [Shape.rowMajor_val_four, Shape.rowMajor_val_three]
  show ((b.val * 49 + n.val) * 12 + f.val / 32) * 32 + f.val % 32 = (b.val * 49 + n.val) * 384 + f.val
  omega

/-- The output projection's operand indices, one coordinate at a time. -/
theorem lhs48_0 (i : S4096x49x384.Idx) (q : dot_S4096x49x384_S384x384_S4096x49x384_2_1_01_0_n_n.contr.Idx) :
    (dot_S4096x49x384_S384x384_S4096x49x384_2_1_01_0_n_n.lhsIdx i q 0).val = (i 0).val := by
  unfold DotDims.lhsIdx
  rw [dif_neg (show ¬(0 : Fin S4096x49x384.rank) ∈ dot_S4096x49x384_S384x384_S4096x49x384_2_1_01_0_n_n.lhsBatch by decide), dif_pos (show (0 : Fin S4096x49x384.rank) ∈ dot_S4096x49x384_S384x384_S4096x49x384_2_1_01_0_n_n.lhsNonContracting by decide)]
  rfl

theorem lhs48_1 (i : S4096x49x384.Idx) (q : dot_S4096x49x384_S384x384_S4096x49x384_2_1_01_0_n_n.contr.Idx) :
    (dot_S4096x49x384_S384x384_S4096x49x384_2_1_01_0_n_n.lhsIdx i q 1).val = (i 1).val := by
  unfold DotDims.lhsIdx
  rw [dif_neg (show ¬(1 : Fin S4096x49x384.rank) ∈ dot_S4096x49x384_S384x384_S4096x49x384_2_1_01_0_n_n.lhsBatch by decide), dif_pos (show (1 : Fin S4096x49x384.rank) ∈ dot_S4096x49x384_S384x384_S4096x49x384_2_1_01_0_n_n.lhsNonContracting by decide)]
  rfl

theorem lhs48_2 (i : S4096x49x384.Idx) (q : dot_S4096x49x384_S384x384_S4096x49x384_2_1_01_0_n_n.contr.Idx) :
    (dot_S4096x49x384_S384x384_S4096x49x384_2_1_01_0_n_n.lhsIdx i q 2).val = (q ⟨0, by decide⟩).val :=
  dot_S4096x49x384_S384x384_S4096x49x384_2_1_01_0_n_n.lhsIdx_val_of_single rfl i q

theorem rhs48_0 (i : S4096x49x384.Idx) (q : dot_S4096x49x384_S384x384_S4096x49x384_2_1_01_0_n_n.contr.Idx) :
    (dot_S4096x49x384_S384x384_S4096x49x384_2_1_01_0_n_n.rhsIdx i q 0).val = (i 2).val := by
  unfold DotDims.rhsIdx
  rw [dif_neg (show ¬(0 : Fin S384x384.rank) ∈ dot_S4096x49x384_S384x384_S4096x49x384_2_1_01_0_n_n.rhsBatch by decide), dif_pos (show (0 : Fin S384x384.rank) ∈ dot_S4096x49x384_S384x384_S4096x49x384_2_1_01_0_n_n.rhsNonContracting by decide)]
  rfl

theorem rhs48_1 (i : S4096x49x384.Idx) (q : dot_S4096x49x384_S384x384_S4096x49x384_2_1_01_0_n_n.contr.Idx) :
    (dot_S4096x49x384_S384x384_S4096x49x384_2_1_01_0_n_n.rhsIdx i q 1).val = (q ⟨0, by decide⟩).val :=
  dot_S4096x49x384_S384x384_S4096x49x384_2_1_01_0_n_n.rhsIdx_val_of_single rfl i q

/-- The output projection at (b, n, d): over the column f, the heads' entry (b, n, f) times the weight at (d, f). -/
theorem rv48_apply (s : (⟨S4096x12x49x49, .f32⟩ : BufTy).Contents (Elt Ideal)) (vv : (⟨S4096x12x49x32, .f32⟩ : BufTy).Contents (Elt Ideal))
    (a5 : (⟨S384x384, .f32⟩ : BufTy).Contents (Elt Ideal)) (b : Fin 4096) (n : Fin 49) (d : Fin 384) :
    Rv48 (F := Ideal) s vv a5 (ix3 b n d) = ∑ f : Fin 384, Rv47 (F := Ideal) s vv (ix3 b n f) * a5 (ix2 d f) := by
  unfold Rv48 Host.dotGeneral
  rw [Ideal.dotGeneral_apply, ← Equiv.sum_comp (contrEquiv1 dot_S4096x49x384_S384x384_S4096x49x384_2_1_01_0_n_n 384 rfl rfl).symm]
  refine Finset.sum_congr rfl fun k _ => ?_
  have hk := contrEquiv1_symm_val dot_S4096x49x384_S384x384_S4096x49x384_2_1_01_0_n_n 384 rfl rfl k
  have el : dot_S4096x49x384_S384x384_S4096x49x384_2_1_01_0_n_n.lhsIdx (ix3 b n d) ((contrEquiv1 dot_S4096x49x384_S384x384_S4096x49x384_2_1_01_0_n_n 384 rfl rfl).symm k) = ix3 b n k :=
    funext fun a => Fin.ext (by
      match a with
      | ⟨0, _⟩ => exact lhs48_0 _ _
      | ⟨1, _⟩ => exact lhs48_1 _ _
      | ⟨2, _⟩ => exact (lhs48_2 _ _).trans hk)
  have er : dot_S4096x49x384_S384x384_S4096x49x384_2_1_01_0_n_n.rhsIdx (ix3 b n d) ((contrEquiv1 dot_S4096x49x384_S384x384_S4096x49x384_2_1_01_0_n_n 384 rfl rfl).symm k) = ix2 d k :=
    funext fun a => Fin.ext (by
      match a with
      | ⟨0, _⟩ => exact rhs48_0 _ _
      | ⟨1, _⟩ => exact (rhs48_1 _ _).trans hk)
  rw [el, er]

/-- The output bias spread over windows and tokens reads the bias at the column. -/
theorem rv50_apply (a6 : (⟨S384, .f32⟩ : BufTy).Contents (Elt Ideal)) (b : Fin 4096) (n : Fin 49) (d : Fin 384) :
    Rv50 (F := Ideal) a6 (ix3 b n d) = a6 (ix1 d) := by
  unfold Rv50
  refine (broadcastInDim_apply _ _ _ _ (ix3 (0 : Fin 1) (0 : Fin 1) d) fun a => match a with
    | ⟨0, _⟩ => rfl | ⟨1, _⟩ => rfl | ⟨2, _⟩ => rfl).trans ?_
  unfold Rv49
  exact broadcastInDim_apply _ _ _ _ (ix1 d) fun a => match a with | ⟨0, _⟩ => rfl

/-- THE LAST STRETCH AT ONE ENTRY: the reference's result at (b, n, d) is, over the 384 columns f of the heads set side
    by side, the softmax-weighted sum of head f / 32's values at lane f % 32 times the output weight at (d, f), plus
    the output bias at d. The weighted sum is written softmax first, as the specification's head is. -/
theorem tail_apply (s : (⟨S4096x12x49x49, .f32⟩ : BufTy).Contents (Elt Ideal)) (vv : (⟨S4096x12x49x32, .f32⟩ : BufTy).Contents (Elt Ideal))
    (a5 : (⟨S384x384, .f32⟩ : BufTy).Contents (Elt Ideal)) (a6 : (⟨S384, .f32⟩ : BufTy).Contents (Elt Ideal))
    (b : Fin 4096) (n : Fin 49) (d : Fin 384) :
    Rv51 (F := Ideal) s vv a5 a6 (ix3 b n d)
      = (∑ f : Fin 384, (∑ m : Fin 49, AttnSpec.soft (fun m' => s (ix4 b ⟨f.val / 32, by omega⟩ n m')) m
                            * vv (ix4 b ⟨f.val / 32, by omega⟩ m ⟨f.val % 32, Nat.mod_lt _ (by decide)⟩)) * a5 (ix2 d f))
        + a6 (ix1 d) := by
  unfold Rv51
  rw [addf_apply, rv48_apply, rv50_apply]
  refine congrArg (· + a6 (ix1 d)) (Finset.sum_congr rfl fun f _ => ?_)
  rw [rv47_apply, rv46_apply, rv45_apply]
  refine congrArg (· * a5 (ix2 d f)) (Finset.sum_congr rfl fun m _ => ?_)
  rw [rv44_apply, mul_comm]

end Cert.ReferenceIdeal.RefTail

end
-- ==== Proof.RefOut.lean ====
/-
  The reference's result at one entry (b, n, d) is the single-window attention of window b with mask window
  b mod 64: its last stretch (softmax, weighted sum of the values, output projection) read at the entry, with
  the masked scores and the values of its first stretch put in.
-/
import proofs.«150585_j71975061947032_2_alg».proof.Proof.RefFront
import proofs.«150585_j71975061947032_2_alg».proof.Proof.RefTail

noncomputable section

namespace Cert.ReferenceIdeal.RefOut

open Cert.ReferenceIdeal Cert.ReferenceIdeal.RefStages Idealize.ShloMosaic Idealize.SL.Sem Idealize.ShloMosaic.ValueIdx

theorem out_apply (a0 : (⟨S4096x49x384, .f32⟩ : BufTy).Contents (Elt Ideal)) (a1 : (⟨S64x49x49, .f32⟩ : BufTy).Contents (Elt Ideal)) (a2 : (⟨S1152x384, .f32⟩ : BufTy).Contents (Elt Ideal)) (a3 : (⟨S1152, .f32⟩ : BufTy).Contents (Elt Ideal)) (a4 : (⟨S13x13x12, .f32⟩ : BufTy).Contents (Elt Ideal)) (a5 : (⟨S384x384, .f32⟩ : BufTy).Contents (Elt Ideal)) (a6 : (⟨S384, .f32⟩ : BufTy).Contents (Elt Ideal)) (b : Fin 4096) (n : Fin 49) (d : Fin 384) :
    Rout (F := Ideal) a0 a1 a2 a3 a4 a5 a6 (ix3 b n d)
      = AttnSpec.win (fun n c => a0 (ix3 b n c)) (fun n mm => a1 (ix3 ⟨b.val % 64, Nat.mod_lt _ (by decide)⟩ n mm))
          (fun f c => a2 (ix2 f c)) (fun f => a3 (ix1 f)) (fun h n mm => Rv25 (F := Ideal) a4 (ix3 h n mm))
          (fun d f => a5 (ix2 d f)) (fun d => a6 (ix1 d)) n d := by
  unfold Rout
  rw [RefTail.tail_apply]
  unfold AttnSpec.win
  refine congrArg (· + a6 (ix1 d)) (Finset.sum_congr rfl fun f _ => ?_)
  refine congrArg (· * a5 (ix2 d f)) ?_
  unfold AttnSpec.heads AttnSpec.head
  refine Finset.sum_congr rfl fun mm _ => ?_
  have hs : (fun m' => Rv33 (F := Ideal) a0 a1 a2 a3 a4 (ix4 b ⟨f.val / 32, by omega⟩ n m'))
      = AttnSpec.score (AttnSpec.part (AttnSpec.qkv (fun n c => a0 (ix3 b n c)) (fun f c => a2 (ix2 f c)) (fun f => a3 (ix1 f))) 0 ⟨f.val / 32, by omega⟩)
          (AttnSpec.part (AttnSpec.qkv (fun n c => a0 (ix3 b n c)) (fun f c => a2 (ix2 f c)) (fun f => a3 (ix1 f))) 1 ⟨f.val / 32, by omega⟩)
          (fun n mm => Rv25 (F := Ideal) a4 (ix3 ⟨f.val / 32, by omega⟩ n mm))
          (fun n mm => a1 (ix3 ⟨b.val % 64, Nat.mod_lt _ (by decide)⟩ n mm)) n :=
    funext fun m' => RefFront.scores_apply a0 a1 a2 a3 a4 b ⟨f.val / 32, by omega⟩ n m'
  rw [hs, RefFront.values_apply]

end Cert.ReferenceIdeal.RefOut

end
-- ==== Proof.RpbEq.lean ====
/-
  The two programs' relative-position bias arrays are one function of the bias table. Each is the head-first
  transpose [49,49,12] → [12,49,49] of the table, recast to 169×12, with its rows gathered through start
  indices made from the same 49×49 integer table. The kernel selects between "entry + 169" and "entry" on a
  constant false bit, which is the entry; the reference selects on "entry < 0" as a signed 32-bit word, which
  is the entry too because every entry is non-negative as a signed 32-bit word. So the two start-index arrays
  are equal, and the gathers, the recast and the transposes are then the same.
-/
import proofs.«150585_j71975061947032_2_alg».proof.Proof.KRpb
import proofs.«150585_j71975061947032_2_alg».proof.Proof.RefStages
import Idealize.ShloMosaic.Lib.ValueIdx
import Idealize.ShloMosaic.Lib.Decide

noncomputable section

namespace Cert.RpbEq

open Idealize.ShloMosaic Idealize.SL.Sem Idealize.ShloMosaic.ValueIdx

/-- The two printings of the 49×49 integer table agree entry by entry. -/
theorem tables_agree : ∀ i : Fin 2401, Cert.KernelIdeal.lit0 i = Cert.ReferenceIdeal.lit0 i := by decide +kernel

/-- Every entry of the table is non-negative as a signed 32-bit word: "entry < 0" is the false bit. -/
theorem entries_nonneg : ∀ i : Fin 2401, IntOp.cmpi .slt (Cert.ReferenceIdeal.lit0 i) 0#32 = 0#1 := by decide +kernel

/-- The two programs' index tables are one array. -/
theorem kc_eq : Cert.KernelIdeal.KRpb.Kc (F := Ideal) = Cert.ReferenceIdeal.RefStages.Rc (F := Ideal) := by
  funext i
  exact tables_agree _

/-- The reference's select between "entry + 169" and "entry" on "entry < 0" is the entry. -/
theorem rv22_eq : Cert.ReferenceIdeal.RefStages.Rv22 (F := Ideal) = Cert.ReferenceIdeal.RefStages.Rc (F := Ideal) := by
  funext i
  unfold Cert.ReferenceIdeal.RefStages.Rv22
  rw [select_apply]
  have h : Cert.ReferenceIdeal.RefStages.Rv19 (F := Ideal) i = 0#1 := entries_nonneg _
  rw [h, select_zero]

/-- The two start-index arrays are equal. -/
theorem kidx_eq : Cert.KernelIdeal.KRpb.Kidx (F := Ideal) = Cert.ReferenceIdeal.RefStages.Rv23 (F := Ideal) := by
  unfold Cert.KernelIdeal.KRpb.Kidx Cert.ReferenceIdeal.RefStages.Rv23
  rw [rv22_eq, ← kc_eq]
  congr 1

/-- THE BIAS ARRAYS AGREE: both are the head-first transpose of the table's rows gathered through the same
    start indices. -/
theorem rpb_eq (a4 : (⟨Cert.ReferenceIdeal.S13x13x12, .f32⟩ : BufTy).Contents (Elt Ideal)) :
    Cert.KernelIdeal.KRpb.Krpb (F := Ideal) a4 = Cert.ReferenceIdeal.RefStages.Rv25 (F := Ideal) a4 := by
  unfold Cert.KernelIdeal.KRpb.Krpb Cert.ReferenceIdeal.RefStages.Rv25 Cert.ReferenceIdeal.RefStages.Rv24 Cert.ReferenceIdeal.RefStages.Rv17
  rw [kidx_eq]
  rfl

end Cert.RpbEq

end
-- ==== Proof.Bridge.lean ====
/-
  The two results are one function of the arguments. The kernel's array is, entry by entry, the single-window
  attention of window b with mask window b mod 64 and the kernel's bias array; the reference's result read at an
  entry is the same expression with the reference's bias array; and the two bias arrays are equal.
-/
import proofs.«150585_j71975061947032_2_alg».proof.Proof.KOut
import proofs.«150585_j71975061947032_2_alg».proof.Proof.RefOut
import proofs.«150585_j71975061947032_2_alg».proof.Proof.RpbEq

noncomputable section

namespace Cert.Bridge

open Idealize.ShloMosaic Idealize.SL.Sem Idealize.ShloMosaic.ValueIdx

theorem kout_eq_rout (a0 : (⟨Cert.KernelIdeal.S4096x49x384, .f32⟩ : BufTy).Contents (Elt Ideal)) (a1 : (⟨Cert.KernelIdeal.S64x49x49, .f32⟩ : BufTy).Contents (Elt Ideal)) (a2 : (⟨Cert.KernelIdeal.S1152x384, .f32⟩ : BufTy).Contents (Elt Ideal)) (a3 : (⟨Cert.KernelIdeal.S1152, .f32⟩ : BufTy).Contents (Elt Ideal)) (a4 : (⟨Cert.KernelIdeal.S13x13x12, .f32⟩ : BufTy).Contents (Elt Ideal)) (a5 : (⟨Cert.KernelIdeal.S384x384, .f32⟩ : BufTy).Contents (Elt Ideal)) (a6 : (⟨Cert.KernelIdeal.S384, .f32⟩ : BufTy).Contents (Elt Ideal)) :
    Cert.KernelIdeal.KOut.Kout a0 a1 a2 a3 a4 a5 a6 = Cert.ReferenceIdeal.RefStages.Rout (F := Ideal) a0 a1 a2 a3 a4 a5 a6 := by
  funext i
  obtain ⟨b, n, d, rfl⟩ : ∃ (b : Fin 4096) (n : Fin 49) (d : Fin 384), i = ix3 b n d := ⟨i 0, i 1, i 2, eq_ix3 i⟩
  rw [Cert.ReferenceIdeal.RefOut.out_apply, ← Cert.RpbEq.rpb_eq]
  rfl

end Cert.Bridge

end
-- ==== Proof.lean ====
/-
  Windowed multi-head attention with a relative-position bias: a kernel that handles 32 windows per grid
  point — the stacked q;k;v projection of their 1568 rows, twelve heads of width 32 read as column groups, a
  softmax along each score row, and the output projection — against the plain array program that does the
  same with whole-array reshapes, transposes and batched products.

  On the extended reals both compute, at window b, token n, output column d, the single-window attention
  `AttnSpec.win` of window b's 49 rows with mask window b mod 64: the kernel because each grid point's block is
  the body's function of its input blocks, every input block is the argument arrays read where the block sits,
  and the 128 blocks tile the result; the reference because its straight line of operations, read at one entry,
  is the same expression. No law beyond commutativity of the product under one sum is used, so the
  precondition is never opened. The two bias arrays (a table's rows gathered through a fixed integer index
  table) are equal because the table's entries are non-negative. The three frames are the generated ones (the
  reference's is its run with the result dropped); the idealization rewrote no operation.
-/
import proofs.«150585_j71975061947032_2_alg».proof.Defs
import proofs.«150585_j71975061947032_2_alg».proof.Proof.Gen.Kernel
import proofs.«150585_j71975061947032_2_alg».proof.Proof.Gen.Kernel.Skeleton
import proofs.«150585_j71975061947032_2_alg».proof.Proof.Gen.Kernel.Launch
import proofs.«150585_j71975061947032_2_alg».proof.Proof.Gen.Kernel.Points
import proofs.«150585_j71975061947032_2_alg».proof.Proof.Gen.Kernel.Frame
import proofs.«150585_j71975061947032_2_alg».proof.Proof.Gen.KernelIdeal
import proofs.«150585_j71975061947032_2_alg».proof.Proof.Gen.KernelIdeal.Skeleton
import proofs.«150585_j71975061947032_2_alg».proof.Proof.Gen.KernelIdeal.Launch
import proofs.«150585_j71975061947032_2_alg».proof.Proof.Gen.KernelIdeal.Points
import proofs.«150585_j71975061947032_2_alg».proof.Proof.Gen.KernelIdeal.Frame
import proofs.«150585_j71975061947032_2_alg».proof.Proof.Gen.KernelIdeal.Value
import proofs.«150585_j71975061947032_2_alg».proof.Proof.Gen.ReferenceIdeal
import proofs.«150585_j71975061947032_2_alg».proof.Proof.Gen.Pre_finite_inputs
import proofs.«150585_j71975061947032_2_alg».proof.Proof.KFinal
import proofs.«150585_j71975061947032_2_alg».proof.Proof.RefRun
import proofs.«150585_j71975061947032_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- From memories agreeing on the arguments both programs end with the same array: the kernel's is `Kout` of the
    arguments, the reference's `Rout` of them, and the two are one function. -/
theorem algebraic : Cert.algebraic_KernelIdeal_ReferenceIdeal := by
  intro m ρ m' ρ' _ hagree
  refine ⟨fun c => Cert.KernelIdeal.KOut.Kout (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.KFinal.run m ρ, ?_⟩
  refine (θ_run Cert.ReferenceIdeal.defs _ _).mono (fun _ h c => ⟨(h c).1.trans ?_, (h c).2⟩)
    (Cert.ReferenceIdeal.RefRun.run (F := Ideal) m' ρ')
  obtain ⟨e0, e1, e2, e3, e4, e5, e6⟩ := hagree c
  rw [e0, e1, e2, e3, e4, e5, e6]
  exact (Cert.Bridge.kout_eq_rout _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
